-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S4x4096x256 .f32) (main_arg1 : FVec F S256x256 .f32) (main_arg2 : FVec F S256x256 .f32) (main_arg3 : FVec F S256x256 .f32) (main_arg4 : FVec F S256x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4x4096x256 : Shape := ⟨3, ![4, 4096, 256]⟩
abbrev S256x256 : Shape := ⟨2, ![256, 256]⟩
abbrev S1x1024x256 : Shape := ⟨3, ![1, 1024, 256]⟩
abbrev S1024x256 : Shape := ⟨2, ![1024, 256]⟩
abbrev S1024x1024 : Shape := ⟨2, ![1024, 1024]⟩

abbrev nBuf : Space → Nat
  | .hbm => 17
  | .vmem => 21
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .bf16⟩
  | .hbm, ⟨7, _⟩ => ⟨S256x256, .f32⟩
  | .hbm, ⟨8, _⟩ => ⟨S256x256, .bf16⟩
  | .hbm, ⟨9, _⟩ => ⟨S256x256, .f32⟩
  | .hbm, ⟨10, _⟩ => ⟨S256x256, .bf16⟩
  | .hbm, ⟨11, _⟩ => ⟨S256x256, .f32⟩
  | .hbm, ⟨12, _⟩ => ⟨S256x256, .bf16⟩
  | .hbm, ⟨13, _⟩ => ⟨S4x4096x256, .bf16⟩
  | .hbm, ⟨14, _⟩ => ⟨S4x4096x256, .bf16⟩
  | .hbm, ⟨15, _⟩ => ⟨S4x4096x256, .bf16⟩
  | .hbm, ⟨16, _⟩ => ⟨S4x4096x256, .f32⟩
  | .local _ .vmem, ⟨0, _⟩ => ⟨S1x1024x256, .f32⟩
  | .local _ .vmem, ⟨1, _⟩ => ⟨S1x1024x256, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S256x256, .bf16⟩
  | .local _ .vmem, ⟨18, _⟩ => ⟨S1x1024x256, .f32⟩
  | .local _ .vmem, ⟨19, _⟩ => ⟨S1x1024x256, .f32⟩
  | .local _ .vmem, ⟨20, _⟩ => ⟨S1024x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v26 : BitVec 1 := Scalar.cmpi .eq arg2 c3_i32
  let v27 : BitVec 32 := Scalar.extui v26
  let c0_i32_18 : BitVec 32 := 0#32
  let v28 : BitVec 1 := Scalar.cmpi .ne v27 c0_i32_18
  v28

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  transposes_S256x256_S256x256_1_0 : S256x256.Transposes [1, 0] S256x256
  bitsLt_bf16_f32 : FTy.bits .bf16 < FTy.bits .f32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  dot_S1024x256_S256x256_S1024x256_1_0_0_1_n_n_wf : DotDims.WF S1024x256 S256x256 S1024x256 [1] [0] [0] [1] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x4096x256.size a
  hwx0_0 : ∀ i : grid0.Coords, EltTy.bits .f32 = 32 ∨ (Rect.block (s := S4x4096x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S4x4096x256.size a
  hwx0_4 : ∀ i : grid0.Coords, EltTy.bits .bf16 = 32 ∨ (Rect.block (s := S4x4096x256) S1x1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x256.size a ≤ S4x4096x256.size a
  hwx0_5 : ∀ i : grid0.Coords, EltTy.bits .bf16 = 32 ∨ (Rect.block (s := S4x4096x256) S1x1024x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x256.size a ≤ S4x4096x256.size a
  hwx0_6 : ∀ i : grid0.Coords, EltTy.bits .bf16 = 32 ∨ (Rect.block (s := S4x4096x256) S1x1024x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S4x4096x256.size a
  hwx1_0 : ∀ i : grid1.Coords, EltTy.bits .bf16 = 32 ∨ (Rect.block (s := S4x4096x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x256.size a ≤ S4x4096x256.size a
  hwx1_1 : ∀ i : grid1.Coords, EltTy.bits .bf16 = 32 ∨ (Rect.block (s := S4x4096x256) S1x1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x256.size a ≤ S4x4096x256.size a
  hwx1_2 : ∀ i : grid1.Coords, EltTy.bits .bf16 = 32 ∨ (Rect.block (s := S4x4096x256) S1x1024x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x256.size a ≤ S4x4096x256.size a
  hwx1_4 : ∀ i : grid1.Coords, EltTy.bits .f32 = 32 ∨ (Rect.block (s := S4x4096x256) S1x1024x256.size (cc1_transform_4 i) (hinb1_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S1x1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S1x1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_2) S1x1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8_0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S1x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8_2) S1x1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S256x256 : Shape := ⟨2, ![256, 256]⟩
abbrev S_ : Shape := ⟨0, ![]⟩
abbrev S4x4096x4096 : Shape := ⟨3, ![4, 4096, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S4x4096x256, .f32⟩
  | .hbm, ⟨6, _⟩ => ⟨S_, .f32⟩
  | .hbm, ⟨7, _⟩ => ⟨S4x4096x256, .f32⟩
  | .hbm, ⟨8, _⟩ => ⟨S4x4096x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096x256, .f32⟩
  | .hbm, ⟨16, _⟩ => ⟨S4x4096x256, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x256, .f32⟩
  | .hbm, ⟨30, _⟩ => ⟨S_, .f32⟩
  | .hbm, ⟨31, _⟩ => ⟨S4x4096x256, .f32⟩
  | .hbm, ⟨32, _⟩ => ⟨S4x4096x256, .f32⟩
  | .hbm, ⟨33, _⟩ => ⟨S4x4096x256, .f32⟩
  | .hbm, ⟨34, _⟩ => ⟨S_, .f32⟩
  | .hbm, ⟨35, _⟩ => ⟨S4x4096x256, .f32⟩
  | .hbm, ⟨36, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S4x4096x256 : S_.BroadcastsInDim S4x4096x256 (![] : Fin 0 → Fin S4x4096x256.rank)
  bcast_S_S4x4096x4096 : S_.BroadcastsInDim S4x4096x4096 (![] : Fin 0 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.K.Region0.lean ====
/-
  The projection call (the first of the program's two pipelined calls), at any float interpretation `F`.

  Its grid has 4 × 4 points; at point `(b, i)` the body reads rows `1024·i … 1024·i + 1023` of batch `b` of `x`
  and the three transposed weight matrices, and leaves in each of its three output buffers ONE whole-buffer
  store: the block times a weight matrix, scaled.  This module states, for entry contents `V` of the core's
  buffers: the block of every window at a point (`iblk0`), what the body leaves in the three output buffers as a
  function of the input blocks (`out0_4`, `out0_5`, `out0_6`), the body's triple, the proof data of the pipeline
  (`dat0`) and the body obligation (`body_obligation0`).

  The weight windows have a constant block index: the pipeline fetches them at the first point only, and at every
  later point the buffer still holds the block, because the body leaves it in place.  Each output buffer is read
  by the body before it is overwritten whole; what is read is not used.
-/
import proofs.«112663_j7679401525969_2_alg».proof.Proof.Gen.Kernel.Launch
import proofs.«112663_j7679401525969_2_alg».proof.Proof.Gen.Kernel.Skeleton
import proofs.«112663_j7679401525969_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the contents of the core's buffers when the call is entered
variable (V : (c : Dev nD) → (b : Ref sig .tc) → Buf (Elt F) ((c : Thread nD τ).loc b))

/-! ## The blocks -/

/-- The block of window `w` at grid point `t`: the part of the window's array, at its entry contents, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds the window's block at every point, whether the pipeline fetched there or not
    (where it did not, the block index is the previous point's, and the body left the block in place), for any
    proof data over the entry arrays whose body leaves that window's block where it found it.  One statement per
    input window: the window number must be a literal for the side conditions to reduce. -/
theorem held0_0 {c : Dev nD} (dat : Dat τ (Elt F) Unit ℕ (UR sig nD τ) ℕ cfg0 c) (hA : dat.A 0 = V c (Pipeline.arrRef spec0 0))
    (hkeep : ∀ t, dat.after 0 t = iblk0 V c 0 t) (t : Fin cfg0.N) (d) : dat.before 0 t d = iblk0 V c 0 t :=
  (dat.before_in_eq_fetched 0 rfl (fun _ => rfl) (fun _ _ _ => rfl) (fun t => by rw [hkeep]; unfold Dat.blockOf iblk0; rw [hA]; try rfl) t d).trans
    (by unfold Dat.fetched Dat.blockOf iblk0; rw [hA]; try rfl)
theorem held0_1 {c : Dev nD} (dat : Dat τ (Elt F) Unit ℕ (UR sig nD τ) ℕ cfg0 c) (hA : dat.A 1 = V c (Pipeline.arrRef spec0 1))
    (hkeep : ∀ t, dat.after 1 t = iblk0 V c 1 t) (t : Fin cfg0.N) (d) : dat.before 1 t d = iblk0 V c 1 t :=
  (dat.before_in_eq_fetched 1 rfl (fun _ => rfl) (fun _ _ _ => rfl) (fun t => by rw [hkeep]; unfold Dat.blockOf iblk0; rw [hA]; try rfl) t d).trans
    (by unfold Dat.fetched Dat.blockOf iblk0; rw [hA]; try rfl)
theorem held0_2 {c : Dev nD} (dat : Dat τ (Elt F) Unit ℕ (UR sig nD τ) ℕ cfg0 c) (hA : dat.A 2 = V c (Pipeline.arrRef spec0 2))
    (hkeep : ∀ t, dat.after 2 t = iblk0 V c 2 t) (t : Fin cfg0.N) (d) : dat.before 2 t d = iblk0 V c 2 t :=
  (dat.before_in_eq_fetched 2 rfl (fun _ => rfl) (fun _ _ _ => rfl) (fun t => by rw [hkeep]; unfold Dat.blockOf iblk0; rw [hA]; try rfl) t d).trans
    (by unfold Dat.fetched Dat.blockOf iblk0; rw [hA]; try rfl)
theorem held0_3 {c : Dev nD} (dat : Dat τ (Elt F) Unit ℕ (UR sig nD τ) ℕ cfg0 c) (hA : dat.A 3 = V c (Pipeline.arrRef spec0 3))
    (hkeep : ∀ t, dat.after 3 t = iblk0 V c 3 t) (t : Fin cfg0.N) (d) : dat.before 3 t d = iblk0 V c 3 t :=
  (dat.before_in_eq_fetched 3 rfl (fun _ => rfl) (fun _ _ _ => rfl) (fun t => by rw [hkeep]; unfold Dat.blockOf iblk0; rw [hA]; try rfl) t d).trans
    (by unfold Dat.fetched Dat.blockOf iblk0; rw [hA]; try rfl)

/-! ## The rectangles the body reads and writes through: every one is a whole buffer -/

/-- All of a `[1, 1024, 256]` buffer (the block of `x`, and each output block). -/
abbrev boxX : Rect S1x1024x256 := Rect.unit (s := S1x1024x256) ![0, 0, 0] S1x1024x256.size inb_S1x1024x256_S1x1024x256_0_0_0
/-- All of a `[256, 256]` buffer (a weight matrix). -/
abbrev boxW : Rect S256x256 := Rect.unit (s := S256x256) ![0, 0] S256x256.size inb_S256x256_S256x256_0_0

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## What the body leaves in the output buffers -/

/-- The `q` output buffer after the body: one store, of the first projection of the block `x0` by the matrix `x1`. -/
def out0_4 (x0 : Vec F S1x1024x256 .f32) (x1 : Vec F S256x256 .bf16) : Vec F S1x1024x256 .bf16 :=
  View.canon [⟨boxX, k0_pay2 (View.ld x0 boxX) (View.ld x1 boxW)⟩]
/-- The `k` output buffer after the body: the second projection, by the matrix `x2`. -/
def out0_5 (x0 : Vec F S1x1024x256 .f32) (x2 : Vec F S256x256 .bf16) : Vec F S1x1024x256 .bf16 :=
  View.canon [⟨boxX, k0_pay3 (View.ld x0 boxX) (View.ld x2 boxW)⟩]
/-- The `v` output buffer after the body: the third projection, by the matrix `x3`. -/
def out0_6 (x0 : Vec F S1x1024x256 .f32) (x3 : Vec F S256x256 .bf16) : Vec F S1x1024x256 .bf16 :=
  View.canon [⟨boxX, k0_pay4 (View.ld x0 boxX) (View.ld x3 boxW)⟩]

/-- A store through the whole-buffer rectangle covers the buffer: every index lies in it. -/
theorem covers_boxX (p : Vec F S1x1024x256 .bf16) (y : S1x1024x256.Idx) :
    ∃ pc ∈ ([⟨boxX, p⟩] : List (View.Piece (Elt F) S1x1024x256 .bf16)), y ∈ pc.1.set :=
  ⟨_, List.mem_singleton_self _, View.mem_set_unit_zero (S := S1x1024x256) zeros3 inb_S1x1024x256_S1x1024x256_0_0_0 y⟩

/-! ## The body's triple -/

set_option maxHeartbeats 1000000 in
/-- The body on whole buffers: with the four input buffers reading `x0 … x3` and the three output buffers at any
    contents, it runs to a state where the inputs read as before and the outputs read `out0_4`, `out0_5`, `out0_6`
    of the inputs.  The body is its sequence of loads and stores over the named payloads; the loads of the output
    buffers bind values no payload reads. -/
theorem project_triple (c : Dev nD) (E : Set ℕ) (i : grid0.Coords)
    (arg2 : Memref sig .tc .vmem S1x1024x256 .f32) (harg2 : arg2.IsWhole)
    (arg3 : Memref sig .tc .vmem S256x256 .bf16) (harg3 : arg3.IsWhole)
    (arg4 : Memref sig .tc .vmem S256x256 .bf16) (harg4 : arg4.IsWhole)
    (arg5 : Memref sig .tc .vmem S256x256 .bf16) (harg5 : arg5.IsWhole)
    (arg6 : Memref sig .tc .vmem S1x1024x256 .bf16) (harg6 : arg6.IsWhole)
    (arg7 : Memref sig .tc .vmem S1x1024x256 .bf16) (harg7 : arg7.IsWhole)
    (arg8 : Memref sig .tc .vmem S1x1024x256 .bf16) (harg8 : arg8.IsWhole)
    (x0 : Vec F S1x1024x256 .f32) (x1 x2 x3 : Vec F S256x256 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E
          (cc0__project_kernel i arg2 harg2 arg3 harg3 arg4 harg4 arg5 harg5 arg6 harg6 arg7 harg7 arg8 harg8) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (covers_boxX _)
  isplitl [H5]
  · iexists _; isplitr
    swap; · iexact H5
    ipureintro
    exact View.read_writes_eq_canon _ _ _ (covers_boxX _)
  iexists _; isplitr
  swap; · iexact H6
  ipureintro
  exact View.read_writes_eq_canon _ _ _ (covers_boxX _)

/-! ## The pipeline's proof data -/

/-- The proof data of the projection pipeline on core `c`: the arrays at their entry contents; after the body at
    point `t` every input buffer still at its block and the three output buffers at the projections of the blocks;
    the invariant is the untouched rest of the core's scoped memory and its generator register; full shares,
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Every input buffer holds its window's block when the body is called. -/
theorem before0_0 (c : Dev nD) (t : Fin cfg0.N) (d) : (dat0 V c).before 0 t d = iblk0 V c 0 t :=
  held0_0 V (dat0 V c) (A_eq0 V c 0) (after0_0 V c) t d
theorem before0_1 (c : Dev nD) (t : Fin cfg0.N) (d) : (dat0 V c).before 1 t d = iblk0 V c 1 t :=
  held0_1 V (dat0 V c) (A_eq0 V c 1) (after0_1 V c) t d
theorem before0_2 (c : Dev nD) (t : Fin cfg0.N) (d) : (dat0 V c).before 2 t d = iblk0 V c 2 t :=
  held0_2 V (dat0 V c) (A_eq0 V c 2) (after0_2 V c) t d
theorem before0_3 (c : Dev nD) (t : Fin cfg0.N) (d) : (dat0 V c).before 3 t d = iblk0 V c 3 t :=
  held0_3 V (dat0 V c) (A_eq0 V c 3) (after0_3 V c) t d

/-! ## The body obligation -/

/-- What the body is called with at point `t`: the invariant, the core's debts, and the seven windows' current
    buffers, each at what the pipeline put or left there. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the same, the buffers at what the proof data says the body leaves. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the input buffers hold the blocks, so the body's triple applies at the blocks; the
    invariant and the debts are not touched. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (project_triple c Set.univ (grid0.coords t) _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation0 (c : Dev nD) : BodyObligation (dat0 (F := F) V c) (defs₀ (F := F)) Variants.none () Set.univ := fun t => by
  rw [bigSep_W0, bigSep_W0]
  exact body0 V c t

end Region0

end Cert.Kernel.Hand

end
-- ==== Proof.K.R1Base.lean ====
/-
  The second pallas_call (the attention kernel over the grid 4 × 4 × 4, the last axis running over the key
  tiles): what its proof data and its body's runs are stated over.  A point `t` of the grid has key tile
  `j = t mod 4`.  The body resets its accumulator when `j = 0`, adds the tile's contribution at every
  point, and stores the projected accumulator into the output block when `j = 3`; at the other points the
  output window is idle and is not written back.
-/
import proofs.«112663_j7679401525969_2_alg».proof.Proof.Gen.Kernel.Launch
import proofs.«112663_j7679401525969_2_alg».proof.Proof.Gen.Kernel.Skeleton
import proofs.«112663_j7679401525969_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched its index has not moved since the point that fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions, decided over the grid -/

/-- "This is the first key tile": the accumulator is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last key tile": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Before the last key tile the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last key tile it is live. -/
theorem liveAt1_4 : ∀ t : Fin cfg1.N, cond1_1 (grid1.coords t) → cfg1.idle 4 (grid1.coords t) = false := by decide +kernel

/-! ## The memrefs the body is called with -/

abbrev VO1_4 : View sig .tc .vmem S1x1024x256 .f32 := (Memref.whole cc1_stg4_0 : Memref sig .tc .vmem S1x1024x256 .f32).view
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x256 .f32 := win1_4.stage (cfg1.slots t 4)
abbrev hs1_4 (t : Fin cfg1.N) : (ms1_4 t).IsWhole := hstage1_4 ((cfg1.slots t 4).cast nbuf1_4)
/-- The accumulator: a whole scoped buffer of the kernel's own, kept from one point to the next. -/
abbrev scM1_0 : Memref sig .tc .vmem S1024x256 .f32 := Memref.whole cc1_scratch0
abbrev VS1_0 : View sig .tc .vmem S1024x256 .f32 := scM1_0.view

/-! ## The region's invariant: the scoped buffers no window of this call stages -/

/-- The first call's staging buffers, each whole at some contents: they ride through the second call untouched. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The scoped rest with the accumulator held at `P`. -/
def scr (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P)

theorem scr_out (c : Dev nD) (P : sProp 𝕄) : scr (F := F) c P ⊢ iprop(others (F := F) c ∗ P) := by
  unfold scr others
  iintro ⟨R0, R1, R2, R3, R4, R5, R6, R7, R8, R9, R10, HP⟩
  isplitr [HP]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  iexact HP

theorem scr_in (c : Dev nD) (P : sProp 𝕄) : iprop(others (F := F) c ∗ P) ⊢ scr (F := F) c P := by
  unfold scr others
  iintro ⟨⟨R0, R1, R2, R3, R4, R5, R6, R7, R8, R9, R10⟩, HP⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact HP

/-- The class's invariant, with the accumulator as a memref owned at some contents. -/
theorem PhiA1_eq (c : Dev nD) :
    (Pipeline.ΦA spec1 c : sProp 𝕄)
      = iprop(scr (F := F) c iprop(∃ d, owns (c : Thread nD τ) scM1_0 fullShare d) ∗ (∃ r, prngReg c r)) := by
  unfold Pipeline.ΦA scr; rw [scopedRest1_eq]; simp only [scM1_0, owns_whole]; try rfl

end Cert.Kernel.Hand

end
-- ==== Proof.K.R1RunA.lean ====
/-
  The attention body at a point of the FIRST key tile: the accumulator, whatever it held, is reset to zero and
  the tile's contribution is added; the output block is not touched.
-/
import proofs.«112663_j7679401525969_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the accumulator at a first key tile, with the body's triple: the three input
    blocks are held at their contents and handed back, the accumulator is held at anything and handed back with
    the pieces written. -/
noncomputable def kernelRun1_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : cond1_0 i) (hc1 : ¬cond1_1 i)
    (x0 x1 x2 : Vec F S1x1024x256 .bf16) :
    { LS0 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.R1RunB.lean ====
/-
  The attention body at a point of a MIDDLE key tile: the tile's contribution is added to the accumulator as
  the point before left it; the output block is not touched.
-/
import proofs.«112663_j7679401525969_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the accumulator at a middle key tile, with the body's triple: the accumulator
    is held at the contents `xs0` the point before left. -/
noncomputable def kernelRun1_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : ¬cond1_1 i)
    (x0 x1 x2 : Vec F S1x1024x256 .bf16) (xs0 : Vec F S1024x256 .f32) :
    { LS0 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg8 fullShare xs0
            ∗ (iprop(owns (c : Thread nD τ) arg3 fullShare x0 ∗ owns (c : Thread nD τ) arg4 fullShare x1 ∗ owns (c : Thread nD τ) arg5 fullShare x2 ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Hand

end
-- ==== Proof.K.R1RunC.lean ====
/-
  The attention body at a point of the LAST key tile: the tile's contribution is added to the accumulator as the
  point before left it, and the accumulator, projected by the output weights, is stored into the output block.
-/
import proofs.«112663_j7679401525969_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block and in the accumulator at a last key tile, with the body's
    triple: the four input blocks are held at their contents, the output block at anything, the accumulator at
    the contents `xs0` the point before left. -/
noncomputable def kernelRun1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : cond1_1 i)
    (x0 x1 x2 : Vec F S1x1024x256 .bf16) (x3 : Vec F S256x256 .bf16) (xs0 : Vec F S1024x256 .f32) :
    Σ' (L4 : List (View.Piece (Elt F) S1x1024x256 .f32)), { LS0 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.K.Region1.lean ====
/-
  The second pallas_call: what the accumulator and the output block hold after each point of the grid, the
  region's invariant, the proof data, and the body obligation.

  After point `t` the accumulator holds: at a first key tile, what the reset-and-add run leaves; otherwise what
  the add run leaves over the contents after point `t - 1`.  The output block is stored at the last key tile of
  each (batch, query tile) only, from the accumulator after that point.
-/
import proofs.«112663_j7679401525969_2_alg».proof.Proof.K.R1RunA
import proofs.«112663_j7679401525969_2_alg».proof.Proof.K.R1RunB
import proofs.«112663_j7679401525969_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem scover1_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : cond1_0 i) (hc1 : ¬cond1_1 i)
    (x0 x1 x2 : Vec F S1x1024x256 .bf16) (y : S1024x256.Idx) :
    ∃ pc ∈ (kernelRun1_A c i arg3 harg3 arg4 harg4 arg5 harg5 arg6 harg6 arg7 harg7 arg8 harg8 hc0 hc1 x0 x1 x2).1, y ∈ pc.1.set :=
  View.cover_of_tiledL (kernelRun1_A c i arg3 harg3 arg4 harg4 arg5 harg5 arg6 harg6 arg7 harg7 arg8 harg8 hc0 hc1 x0 x1 x2).1 S1024x256.size (by sl_kernel_rfl) y

/-- The accumulator after a first key tile. -/
def sout1_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : cond1_0 i) (hc1 : ¬cond1_1 i)
    (x0 x1 x2 : Vec F S1x1024x256 .bf16) : Vec F S1024x256 .f32 :=
  VS1_0.read (Elt F) (VS1_0.writes (Elt F) VS1_0.junk (kernelRun1_A c i arg3 harg3 arg4 harg4 arg5 harg5 arg6 harg6 arg7 harg7 arg8 harg8 hc0 hc1 x0 x1 x2).1)

theorem scover1_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : ¬cond1_1 i)
    (x0 x1 x2 : Vec F S1x1024x256 .bf16) (xs0 : Vec F S1024x256 .f32) (y : S1024x256.Idx) :
    ∃ pc ∈ (kernelRun1_B c i arg3 harg3 arg4 harg4 arg5 harg5 arg6 harg6 arg7 harg7 arg8 harg8 hc0 hc1 x0 x1 x2 xs0).1, y ∈ pc.1.set :=
  View.cover_of_tiledL (kernelRun1_B c i arg3 harg3 arg4 harg4 arg5 harg5 arg6 harg6 arg7 harg7 arg8 harg8 hc0 hc1 x0 x1 x2 xs0).1 S1024x256.size (by sl_kernel_rfl) y

/-- The accumulator after a middle key tile, over what the point before left. -/
def sout1_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : ¬cond1_1 i)
    (x0 x1 x2 : Vec F S1x1024x256 .bf16) (xs0 : Vec F S1024x256 .f32) : Vec F S1024x256 .f32 :=
  VS1_0.read (Elt F) (VS1_0.writes (Elt F) VS1_0.junk (kernelRun1_B c i arg3 harg3 arg4 harg4 arg5 harg5 arg6 harg6 arg7 harg7 arg8 harg8 hc0 hc1 x0 x1 x2 xs0).1)

theorem cover1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : cond1_1 i)
    (x0 x1 x2 : Vec F S1x1024x256 .bf16) (x3 : Vec F S256x256 .bf16) (xs0 : Vec F S1024x256 .f32) (y : S1x1024x256.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1x1024x256.size (by sl_kernel_rfl) y

/-- The output block after a last key tile. -/
def out1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : cond1_1 i)
    (x0 x1 x2 : Vec F S1x1024x256 .bf16) (x3 : Vec F S256x256 .bf16) (xs0 : Vec F S1024x256 .f32) : Vec F S1x1024x256 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

theorem scover1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : cond1_1 i)
    (x0 x1 x2 : Vec F S1x1024x256 .bf16) (x3 : Vec F S256x256 .bf16) (xs0 : Vec F S1024x256 .f32) (y : S1024x256.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x256.size (by sl_kernel_rfl) y

/-- The accumulator after a last key tile. -/
def sout1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : cond1_1 i)
    (x0 x1 x2 : Vec F S1x1024x256 .bf16) (x3 : Vec F S256x256 .bf16) (xs0 : Vec F S1024x256 .f32) : Vec F S1024x256 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

section
variable (V : (c : Dev nD) → (b : Ref sig .tc) → Buf (Elt F) ((c : Thread nD τ).loc b))

/-! ## The accumulator and the output block, point by point -/

/-- The accumulator after the body at position `n` of the grid. -/
def accAt (c : Dev nD) : (n : ℕ) → n < cfg1.N → Vec F S1024x256 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩)
  | n + 1, hn =>
    if h0 : (n + 1) % 4 = 0 then
      if h1 : (n + 1) % 4 = 3 then False.elim (by omega)
      else sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩)
    else
      if h1 : (n + 1) % 4 = 3 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (accAt c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (accAt c n (Nat.lt_of_succ_lt hn))

theorem accAt_A (c : Dev nD) (t : Fin cfg1.N) (h0 : t.val % 4 = 0) (h1 : ¬t.val % 4 = 3) :
    accAt V c t.val t.isLt = sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans ((dif_neg h1).trans rfl)

theorem accAt_B (c : Dev nD) (t : Fin cfg1.N) (h0 : ¬t.val % 4 = 0) (h1 : ¬t.val % 4 = 3) :
    accAt V c t.val t.isLt = sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg1.N) (h0 : ¬t.val % 4 = 0) (h1 : t.val % 4 = 3) :
    accAt V c t.val t.isLt = sout1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block after the body at point `t`: stored at a last key tile; elsewhere the window is idle and
    this value is consulted by nothing. -/
def outAt (c : Dev nD) (t : Fin cfg1.N) : Vec F S1x1024x256 .f32 :=
  if h1 : t.val % 4 = 3 then
    out1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => (by have := (hcond1_0 t).mp h; omega : False)) ((hcond1_1 t).mpr h1) (iblk1 V c 0 t) (iblk1 V c 1 t) (iblk1 V c 2 t) (iblk1 V c 3 t) (accAt V c (t.val - 1) (Nat.lt_of_le_of_lt (Nat.sub_le _ _) t.isLt))
  else VO1_4.read (Elt F) VO1_4.junk

theorem outAt_C (c : Dev nD) (t : Fin cfg1.N) (h0 : ¬t.val % 4 = 0) (h1 : t.val % 4 = 3) :
    outAt V c t = out1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (accAt V c (t.val - 1) (Nat.lt_of_le_of_lt (Nat.sub_le _ _) t.isLt)) := by
  unfold outAt; exact dif_pos h1

/-! ## The region's invariant -/

/-- Before position `n`: at the first point the class's invariant (every scoped buffer no window stages at
    anything); afterwards the same with the accumulator at what the point before left. -/
def PhiS (c : Dev nD) : (n : ℕ) → n ≤ cfg1.N → sProp 𝕄
  | 0, _ => Pipeline.ΦA spec1 c
  | n + 1, hn => iprop(scr (F := F) c (owns (c : Thread nD τ) scM1_0 fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scr (F := F) c (owns (c : Thread nD τ) scM1_0 fullShare (accAt V c n hn)) ∗ (∃ r, prngReg c r)) := rfl

theorem PhiS_pos (c : Dev nD) (n : ℕ) (h : n ≤ cfg1.N) (hz : n ≠ 0) :
    PhiS V c n h = iprop(scr (F := F) c (owns (c : Thread nD τ) scM1_0 fullShare (accAt V c (n - 1) (by omega))) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]

set_option maxHeartbeats 4800000 in
/-- The body at any point.  The inputs' memrefs hold their blocks; the point's key tile says which run applies;
    the invariant hands over the accumulator at what the point before left (at anything at the first point) and
    takes it back at this point's contents; the first call's staging buffers and the generator register ride
    along; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  have hN : t.val < 64 := lt_of_lt_of_eq t.isLt (show cfg1.N = 64 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [accAt_A V c t h0 h1]
    unfold sout1_A; (try dsimp only)
    have hpre : (dat1 V c).Φ t.castSucc ⊢ (iprop(others (F := F) c ∗ (∃ d, owns (c : Thread nD τ) scM1_0 fullShare d) ∗ (∃ r, prngReg c r)) : sProp 𝕄) := by
      by_cases hz : t.val = 0
      · rw [PhiS_castSucc V c t, PhiS_zero V c _ _ hz, PhiA1_eq]
        iintro ⟨HS, Hg⟩
        ihave H := (scr_out (F := F) c _) $$ HS
        icases H with ⟨Ho, HS0⟩
        isplitl [Ho]; · iexact Ho
        isplitl [HS0]; · iexact HS0
        iexact Hg
      · rw [PhiS_castSucc V c t, PhiS_pos V c _ _ hz]
        iintro ⟨HS, Hg⟩
        ihave H := (scr_out (F := F) c _) $$ HS
        icases H with ⟨Ho, HS0⟩
        isplitl [Ho]; · iexact Ho
        isplitl [HS0]; · iexists _; iexact HS0
        iexact Hg
    iintro ⟨HΦ, Ho, ⟨%d0, H0⟩, ⟨%d1, H1⟩, ⟨%d2, H2⟩, ⟨%d3, H3⟩, ⟨%d4, H4⟩⟩
    ihave HΦ' := hpre $$ HΦ
    icases HΦ' with ⟨Hoth, HS0, Hg⟩
    iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t)).2 Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg Hoth]
    · isplitl [HS0 Hoth]
      · iapply (scr_in (F := F) c _)
        isplitl [Hoth]; · iexact Hoth
        unfold owns; iexists _; isplitr
        swap; · iexact HS0
        ipureintro; exact View.read_writes_of_cover _ _ _ _ _ (scover1_A c _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 4 = 3
    · have hc0 : ¬cond1_0 (grid1.coords t) := fun h => h0 ((hcond1_0 t).mp h)
      have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4, outAt_C V c t h0 h1]
      rw [accAt_C V c t h0 h1]
      unfold out1_C sout1_C; (try dsimp only)
      rw [PhiS_castSucc V c t, PhiS_pos V c _ _ hz]
      iintro ⟨⟨HS, Hg⟩, Ho, ⟨%d0, H0⟩, ⟨%d1, H1⟩, ⟨%d2, H2⟩, ⟨%d3, H3⟩, ⟨%d4, H4⟩⟩
      ihave H := (scr_out (F := F) c _) $$ HS
      icases H with ⟨Hoth, HS0⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg Hoth]
      · isplitl [HS0 Hoth]
        · iapply (scr_in (F := F) c _)
          isplitl [Hoth]; · iexact Hoth
          unfold owns; iexists _; isplitr
          swap; · iexact HS0
          ipureintro; exact View.read_writes_of_cover _ _ _ _ _ (scover1_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 4 t (idleAt1_4 t hc1) (noFlush1_4 t hc1)]
      rw [accAt_B V c t h0 h1]
      unfold sout1_B; (try dsimp only)
      rw [PhiS_castSucc V c t, PhiS_pos V c _ _ hz]
      iintro ⟨⟨HS, Hg⟩, Ho, ⟨%d0, H0⟩, ⟨%d1, H1⟩, ⟨%d2, H2⟩, ⟨%d3, H3⟩, ⟨%d4, H4⟩⟩
      ihave H := (scr_out (F := F) c _) $$ HS
      icases H with ⟨Hoth, HS0⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) _).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hoth]
      · isplitl [HS0 Hoth]
        · iapply (scr_in (F := F) c _)
          isplitl [Hoth]; · iexact Hoth
          unfold owns; iexists _; isplitr
          swap; · iexact HS0
          ipureintro; exact View.read_writes_of_cover _ _ _ _ _ (scover1_B c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨HS, Hg⟩
  ihave H := (scr_out (F := F) c _) $$ HS
  icases H with ⟨Hoth, HS0⟩
  isplitl [HS0 Hoth]
  · iapply (scr_in (F := F) c _)
    isplitl [Hoth]; · iexact Hoth
    iexists _; iexact HS0
  iexact Hg

end

end Cert.Kernel.Hand

end
-- ==== Proof.K.Run.lean ====
/-
  The whole program: the host stretch that transposes the four weight matrices, then the projection call, then
  the attention call.  The contents of every unscoped buffer at each boundary are a fold from the launch memory;
  the run ends with every unscoped buffer at the last boundary's contents, from which both the frame (the five
  arguments end as launched) and the result array are read.
-/
import proofs.«112663_j7679401525969_2_alg».proof.Proof.K.Region0
import proofs.«112663_j7679401525969_2_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m (c, b)
/-- After the host stretch (the projection call's entry). -/
abbrev B1 : Dev nD → Valuation τ sig (Elt F) := fun c => StableHlo.after hostOps0 (B0 m c)
abbrev U1 : (c : Dev nD) → (b : Ref sig .tc) → Buf (Elt F) ((c : Thread nD τ).loc b) := fun c b => B1 m c b
/-- After the projection call: its arrays at what its write-backs leave, every other buffer as entered. -/
def B2 (c : Dev nD) : Valuation τ sig (Elt F) :=
  Pipeline.withArrays spec0 c (B1 m c) fun w => (dat0 (U1 m) c).arrAt w cfg0.N
theorem B2_arr (c : Dev nD) (w : Fin cfg0.W) :
    B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev U2 : (c : Dev nD) → (b : Ref sig .tc) → Buf (Elt F) ((c : Thread nD τ).loc b) := fun c b => B2 m c b
theorem hF0 (c : Dev nD) (w : Fin cfg0.W) : (dat0 (U1 m) c).arrAt w cfg0.N = U2 m c (Pipeline.arrRef spec0 w) :=
  (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)
/-- After the attention call. -/
def B3 (c : Dev nD) : Valuation τ sig (Elt F) :=
  Pipeline.withArrays spec1 c (B2 m c) fun w => (dat1 (U2 m) c).arrAt w cfg1.N
theorem B3_arr (c : Dev nD) (w : Fin cfg1.W) :
    B3 m c (Proc.devRef .tc (Pipeline.arrRef spec1 w)) = (dat1 (U2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev U3 : (c : Dev nD) → (b : Ref sig .tc) → Buf (Elt F) ((c : Thread nD τ).loc b) := fun c b => B3 m c b
theorem hF1 (c : Dev nD) (w : Fin cfg1.W) : (dat1 (U2 m) c).arrAt w cfg1.N = U3 m c (Pipeline.arrRef spec1 w) :=
  (B3_arr m c w).symm
theorem hrest1 (c : Dev nD) : ∀ b, b ∉ Finset.univ.image (Pipeline.arrRef spec1) → U3 m c b = U2 m c b :=
  fun b hb => B3_of_ne m c b fun w e => hb (Finset.mem_image.mpr ⟨w, Finset.mem_univ _, e⟩)

/-! ## The arguments end as launched -/

/-- The first argument is the first call's input window 0: read, never written. -/
theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := (B2_arr m c 0).trans (((dat0 (U1 m) c).arrAt_in 0 rfl _).trans (A_eq0 (U1 m) c 0))
    _ = B0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- A weight matrix is read by the host stretch only. -/
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = B0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- A weight matrix is read by the host stretch only. -/
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = B0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- A weight matrix is read by the host stretch only. -/
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- A weight matrix is read by the host stretch only. -/
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = B0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev admH : (p : Fin 2) → (pcfgs (F := F) p).Adm := fun p => (cfgs p).toPCfg_adm
/-- Each call's proof data at its entry contents. -/
def pdatsH : (p : Fin 2) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U2 m) c
abbrev 𝒱H : Variants := Variants.none
abbrev LH : GSem nD τ sig → Finset Unit := fun _ => ∅
abbrev lvH : GSem nD τ sig → Unit → ℕ := fun _ _ => 0
/-- What rides beside the buffers: the generator register at some state and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem hostOps0_freshH : (hostOps0 : List (HloOp τ sig (Elt F))).Forall fun op => op.fresh = ∅ := by
  simp only [List.Forall]; repeat' constructor
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (B3 m c) ∗ ∃ r, prngReg c r)

/-! ## The two calls as segments -/

set_option backward.isDefEq.respectTransparency.types false in
/-- Pallas_call 0 as a segment: entered from every unscoped buffer at its entry contents, left with the call's
    arrays at what its write-backs leave and every other buffer as entered; the generator register goes into the
    region's invariant and comes back; nothing is owed; the kernel has no semaphore of its own. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (B1 m c) ∗ RH c)
  post c := iprop(StableHlo.held (c : Thread nD τ) (Pipeline.ucRefs τ sig) (B2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered from every unscoped buffer at its entry contents, left with the call's
    arrays at what its write-backs leave and every other buffer as entered; the generator register goes into the
    region's invariant and comes back; nothing is owed; the kernel has no semaphore of its own. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ LH lvH 1 fun _ _ => rfl
  pre c := iprop(StableHlo.held (c : Thread nD τ) (Pipeline.ucRefs τ sig) (B2 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdatsH m 1 c).Φ (Fin.last _) ⊢ Pipeline.ΦA spec1 c from hout1 (U2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (U2 m c) (U3 m c) ((pdatsH m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) admH (pdatsH m) () defs₀ 𝒱H LH lvH) :=
  [ .host (hsegH hostOps0 hostOps0_sub hostOps0_freshH (B0 m)),
    .region (reg0 m),
    .region (reg1 m) ]
theorem main_runH (c : Dev nD) : main (F := F) c = Pipeline.Seg.run (segsH m) := (main_chain c).trans (by chain_rfl)

set_option backward.isDefEq.respectTransparency.types false in
/-- Every weakly fair execution of the program from memory `m` with zero counters terminates, nothing faulting,
    and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RH c)) (Tₙ := TnH m)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h => h)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_ucH main_arg0 (by decide))).trans (B3_main_arg0 m c),
     (h c _ (mem_ucH main_arg1 (by decide))).trans (B3_main_arg1 m c),
     (h c _ (mem_ucH main_arg2 (by decide))).trans (B3_main_arg2 m c),
     (h c _ (mem_ucH main_arg3 (by decide))).trans (B3_main_arg3 m c),
     (h c _ (mem_ucH main_arg4 (by decide))).trans (B3_main_arg4 m c)⟩) (run_all m ρ)

/-- The run with the result array named: the attention call's output window is array 4 of its pipeline. -/
theorem run_result : θ_run defs (onTc (τ := τ) (main (F := F))) ⟨m, fun _ => 0, ρ⟩ (fun r => ∀ c : Dev nD,
      r.2.mem ((c.tc : Thread nD τ).loc main_v9) = (dat1 (U2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_ucH main_v9 (by decide))).trans (B3_arr m c 4),
     (h c _ (mem_ucH main_arg0 (by decide))).trans (B3_main_arg0 m c),
     (h c _ (mem_ucH main_arg1 (by decide))).trans (B3_main_arg1 m c),
     (h c _ (mem_ucH main_arg2 (by decide))).trans (B3_main_arg2 m c),
     (h c _ (mem_ucH main_arg3 (by decide))).trans (B3_main_arg3 m c),
     (h c _ (mem_ucH main_arg4 (by decide))).trans (B3_main_arg4 m c)⟩) (run_all m ρ)

end Cert.Kernel.Hand

end
-- ==== Proof.Region0.lean ====
/-
  The projection call (the first of the program's two pipelined calls), at any float interpretation `F`.

  Its grid has 4 × 4 points; at point `(b, i)` the body reads rows `1024·i … 1024·i + 1023` of batch `b` of `x`
  and the three transposed weight matrices, and leaves in each of its three output buffers ONE whole-buffer
  store: the block times a weight matrix, scaled.  This module states, for entry contents `V` of the core's
  buffers: the block of every window at a point (`iblk0`), what the body leaves in the three output buffers as a
  function of the input blocks (`out0_4`, `out0_5`, `out0_6`), the body's triple, the proof data of the pipeline
  (`dat0`) and the body obligation (`body_obligation0`).

  The weight windows have a constant block index: the pipeline fetches them at the first point only, and at every
  later point the buffer still holds the block, because the body leaves it in place.  Each output buffer is read
  by the body before it is overwritten whole; what is read is not used.
-/
import proofs.«112663_j7679401525969_2_alg».proof.Proof.Gen.KernelIdeal.Launch
import proofs.«112663_j7679401525969_2_alg».proof.Proof.Gen.KernelIdeal.Skeleton
import proofs.«112663_j7679401525969_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the contents of the core's buffers when the call is entered
variable (V : (c : Dev nD) → (b : Ref sig .tc) → Buf (Elt F) ((c : Thread nD τ).loc b))

/-! ## The blocks -/

/-- The block of window `w` at grid point `t`: the part of the window's array, at its entry contents, that the
    window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds the window's block at every point, whether the pipeline fetched there or not
    (where it did not, the block index is the previous point's, and the body left the block in place), for any
    proof data over the entry arrays whose body leaves that window's block where it found it.  One statement per
    input window: the window number must be a literal for the side conditions to reduce. -/
theorem held0_0 {c : Dev nD} (dat : Dat τ (Elt F) Unit ℕ (UR sig nD τ) ℕ cfg0 c) (hA : dat.A 0 = V c (Pipeline.arrRef spec0 0))
    (hkeep : ∀ t, dat.after 0 t = iblk0 V c 0 t) (t : Fin cfg0.N) (d) : dat.before 0 t d = iblk0 V c 0 t :=
  (dat.before_in_eq_fetched 0 rfl (fun _ => rfl) (fun _ _ _ => rfl) (fun t => by rw [hkeep]; unfold Dat.blockOf iblk0; rw [hA]; try rfl) t d).trans
    (by unfold Dat.fetched Dat.blockOf iblk0; rw [hA]; try rfl)
theorem held0_1 {c : Dev nD} (dat : Dat τ (Elt F) Unit ℕ (UR sig nD τ) ℕ cfg0 c) (hA : dat.A 1 = V c (Pipeline.arrRef spec0 1))
    (hkeep : ∀ t, dat.after 1 t = iblk0 V c 1 t) (t : Fin cfg0.N) (d) : dat.before 1 t d = iblk0 V c 1 t :=
  (dat.before_in_eq_fetched 1 rfl (fun _ => rfl) (fun _ _ _ => rfl) (fun t => by rw [hkeep]; unfold Dat.blockOf iblk0; rw [hA]; try rfl) t d).trans
    (by unfold Dat.fetched Dat.blockOf iblk0; rw [hA]; try rfl)
theorem held0_2 {c : Dev nD} (dat : Dat τ (Elt F) Unit ℕ (UR sig nD τ) ℕ cfg0 c) (hA : dat.A 2 = V c (Pipeline.arrRef spec0 2))
    (hkeep : ∀ t, dat.after 2 t = iblk0 V c 2 t) (t : Fin cfg0.N) (d) : dat.before 2 t d = iblk0 V c 2 t :=
  (dat.before_in_eq_fetched 2 rfl (fun _ => rfl) (fun _ _ _ => rfl) (fun t => by rw [hkeep]; unfold Dat.blockOf iblk0; rw [hA]; try rfl) t d).trans
    (by unfold Dat.fetched Dat.blockOf iblk0; rw [hA]; try rfl)
theorem held0_3 {c : Dev nD} (dat : Dat τ (Elt F) Unit ℕ (UR sig nD τ) ℕ cfg0 c) (hA : dat.A 3 = V c (Pipeline.arrRef spec0 3))
    (hkeep : ∀ t, dat.after 3 t = iblk0 V c 3 t) (t : Fin cfg0.N) (d) : dat.before 3 t d = iblk0 V c 3 t :=
  (dat.before_in_eq_fetched 3 rfl (fun _ => rfl) (fun _ _ _ => rfl) (fun t => by rw [hkeep]; unfold Dat.blockOf iblk0; rw [hA]; try rfl) t d).trans
    (by unfold Dat.fetched Dat.blockOf iblk0; rw [hA]; try rfl)

/-! ## The rectangles the body reads and writes through: every one is a whole buffer -/

/-- All of a `[1, 1024, 256]` buffer (the block of `x`, and each output block). -/
abbrev boxX : Rect S1x1024x256 := Rect.unit (s := S1x1024x256) ![0, 0, 0] S1x1024x256.size inb_S1x1024x256_S1x1024x256_0_0_0
/-- All of a `[256, 256]` buffer (a weight matrix). -/
abbrev boxW : Rect S256x256 := Rect.unit (s := S256x256) ![0, 0] S256x256.size inb_S256x256_S256x256_0_0

theorem zeros3 : (![0, 0, 0] : Fin 3 → Nat) = fun _ => 0 := funext fun a => by fin_cases a <;> rfl
theorem zeros2 : (![0, 0] : Fin 2 → Nat) = fun _ => 0 := funext fun a => by fin_cases a <;> rfl

/-! ## What the body leaves in the output buffers -/

/-- The `q` output buffer after the body: one store, of the first projection of the block `x0` by the matrix `x1`. -/
def out0_4 (x0 : Vec F S1x1024x256 .f32) (x1 : Vec F S256x256 .bf16) : Vec F S1x1024x256 .bf16 :=
  View.canon [⟨boxX, k0_pay2 (View.ld x0 boxX) (View.ld x1 boxW)⟩]
/-- The `k` output buffer after the body: the second projection, by the matrix `x2`. -/
def out0_5 (x0 : Vec F S1x1024x256 .f32) (x2 : Vec F S256x256 .bf16) : Vec F S1x1024x256 .bf16 :=
  View.canon [⟨boxX, k0_pay3 (View.ld x0 boxX) (View.ld x2 boxW)⟩]
/-- The `v` output buffer after the body: the third projection, by the matrix `x3`. -/
def out0_6 (x0 : Vec F S1x1024x256 .f32) (x3 : Vec F S256x256 .bf16) : Vec F S1x1024x256 .bf16 :=
  View.canon [⟨boxX, k0_pay4 (View.ld x0 boxX) (View.ld x3 boxW)⟩]

/-- A store through the whole-buffer rectangle covers the buffer: every index lies in it. -/
theorem covers_boxX (p : Vec F S1x1024x256 .bf16) (y : S1x1024x256.Idx) :
    ∃ pc ∈ ([⟨boxX, p⟩] : List (View.Piece (Elt F) S1x1024x256 .bf16)), y ∈ pc.1.set :=
  ⟨_, List.mem_singleton_self _, View.mem_set_unit_zero (S := S1x1024x256) zeros3 inb_S1x1024x256_S1x1024x256_0_0_0 y⟩

/-! ## The body's triple -/

set_option maxHeartbeats 1000000 in
/-- The body on whole buffers: with the four input buffers reading `x0 … x3` and the three output buffers at any
    contents, it runs to a state where the inputs read as before and the outputs read `out0_4`, `out0_5`, `out0_6`
    of the inputs.  The body is its sequence of loads and stores over the named payloads; the loads of the output
    buffers bind values no payload reads. -/
theorem project_triple (c : Dev nD) (E : Set ℕ) (i : grid0.Coords)
    (arg2 : Memref sig .tc .vmem S1x1024x256 .f32) (harg2 : arg2.IsWhole)
    (arg3 : Memref sig .tc .vmem S256x256 .bf16) (harg3 : arg3.IsWhole)
    (arg4 : Memref sig .tc .vmem S256x256 .bf16) (harg4 : arg4.IsWhole)
    (arg5 : Memref sig .tc .vmem S256x256 .bf16) (harg5 : arg5.IsWhole)
    (arg6 : Memref sig .tc .vmem S1x1024x256 .bf16) (harg6 : arg6.IsWhole)
    (arg7 : Memref sig .tc .vmem S1x1024x256 .bf16) (harg7 : arg7.IsWhole)
    (arg8 : Memref sig .tc .vmem S1x1024x256 .bf16) (harg8 : arg8.IsWhole)
    (x0 : Vec F S1x1024x256 .f32) (x1 x2 x3 : Vec F S256x256 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E
          (cc0__project_kernel i arg2 harg2 arg3 harg3 arg4 harg4 arg5 harg5 arg6 harg6 arg7 harg7 arg8 harg8) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (covers_boxX _)
  isplitl [H5]
  · iexists _; isplitr
    swap; · iexact H5
    ipureintro
    exact View.read_writes_eq_canon _ _ _ (covers_boxX _)
  iexists _; isplitr
  swap; · iexact H6
  ipureintro
  exact View.read_writes_eq_canon _ _ _ (covers_boxX _)

/-! ## The pipeline's proof data -/

/-- The proof data of the projection pipeline on core `c`: the arrays at their entry contents; after the body at
    point `t` every input buffer still at its block and the three output buffers at the projections of the blocks;
    the invariant is the untouched rest of the core's scoped memory and its generator register; full shares,
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Every input buffer holds its window's block when the body is called. -/
theorem before0_0 (c : Dev nD) (t : Fin cfg0.N) (d) : (dat0 V c).before 0 t d = iblk0 V c 0 t :=
  held0_0 V (dat0 V c) (A_eq0 V c 0) (after0_0 V c) t d
theorem before0_1 (c : Dev nD) (t : Fin cfg0.N) (d) : (dat0 V c).before 1 t d = iblk0 V c 1 t :=
  held0_1 V (dat0 V c) (A_eq0 V c 1) (after0_1 V c) t d
theorem before0_2 (c : Dev nD) (t : Fin cfg0.N) (d) : (dat0 V c).before 2 t d = iblk0 V c 2 t :=
  held0_2 V (dat0 V c) (A_eq0 V c 2) (after0_2 V c) t d
theorem before0_3 (c : Dev nD) (t : Fin cfg0.N) (d) : (dat0 V c).before 3 t d = iblk0 V c 3 t :=
  held0_3 V (dat0 V c) (A_eq0 V c 3) (after0_3 V c) t d

/-! ## The body obligation -/

/-- What the body is called with at point `t`: the invariant, the core's debts, and the seven windows' current
    buffers, each at what the pipeline put or left there. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the same, the buffers at what the proof data says the body leaves. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the input buffers hold the blocks, so the body's triple applies at the blocks; the
    invariant and the debts are not touched. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (project_triple c Set.univ (grid0.coords t) _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation0 (c : Dev nD) : BodyObligation (dat0 (F := F) V c) (defs₀ (F := F)) Variants.none () Set.univ := fun t => by
  rw [bigSep_W0, bigSep_W0]
  exact body0 V c t

end Region0

end Cert.KernelIdeal.Hand

end
-- ==== Proof.KI.R1Base.lean ====
/-
  The second pallas_call (the attention kernel over the grid 4 × 4 × 4, the last axis running over the key
  tiles): what its proof data and its body's runs are stated over.  A point `t` of the grid has key tile
  `j = t mod 4`.  The body resets its accumulator when `j = 0`, adds the tile's contribution at every
  point, and stores the projected accumulator into the output block when `j = 3`; at the other points the
  output window is idle and is not written back.
-/
import proofs.«112663_j7679401525969_2_alg».proof.Proof.Gen.KernelIdeal.Launch
import proofs.«112663_j7679401525969_2_alg».proof.Proof.Gen.KernelIdeal.Skeleton
import proofs.«112663_j7679401525969_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is
    not fetched its index has not moved since the point that fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two conditions, decided over the grid -/

/-- "This is the first key tile": the accumulator is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is the last key tile": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Before the last key tile the output window is idle and is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last key tile it is live. -/
theorem liveAt1_4 : ∀ t : Fin cfg1.N, cond1_1 (grid1.coords t) → cfg1.idle 4 (grid1.coords t) = false := by decide +kernel

/-! ## The memrefs the body is called with -/

abbrev VO1_4 : View sig .tc .vmem S1x1024x256 .f32 := (Memref.whole cc1_stg4_0 : Memref sig .tc .vmem S1x1024x256 .f32).view
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024x256 .f32 := win1_4.stage (cfg1.slots t 4)
abbrev hs1_4 (t : Fin cfg1.N) : (ms1_4 t).IsWhole := hstage1_4 ((cfg1.slots t 4).cast nbuf1_4)
/-- The accumulator: a whole scoped buffer of the kernel's own, kept from one point to the next. -/
abbrev scM1_0 : Memref sig .tc .vmem S1024x256 .f32 := Memref.whole cc1_scratch0
abbrev VS1_0 : View sig .tc .vmem S1024x256 .f32 := scM1_0.view

/-! ## The region's invariant: the scoped buffers no window of this call stages -/

/-- The first call's staging buffers, each whole at some contents: they ride through the second call untouched. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The scoped rest with the accumulator held at `P`. -/
def scr (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ P)

theorem scr_out (c : Dev nD) (P : sProp 𝕄) : scr (F := F) c P ⊢ iprop(others (F := F) c ∗ P) := by
  unfold scr others
  iintro ⟨R0, R1, R2, R3, R4, R5, R6, R7, R8, R9, R10, HP⟩
  isplitr [HP]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  iexact HP

theorem scr_in (c : Dev nD) (P : sProp 𝕄) : iprop(others (F := F) c ∗ P) ⊢ scr (F := F) c P := by
  unfold scr others
  iintro ⟨⟨R0, R1, R2, R3, R4, R5, R6, R7, R8, R9, R10⟩, HP⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact HP

/-- The class's invariant, with the accumulator as a memref owned at some contents. -/
theorem PhiA1_eq (c : Dev nD) :
    (Pipeline.ΦA spec1 c : sProp 𝕄)
      = iprop(scr (F := F) c iprop(∃ d, owns (c : Thread nD τ) scM1_0 fullShare d) ∗ (∃ r, prngReg c r)) := by
  unfold Pipeline.ΦA scr; rw [scopedRest1_eq]; simp only [scM1_0, owns_whole]; try rfl

end Cert.KernelIdeal.Hand

end
-- ==== Proof.KI.R1RunA.lean ====
/-
  The attention body at a point of the FIRST key tile: the accumulator, whatever it held, is reset to zero and
  the tile's contribution is added; the output block is not touched.
-/
import proofs.«112663_j7679401525969_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the accumulator at a first key tile, with the body's triple: the three input
    blocks are held at their contents and handed back, the accumulator is held at anything and handed back with
    the pieces written. -/
noncomputable def kernelRun1_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : cond1_0 i) (hc1 : ¬cond1_1 i)
    (x0 x1 x2 : Vec F S1x1024x256 .bf16) :
    { LS0 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R1RunB.lean ====
/-
  The attention body at a point of a MIDDLE key tile: the tile's contribution is added to the accumulator as
  the point before left it; the output block is not touched.
-/
import proofs.«112663_j7679401525969_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the accumulator at a middle key tile, with the body's triple: the accumulator
    is held at the contents `xs0` the point before left. -/
noncomputable def kernelRun1_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : ¬cond1_1 i)
    (x0 x1 x2 : Vec F S1x1024x256 .bf16) (xs0 : Vec F S1024x256 .f32) :
    { LS0 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg8 fullShare xs0
            ∗ (iprop(owns (c : Thread nD τ) arg3 fullShare x0 ∗ owns (c : Thread nD τ) arg4 fullShare x1 ∗ owns (c : Thread nD τ) arg5 fullShare x2 ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Hand

end
-- ==== Proof.KI.R1RunC.lean ====
/-
  The attention body at a point of the LAST key tile: the tile's contribution is added to the accumulator as the
  point before left it, and the accumulator, projected by the output weights, is stored into the output block.
-/
import proofs.«112663_j7679401525969_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body leaves in the output block and in the accumulator at a last key tile, with the body's
    triple: the four input blocks are held at their contents, the output block at anything, the accumulator at
    the contents `xs0` the point before left. -/
noncomputable def kernelRun1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : cond1_1 i)
    (x0 x1 x2 : Vec F S1x1024x256 .bf16) (x3 : Vec F S256x256 .bf16) (xs0 : Vec F S1024x256 .f32) :
    Σ' (L4 : List (View.Piece (Elt F) S1x1024x256 .f32)), { LS0 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.KI.Region1.lean ====
/-
  The second pallas_call: what the accumulator and the output block hold after each point of the grid, the
  region's invariant, the proof data, and the body obligation.

  After point `t` the accumulator holds: at a first key tile, what the reset-and-add run leaves; otherwise what
  the add run leaves over the contents after point `t - 1`.  The output block is stored at the last key tile of
  each (batch, query tile) only, from the accumulator after that point.
-/
import proofs.«112663_j7679401525969_2_alg».proof.Proof.KI.R1RunA
import proofs.«112663_j7679401525969_2_alg».proof.Proof.KI.R1RunB
import proofs.«112663_j7679401525969_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem scover1_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : cond1_0 i) (hc1 : ¬cond1_1 i)
    (x0 x1 x2 : Vec F S1x1024x256 .bf16) (y : S1024x256.Idx) :
    ∃ pc ∈ (kernelRun1_A c i arg3 harg3 arg4 harg4 arg5 harg5 arg6 harg6 arg7 harg7 arg8 harg8 hc0 hc1 x0 x1 x2).1, y ∈ pc.1.set :=
  View.cover_of_tiledL (kernelRun1_A c i arg3 harg3 arg4 harg4 arg5 harg5 arg6 harg6 arg7 harg7 arg8 harg8 hc0 hc1 x0 x1 x2).1 S1024x256.size (by sl_kernel_rfl) y

/-- The accumulator after a first key tile. -/
def sout1_A (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : cond1_0 i) (hc1 : ¬cond1_1 i)
    (x0 x1 x2 : Vec F S1x1024x256 .bf16) : Vec F S1024x256 .f32 :=
  VS1_0.read (Elt F) (VS1_0.writes (Elt F) VS1_0.junk (kernelRun1_A c i arg3 harg3 arg4 harg4 arg5 harg5 arg6 harg6 arg7 harg7 arg8 harg8 hc0 hc1 x0 x1 x2).1)

theorem scover1_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : ¬cond1_1 i)
    (x0 x1 x2 : Vec F S1x1024x256 .bf16) (xs0 : Vec F S1024x256 .f32) (y : S1024x256.Idx) :
    ∃ pc ∈ (kernelRun1_B c i arg3 harg3 arg4 harg4 arg5 harg5 arg6 harg6 arg7 harg7 arg8 harg8 hc0 hc1 x0 x1 x2 xs0).1, y ∈ pc.1.set :=
  View.cover_of_tiledL (kernelRun1_B c i arg3 harg3 arg4 harg4 arg5 harg5 arg6 harg6 arg7 harg7 arg8 harg8 hc0 hc1 x0 x1 x2 xs0).1 S1024x256.size (by sl_kernel_rfl) y

/-- The accumulator after a middle key tile, over what the point before left. -/
def sout1_B (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : ¬cond1_1 i)
    (x0 x1 x2 : Vec F S1x1024x256 .bf16) (xs0 : Vec F S1024x256 .f32) : Vec F S1024x256 .f32 :=
  VS1_0.read (Elt F) (VS1_0.writes (Elt F) VS1_0.junk (kernelRun1_B c i arg3 harg3 arg4 harg4 arg5 harg5 arg6 harg6 arg7 harg7 arg8 harg8 hc0 hc1 x0 x1 x2 xs0).1)

theorem cover1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : cond1_1 i)
    (x0 x1 x2 : Vec F S1x1024x256 .bf16) (x3 : Vec F S256x256 .bf16) (xs0 : Vec F S1024x256 .f32) (y : S1x1024x256.Idx) :
    ∃ pc ∈ (kernelRun1_C c i arg3 harg3 arg4 harg4 arg5 harg5 arg6 harg6 arg7 harg7 arg8 harg8 hc0 hc1 x0 x1 x2 x3 xs0).1, y ∈ pc.1.set :=
  View.cover_of_tiledL (kernelRun1_C c i arg3 harg3 arg4 harg4 arg5 harg5 arg6 harg6 arg7 harg7 arg8 harg8 hc0 hc1 x0 x1 x2 x3 xs0).1 S1x1024x256.size (by sl_kernel_rfl) y

/-- The output block after a last key tile. -/
def out1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : cond1_1 i)
    (x0 x1 x2 : Vec F S1x1024x256 .bf16) (x3 : Vec F S256x256 .bf16) (xs0 : Vec F S1024x256 .f32) : Vec F S1x1024x256 .f32 :=
  VO1_4.read (Elt F) (VO1_4.writes (Elt F) VO1_4.junk (kernelRun1_C c i arg3 harg3 arg4 harg4 arg5 harg5 arg6 harg6 arg7 harg7 arg8 harg8 hc0 hc1 x0 x1 x2 x3 xs0).1)

theorem scover1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : cond1_1 i)
    (x0 x1 x2 : Vec F S1x1024x256 .bf16) (x3 : Vec F S256x256 .bf16) (xs0 : Vec F S1024x256 .f32) (y : S1024x256.Idx) :
    ∃ pc ∈ (kernelRun1_C c i arg3 harg3 arg4 harg4 arg5 harg5 arg6 harg6 arg7 harg7 arg8 harg8 hc0 hc1 x0 x1 x2 x3 xs0).2.1, y ∈ pc.1.set :=
  View.cover_of_tiledL (kernelRun1_C c i arg3 harg3 arg4 harg4 arg5 harg5 arg6 harg6 arg7 harg7 arg8 harg8 hc0 hc1 x0 x1 x2 x3 xs0).2.1 S1024x256.size (by sl_kernel_rfl) y

/-- The accumulator after a last key tile. -/
def sout1_C (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : cond1_1 i)
    (x0 x1 x2 : Vec F S1x1024x256 .bf16) (x3 : Vec F S256x256 .bf16) (xs0 : Vec F S1024x256 .f32) : Vec F S1024x256 .f32 :=
  VS1_0.read (Elt F) (VS1_0.writes (Elt F) VS1_0.junk (kernelRun1_C c i arg3 harg3 arg4 harg4 arg5 harg5 arg6 harg6 arg7 harg7 arg8 harg8 hc0 hc1 x0 x1 x2 x3 xs0).2.1)

section
variable (V : (c : Dev nD) → (b : Ref sig .tc) → Buf (Elt F) ((c : Thread nD τ).loc b))

/-! ## The accumulator and the output block, point by point -/

/-- The accumulator after the body at position `n` of the grid. -/
def accAt (c : Dev nD) : (n : ℕ) → n < cfg1.N → Vec F S1024x256 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩)
  | n + 1, hn =>
    if h0 : (n + 1) % 4 = 0 then
      if h1 : (n + 1) % 4 = 3 then False.elim (by omega)
      else sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩)
    else
      if h1 : (n + 1) % 4 = 3 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (accAt c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (accAt c n (Nat.lt_of_succ_lt hn))

theorem accAt_A (c : Dev nD) (t : Fin cfg1.N) (h0 : t.val % 4 = 0) (h1 : ¬t.val % 4 = 3) :
    accAt V c t.val t.isLt = sout1_A c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) := by
  obtain ⟨n, hn⟩ := t
  cases n with
  | zero => exact rfl
  | succ n => exact (dif_pos h0).trans ((dif_neg h1).trans rfl)

theorem accAt_B (c : Dev nD) (t : Fin cfg1.N) (h0 : ¬t.val % 4 = 0) (h1 : ¬t.val % 4 = 3) :
    accAt V c t.val t.isLt = sout1_B c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg1.N) (h0 : ¬t.val % 4 = 0) (h1 : t.val % 4 = 3) :
    accAt V c t.val t.isLt = sout1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The output block after the body at point `t`: stored at a last key tile; elsewhere the window is idle and
    this value is consulted by nothing. -/
def outAt (c : Dev nD) (t : Fin cfg1.N) : Vec F S1x1024x256 .f32 :=
  if h1 : t.val % 4 = 3 then
    out1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => (by have := (hcond1_0 t).mp h; omega : False)) ((hcond1_1 t).mpr h1) (iblk1 V c 0 t) (iblk1 V c 1 t) (iblk1 V c 2 t) (iblk1 V c 3 t) (accAt V c (t.val - 1) (Nat.lt_of_le_of_lt (Nat.sub_le _ _) t.isLt))
  else VO1_4.read (Elt F) VO1_4.junk

theorem outAt_C (c : Dev nD) (t : Fin cfg1.N) (h0 : ¬t.val % 4 = 0) (h1 : t.val % 4 = 3) :
    outAt V c t = out1_C c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (accAt V c (t.val - 1) (Nat.lt_of_le_of_lt (Nat.sub_le _ _) t.isLt)) := by
  unfold outAt; exact dif_pos h1

/-! ## The region's invariant -/

/-- Before position `n`: at the first point the class's invariant (every scoped buffer no window stages at
    anything); afterwards the same with the accumulator at what the point before left. -/
def PhiS (c : Dev nD) : (n : ℕ) → n ≤ cfg1.N → sProp 𝕄
  | 0, _ => Pipeline.ΦA spec1 c
  | n + 1, hn => iprop(scr (F := F) c (owns (c : Thread nD τ) scM1_0 fullShare (accAt V c n hn)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(scr (F := F) c (owns (c : Thread nD τ) scM1_0 fullShare (accAt V c n hn)) ∗ (∃ r, prngReg c r)) := rfl

theorem PhiS_pos (c : Dev nD) (n : ℕ) (h : n ≤ cfg1.N) (hz : n ≠ 0) :
    PhiS V c n h = iprop(scr (F := F) c (owns (c : Thread nD τ) scM1_0 fullShare (accAt V c (n - 1) (by omega))) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]

set_option maxHeartbeats 4800000 in
/-- The body at any point.  The inputs' memrefs hold their blocks; the point's key tile says which run applies;
    the invariant hands over the accumulator at what the point before left (at anything at the first point) and
    takes it back at this point's contents; the first call's staging buffers and the generator register ride
    along; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2, leaves1_3]
  have hN : t.val < 64 := lt_of_lt_of_eq t.isLt (show cfg1.N = 64 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 4 t (idleAt1_4 t hc1) (noFlush1_4 t hc1)]
    rw [accAt_A V c t h0 h1]
    unfold sout1_A; (try dsimp only)
    have hpre : (dat1 V c).Φ t.castSucc ⊢ (iprop(others (F := F) c ∗ (∃ d, owns (c : Thread nD τ) scM1_0 fullShare d) ∗ (∃ r, prngReg c r)) : sProp 𝕄) := by
      by_cases hz : t.val = 0
      · rw [PhiS_castSucc V c t, PhiS_zero V c _ _ hz, PhiA1_eq]
        iintro ⟨HS, Hg⟩
        ihave H := (scr_out (F := F) c _) $$ HS
        icases H with ⟨Ho, HS0⟩
        isplitl [Ho]; · iexact Ho
        isplitl [HS0]; · iexact HS0
        iexact Hg
      · rw [PhiS_castSucc V c t, PhiS_pos V c _ _ hz]
        iintro ⟨HS, Hg⟩
        ihave H := (scr_out (F := F) c _) $$ HS
        icases H with ⟨Ho, HS0⟩
        isplitl [Ho]; · iexact Ho
        isplitl [HS0]; · iexists _; iexact HS0
        iexact Hg
    iintro ⟨HΦ, Ho, ⟨%d0, H0⟩, ⟨%d1, H1⟩, ⟨%d2, H2⟩, ⟨%d3, H3⟩, ⟨%d4, H4⟩⟩
    ihave HΦ' := hpre $$ HΦ
    icases HΦ' with ⟨Hoth, HS0, Hg⟩
    iapply ((kernelRun1_A c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t)).2 Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg Hoth]
    · isplitl [HS0 Hoth]
      · iapply (scr_in (F := F) c _)
        isplitl [Hoth]; · iexact Hoth
        unfold owns; iexists _; isplitr
        swap; · iexact HS0
        ipureintro; exact View.read_writes_of_cover _ _ _ _ _ (scover1_A c _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := by omega
    by_cases h1 : t.val % 4 = 3
    · have hc0 : ¬cond1_0 (grid1.coords t) := fun h => h0 ((hcond1_0 t).mp h)
      have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4, outAt_C V c t h0 h1]
      rw [accAt_C V c t h0 h1]
      unfold out1_C sout1_C; (try dsimp only)
      rw [PhiS_castSucc V c t, PhiS_pos V c _ _ hz]
      iintro ⟨⟨HS, Hg⟩, Ho, ⟨%d0, H0⟩, ⟨%d1, H1⟩, ⟨%d2, H2⟩, ⟨%d3, H3⟩, ⟨%d4, H4⟩⟩
      ihave H := (scr_out (F := F) c _) $$ HS
      icases H with ⟨Hoth, HS0⟩
      iapply ((kernelRun1_C c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg Hoth]
      · isplitl [HS0 Hoth]
        · iapply (scr_in (F := F) c _)
          isplitl [Hoth]; · iexact Hoth
          unfold owns; iexists _; isplitr
          swap; · iexact HS0
          ipureintro; exact View.read_writes_of_cover _ _ _ _ _ (scover1_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C c _ _ _ _ _ _ _ _ _ _ _ _ _ _ _ _ _ _ _ _)
    · have hc0 : ¬cond1_0 (grid1.coords t) := fun h => h0 ((hcond1_0 t).mp h)
      have hc1 : ¬cond1_1 (grid1.coords t) := fun h => h1 ((hcond1_1 t).mp h)
      rw [Dat.leavesExact_idle (dat1 V c) 4 t (idleAt1_4 t hc1) (noFlush1_4 t hc1)]
      rw [accAt_B V c t h0 h1]
      unfold sout1_B; (try dsimp only)
      rw [PhiS_castSucc V c t, PhiS_pos V c _ _ hz]
      iintro ⟨⟨HS, Hg⟩, Ho, ⟨%d0, H0⟩, ⟨%d1, H1⟩, ⟨%d2, H2⟩, ⟨%d3, H3⟩, ⟨%d4, H4⟩⟩
      ihave H := (scr_out (F := F) c _) $$ HS
      icases H with ⟨Hoth, HS0⟩
      iapply ((kernelRun1_B c (grid1.coords t) (ms1_0 t) (hs1_0 t) (ms1_1 t) (hs1_1 t) (ms1_2 t) (hs1_2 t) (ms1_3 t) (hs1_3 t) (ms1_4 t) (hs1_4 t) scM1_0 (Memref.isWhole_whole _) hc0 hc1 (iblk1 V c 0 t) (iblk1 V c 1 t) (iblk1 V c 2 t) _).2 Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hoth]
      · isplitl [HS0 Hoth]
        · iapply (scr_in (F := F) c _)
          isplitl [Hoth]; · iexact Hoth
          unfold owns; iexists _; isplitr
          swap; · iexact HS0
          ipureintro; exact View.read_writes_of_cover _ _ _ _ _ (scover1_B c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨HS, Hg⟩
  ihave H := (scr_out (F := F) c _) $$ HS
  icases H with ⟨Hoth, HS0⟩
  isplitl [HS0 Hoth]
  · iapply (scr_in (F := F) c _)
    isplitl [Hoth]; · iexact Hoth
    iexists _; iexact HS0
  iexact Hg

end

end Cert.KernelIdeal.Hand

end
-- ==== Proof.KI.Run.lean ====
/-
  The whole program: the host stretch that transposes the four weight matrices, then the projection call, then
  the attention call.  The contents of every unscoped buffer at each boundary are a fold from the launch memory;
  the run ends with every unscoped buffer at the last boundary's contents, from which both the frame (the five
  arguments end as launched) and the result array are read.
-/
import proofs.«112663_j7679401525969_2_alg».proof.Proof.Region0
import proofs.«112663_j7679401525969_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m (c, b)
/-- After the host stretch (the projection call's entry). -/
abbrev B1 : Dev nD → Valuation τ sig (Elt F) := fun c => StableHlo.after hostOps0 (B0 m c)
abbrev U1 : (c : Dev nD) → (b : Ref sig .tc) → Buf (Elt F) ((c : Thread nD τ).loc b) := fun c b => B1 m c b
/-- After the projection call: its arrays at what its write-backs leave, every other buffer as entered. -/
def B2 (c : Dev nD) : Valuation τ sig (Elt F) :=
  Pipeline.withArrays spec0 c (B1 m c) fun w => (dat0 (U1 m) c).arrAt w cfg0.N
theorem B2_arr (c : Dev nD) (w : Fin cfg0.W) :
    B2 m c (Proc.devRef .tc (Pipeline.arrRef spec0 w)) = (dat0 (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev U2 : (c : Dev nD) → (b : Ref sig .tc) → Buf (Elt F) ((c : Thread nD τ).loc b) := fun c b => B2 m c b
theorem hF0 (c : Dev nD) (w : Fin cfg0.W) : (dat0 (U1 m) c).arrAt w cfg0.N = U2 m c (Pipeline.arrRef spec0 w) :=
  (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)
/-- After the attention call. -/
def B3 (c : Dev nD) : Valuation τ sig (Elt F) :=
  Pipeline.withArrays spec1 c (B2 m c) fun w => (dat1 (U2 m) c).arrAt w cfg1.N
theorem B3_arr (c : Dev nD) (w : Fin cfg1.W) :
    B3 m c (Proc.devRef .tc (Pipeline.arrRef spec1 w)) = (dat1 (U2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev U3 : (c : Dev nD) → (b : Ref sig .tc) → Buf (Elt F) ((c : Thread nD τ).loc b) := fun c b => B3 m c b
theorem hF1 (c : Dev nD) (w : Fin cfg1.W) : (dat1 (U2 m) c).arrAt w cfg1.N = U3 m c (Pipeline.arrRef spec1 w) :=
  (B3_arr m c w).symm
theorem hrest1 (c : Dev nD) : ∀ b, b ∉ Finset.univ.image (Pipeline.arrRef spec1) → U3 m c b = U2 m c b :=
  fun b hb => B3_of_ne m c b fun w e => hb (Finset.mem_image.mpr ⟨w, Finset.mem_univ _, e⟩)

/-! ## The arguments end as launched -/

/-- The first argument is the first call's input window 0: read, never written. -/
theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := (B2_arr m c 0).trans (((dat0 (U1 m) c).arrAt_in 0 rfl _).trans (A_eq0 (U1 m) c 0))
    _ = B0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- A weight matrix is read by the host stretch only. -/
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = B0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- A weight matrix is read by the host stretch only. -/
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = B0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- A weight matrix is read by the host stretch only. -/
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- A weight matrix is read by the host stretch only. -/
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = B0 m c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

abbrev admH : (p : Fin 2) → (pcfgs (F := F) p).Adm := fun p => (cfgs p).toPCfg_adm
/-- Each call's proof data at its entry contents. -/
def pdatsH : (p : Fin 2) → (c : Dev nD) → Dat τ (Elt F) Unit ℕ (UR sig nD τ) ℕ (Pipeline.pin (pcfgs (F := F)) admH p) c
  | ⟨0, _⟩ => fun c => dat0 (U1 m) c
  | ⟨1, _⟩ => fun c => dat1 (U2 m) c
abbrev 𝒱H : Variants := Variants.none
abbrev LH : GSem nD τ sig → Finset Unit := fun _ => ∅
abbrev lvH : GSem nD τ sig → Unit → ℕ := fun _ _ => 0
/-- What rides beside the buffers: the generator register at some state and the core owing nothing. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem hostOps0_freshH : (hostOps0 : List (HloOp τ sig (Elt F))).Forall fun op => op.fresh = ∅ := by
  simp only [List.Forall]; repeat' constructor
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (B3 m c) ∗ ∃ r, prngReg c r)

/-! ## The two calls as segments -/

set_option backward.isDefEq.respectTransparency.types false in
/-- Pallas_call 0 as a segment: entered from every unscoped buffer at its entry contents, left with the call's
    arrays at what its write-backs leave and every other buffer as entered; the generator register goes into the
    region's invariant and comes back; nothing is owed; the kernel has no semaphore of its own. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ LH lvH 0 fun _ _ => rfl
  pre c := iprop(StableHlo.held (c : Thread nD τ) (Pipeline.ucRefs τ sig) (B1 m c) ∗ RH c)
  post c := iprop(StableHlo.held (c : Thread nD τ) (Pipeline.ucRefs τ sig) (B2 m c) ∗ RH c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (U1 m c) (U2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered from every unscoped buffer at its entry contents, left with the call's
    arrays at what its write-backs leave and every other buffer as entered; the generator register goes into the
    region's invariant and comes back; nothing is owed; the kernel has no semaphore of its own. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (U2 m) c).loose
  hwaits := Pipeline.hwaits_of_owed_zero _ _ _ _ LH lvH 1 fun _ _ => rfl
  pre c := iprop(StableHlo.held (c : Thread nD τ) (Pipeline.ucRefs τ sig) (B2 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (U2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdatsH m 1 c).Φ (Fin.last _) ⊢ Pipeline.ΦA spec1 c from hout1 (U2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (U2 m c) (U3 m c) ((pdatsH m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segsH : List (Pipeline.Seg (pcfgs (F := F)) admH (pdatsH m) () defs₀ 𝒱H LH lvH) :=
  [ .host (hsegH hostOps0 hostOps0_sub hostOps0_freshH (B0 m)),
    .region (reg0 m),
    .region (reg1 m) ]
theorem main_runH (c : Dev nD) : main (F := F) c = Pipeline.Seg.run (segsH m) := (main_chain c).trans (by chain_rfl)

set_option backward.isDefEq.respectTransparency.types false in
/-- Every weakly fair execution of the program from memory `m` with zero counters terminates, nothing faulting,
    and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RH c)) (Tₙ := TnH m)
    (hch := ⟨fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h => h)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_ucH main_arg0 (by decide))).trans (B3_main_arg0 m c),
     (h c _ (mem_ucH main_arg1 (by decide))).trans (B3_main_arg1 m c),
     (h c _ (mem_ucH main_arg2 (by decide))).trans (B3_main_arg2 m c),
     (h c _ (mem_ucH main_arg3 (by decide))).trans (B3_main_arg3 m c),
     (h c _ (mem_ucH main_arg4 (by decide))).trans (B3_main_arg4 m c)⟩) (run_all m ρ)

/-- The run with the result array named: the attention call's output window is array 4 of its pipeline. -/
theorem run_result : θ_run defs (onTc (τ := τ) (main (F := F))) ⟨m, fun _ => 0, ρ⟩ (fun r => ∀ c : Dev nD,
      r.2.mem ((c.tc : Thread nD τ).loc main_v9) = (dat1 (U2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_ucH main_v9 (by decide))).trans (B3_arr m c 4),
     (h c _ (mem_ucH main_arg0 (by decide))).trans (B3_main_arg0 m c),
     (h c _ (mem_ucH main_arg1 (by decide))).trans (B3_main_arg1 m c),
     (h c _ (mem_ucH main_arg2 (by decide))).trans (B3_main_arg2 m c),
     (h c _ (mem_ucH main_arg3 (by decide))).trans (B3_main_arg3 m c),
     (h c _ (mem_ucH main_arg4 (by decide))).trans (B3_main_arg4 m c)⟩) (run_all m ρ)

end Cert.KernelIdeal.Hand

end
-- ==== Proof.Spec.lean ====
/-
  The two programs as pure functions of their five argument arrays, entry by entry, on the extended reals.

  Both compute a single-head attention with a quadratic activation in place of the softmax.  With
  `x : [4, 4096, 256]` and four weight matrices `W : [256, 256]` stored as `[out, in]`:

    q = (x · Wqᵀ) · c01,  k = (x · Wkᵀ) · c01,  v = (x · Wvᵀ) · c1,
    a = (q · kᵀ) · c01,  p = act a,  o = (p · v) · c01,  out = (o · Woᵀ) · c1.

  The reference applies `act a = a·a·c1 + a·c1` and sums `p · v` over all 4096 keys at once (`G`).
  The kernel applies `a·(a·c1 + c1)` and adds up four partial sums of 1024 keys each, every partial sum
  scaled by `c01` before it is added to the running total, which starts from `0` (`K`).
  The two agree when every entry is a real number: distributivity of `·` over `+`.
-/
import Mathlib.Data.EReal.Operations
import Mathlib.Algebra.BigOperators.Group.Finset.Basic
import Mathlib.Data.Fintype.Basic
import Mathlib.Data.Fin.Basic
import Mathlib.Algebra.BigOperators.Fin

noncomputable section

namespace Cert.Spec

/-- A rank-3 array `[4, 4096, 256]` and a matrix `[256, 256]` as functions of their coordinates. -/
abbrev A3 := Fin 4 → Fin 4096 → Fin 256 → EReal
abbrev M2 := Fin 256 → Fin 256 → EReal

/-- A projection: `(x · Wᵀ) · c`, the weight stored as `[out, in]`. -/
def proj (x : A3) (W : M2) (c : EReal) : A3 := fun b s f => (∑ e : Fin 256, x b s e * W f e) * c

/-- The scaled score of query row `s` against key row `t`. -/
def score (q k : A3) (c01 : EReal) (b : Fin 4) (s t : Fin 4096) : EReal := (∑ f : Fin 256, q b s f * k b t f) * c01

/-- The activation as the reference spells it, -/
def actR (c1 a : EReal) : EReal := a * a * c1 + a * c1
/-- and as the kernel spells it. -/
def actK (c1 a : EReal) : EReal := a * (a * c1 + c1)

/-- Key row `t'` of key tile `j`. -/
def tile (j : Fin 4) (t' : Fin 1024) : Fin 4096 := ⟨j.val * 1024 + t'.val, by have := j.isLt; have := t'.isLt; omega⟩

section
variable (c01 c1 : EReal) (x : A3) (Wq Wk Wv Wo : M2)

/-- The reference's result. -/
def G : A3 := fun b s g =>
  (∑ f : Fin 256,
      ((∑ t : Fin 4096, actR c1 (score (proj x Wq c01) (proj x Wk c01) c01 b s t) * proj x Wv c1 b t f) * c01) * Wo g f) * c1

/-- One key tile's contribution to the kernel's running total at `(b, s, f)`. -/
def part (b : Fin 4) (s : Fin 4096) (f : Fin 256) (j : Fin 4) : EReal :=
  (∑ t' : Fin 1024, actK c1 (score (proj x Wq c01) (proj x Wk c01) c01 b s (tile j t')) * proj x Wv c1 b (tile j t') f) * c01

/-- The kernel's running total after key tiles `0 … n` (`n ≤ 3`): it is reset to `0` before tile `0` is added. -/
def run (b : Fin 4) (s : Fin 4096) (f : Fin 256) : ℕ → EReal
  | 0 => 0 + part c01 c1 x Wq Wk Wv b s f 0
  | n + 1 => run b s f n + (if h : n + 1 < 4 then part c01 c1 x Wq Wk Wv b s f ⟨n + 1, h⟩ else 0)

/-- The kernel's result. -/
def K : A3 := fun b s g => (∑ f : Fin 256, run c01 c1 x Wq Wk Wv b s f 3 * Wo g f) * c1

end

end Cert.Spec

end
-- ==== Proof.Algebra.lean ====
/-
  The kernel's result K and the reference's result G agree whenever every entry of every argument
  is a real number.

  The extended reals are not a ring (multiplication does not distribute over addition when infinities
  are present), so the argument goes through the reals: each of G and K, fed with coerced real
  arrays, is the coercion of a real-valued mirror (GR, KR), because the coercion ℝ → EReal
  commutes with products, sums and finite sums.  In ℝ the two mirrors agree by three facts:
    * a·(a·c1 + c1) = a·a·c1 + a·c1;
    * a sum over the 4096 keys is the sum over the four tiles of the sums over the 1024 keys of a tile
      ((j, t') ↦ j·1024 + t' is a bijection Fin 4 × Fin 1024 ≃ Fin 4096);
    * 0 + P₀·c + P₁·c + P₂·c + P₃·c = (P₀ + P₁ + P₂ + P₃)·c.
-/
import Mathlib.Data.EReal.Operations
import Mathlib.Algebra.BigOperators.Ring.Finset
import Mathlib.Algebra.BigOperators.Fin
import Mathlib.Data.Fintype.BigOperators
import Mathlib.Tactic.Ring
import proofs.«112663_j7679401525969_2_alg».proof.Proof.Spec

noncomputable section

open scoped BigOperators

namespace Cert.Spec

/-! ### The coercion ℝ → EReal and finite sums -/

/-- The coercion ℝ → EReal commutes with finite sums. -/
theorem coe_finsum {ι : Type*} (s : Finset ι) (f : ι → ℝ) :
    ((∑ i ∈ s, f i : ℝ) : EReal) = ∑ i ∈ s, ((f i : ℝ) : EReal) := by
  classical
  induction s using Finset.induction_on with
  | empty => simp only [Finset.sum_empty, EReal.coe_zero]
  | insert a s ha ih => rw [Finset.sum_insert ha, Finset.sum_insert ha, EReal.coe_add, ih]

/-! ### The key tiles partition the keys -/

/-- (j, t') ↦ j·1024 + t' as a bijection between (tile, row in tile) and key row. -/
def tileEquiv : Fin 4 × Fin 1024 ≃ Fin 4096 where
  toFun p := tile p.1 p.2
  invFun t := (⟨t.val / 1024, by have := t.isLt; omega⟩, ⟨t.val % 1024, by omega⟩)
  left_inv p := by
    rcases p with ⟨j, t'⟩
    have hj := j.isLt
    have ht := t'.isLt
    apply Prod.ext
    · apply Fin.ext
      show (j.val * 1024 + t'.val) / 1024 = j.val
      omega
    · apply Fin.ext
      show (j.val * 1024 + t'.val) % 1024 = t'.val
      omega
  right_inv t := by
    apply Fin.ext
    show t.val / 1024 * 1024 + t.val % 1024 = t.val
    omega

/-- A sum over all 4096 keys is the sum over the four tiles of the sums over a tile's 1024 keys. -/
theorem sum_tile {M : Type*} [AddCommMonoid M] (F : Fin 4096 → M) :
    ∑ t : Fin 4096, F t = ∑ j : Fin 4, ∑ t' : Fin 1024, F (tile j t') := by
  rw [← Equiv.sum_comp tileEquiv F, Fintype.sum_prod_type]
  rfl

/-! ### Real-valued mirrors -/

/-- Real arrays of the two shapes, and their entrywise coercions. -/
abbrev A3R := Fin 4 → Fin 4096 → Fin 256 → ℝ
abbrev M2R := Fin 256 → Fin 256 → ℝ

def up3 (x : A3R) : A3 := fun b s e => ((x b s e : ℝ) : EReal)
def up2 (W : M2R) : M2 := fun f e => ((W f e : ℝ) : EReal)

def projR (x : A3R) (W : M2R) (c : ℝ) : A3R := fun b s f => (∑ e : Fin 256, x b s e * W f e) * c

def scoreR (q k : A3R) (c01 : ℝ) (b : Fin 4) (s t : Fin 4096) : ℝ :=
  (∑ f : Fin 256, q b s f * k b t f) * c01

/-- The activation on the reals (the reference's spelling). -/
def actRe (c1 a : ℝ) : ℝ := a * a * c1 + a * c1

theorem proj_up (x : A3R) (W : M2R) (c : ℝ) :
    proj (up3 x) (up2 W) (c : EReal) = up3 (projR x W c) := by
  funext b s f
  simp only [proj, up3, up2, projR, EReal.coe_mul, coe_finsum]

theorem score_up (q k : A3R) (c01 : ℝ) (b : Fin 4) (s t : Fin 4096) :
    score (up3 q) (up3 k) (c01 : EReal) b s t = ((scoreR q k c01 b s t : ℝ) : EReal) := by
  simp only [score, up3, scoreR, EReal.coe_mul, coe_finsum]

theorem actR_up (c1 a : ℝ) : actR (c1 : EReal) (a : EReal) = ((actRe c1 a : ℝ) : EReal) := by
  simp only [actR, actRe, EReal.coe_mul, EReal.coe_add]

theorem actK_up (c1 a : ℝ) : actK (c1 : EReal) (a : EReal) = ((actRe c1 a : ℝ) : EReal) := by
  have h : actRe c1 a = a * (a * c1 + c1) := by unfold actRe; ring
  rw [h]
  simp only [actK, EReal.coe_mul, EReal.coe_add]

/-! ### The reference's result is the coercion of a real array -/

section
variable (c01 c1 : ℝ) (x : A3R) (Wq Wk Wv Wo : M2R)

/-- The reference's result on the reals. -/
def GR : A3R := fun b s g =>
  (∑ f : Fin 256,
      ((∑ t : Fin 4096, actRe c1 (scoreR (projR x Wq c01) (projR x Wk c01) c01 b s t)
          * projR x Wv c1 b t f) * c01) * Wo g f) * c1

theorem G_up :
    G (c01 : EReal) (c1 : EReal) (up3 x) (up2 Wq) (up2 Wk) (up2 Wv) (up2 Wo)
      = up3 (GR c01 c1 x Wq Wk Wv Wo) := by
  funext b s g
  unfold G
  rw [proj_up, proj_up, proj_up]
  simp only [score_up, actR_up]
  simp only [up3, up2, GR, EReal.coe_mul, coe_finsum]

/-- One key tile's contribution on the reals. -/
def partR (b : Fin 4) (s : Fin 4096) (f : Fin 256) (j : Fin 4) : ℝ :=
  (∑ t' : Fin 1024, actRe c1 (scoreR (projR x Wq c01) (projR x Wk c01) c01 b s (tile j t'))
      * projR x Wv c1 b (tile j t') f) * c01

theorem part_up (b : Fin 4) (s : Fin 4096) (f : Fin 256) (j : Fin 4) :
    part (c01 : EReal) (c1 : EReal) (up3 x) (up2 Wq) (up2 Wk) (up2 Wv) b s f j
      = ((partR c01 c1 x Wq Wk Wv b s f j : ℝ) : EReal) := by
  unfold part
  rw [proj_up, proj_up, proj_up]
  simp only [score_up, actK_up]
  simp only [up3, partR, EReal.coe_mul, coe_finsum]

end

/-- The running total after the last tile, spelled out. -/
theorem run_three (c01 c1 : EReal) (x : A3) (Wq Wk Wv : M2) (b : Fin 4) (s : Fin 4096) (f : Fin 256) :
    run c01 c1 x Wq Wk Wv b s f 3
      = 0 + part c01 c1 x Wq Wk Wv b s f 0 + part c01 c1 x Wq Wk Wv b s f 1
          + part c01 c1 x Wq Wk Wv b s f 2 + part c01 c1 x Wq Wk Wv b s f 3 := by
  rfl

section
variable (c01 c1 : ℝ) (x : A3R) (Wq Wk Wv Wo : M2R)

/-- The kernel's result on the reals. -/
def KR : A3R := fun b s g =>
  (∑ f : Fin 256,
      (0 + partR c01 c1 x Wq Wk Wv b s f 0 + partR c01 c1 x Wq Wk Wv b s f 1
        + partR c01 c1 x Wq Wk Wv b s f 2 + partR c01 c1 x Wq Wk Wv b s f 3) * Wo g f) * c1

theorem K_up :
    K (c01 : EReal) (c1 : EReal) (up3 x) (up2 Wq) (up2 Wk) (up2 Wv) (up2 Wo)
      = up3 (KR c01 c1 x Wq Wk Wv Wo) := by
  funext b s g
  unfold K
  simp only [run_three, part_up]
  simp only [up3, up2, KR, EReal.coe_mul, EReal.coe_add, EReal.coe_zero, coe_finsum]

/-- On the reals the four scaled partial sums add up to the scaled full sum. -/
theorem KR_eq_GR : KR c01 c1 x Wq Wk Wv Wo = GR c01 c1 x Wq Wk Wv Wo := by
  funext b s g
  unfold KR GR
  congr 1
  refine Finset.sum_congr rfl fun f _ => ?_
  congr 1
  rw [sum_tile, Fin.sum_univ_four, add_mul, add_mul, add_mul, zero_add]
  rfl

end

/-- The kernel's result equals the reference's on coerced real arguments. -/
theorem K_eq_G (c01 c1 : ℝ) (x : Fin 4 → Fin 4096 → Fin 256 → ℝ) (Wq Wk Wv Wo : Fin 256 → Fin 256 → ℝ) :
    K (c01 : EReal) (c1 : EReal) (fun b s e => ((x b s e : ℝ) : EReal)) (fun f e => ((Wq f e : ℝ) : EReal)) (fun f e => ((Wk f e : ℝ) : EReal)) (fun f e => ((Wv f e : ℝ) : EReal)) (fun g f => ((Wo g f : ℝ) : EReal))
  = G (c01 : EReal) (c1 : EReal) (fun b s e => ((x b s e : ℝ) : EReal)) (fun f e => ((Wq f e : ℝ) : EReal)) (fun f e => ((Wk f e : ℝ) : EReal)) (fun f e => ((Wv f e : ℝ) : EReal)) (fun g f => ((Wo g f : ℝ) : EReal)) := by
  have hK := K_up c01 c1 x Wq Wk Wv Wo
  have hG := G_up c01 c1 x Wq Wk Wv Wo
  rw [KR_eq_GR] at hK
  exact hK.trans hG.symm

/-- The same under pointwise finiteness of every argument. -/
theorem K_eq_G_of_finite (c01 c1 : EReal) (x : A3) (Wq Wk Wv Wo : M2)
    (hc01 : ∃ r : ℝ, c01 = r) (hc1 : ∃ r : ℝ, c1 = r)
    (hx : ∀ b s e, ∃ r : ℝ, x b s e = r) (hq : ∀ f e, ∃ r : ℝ, Wq f e = r) (hk : ∀ f e, ∃ r : ℝ, Wk f e = r) (hv : ∀ f e, ∃ r : ℝ, Wv f e = r) (ho : ∀ g f, ∃ r : ℝ, Wo g f = r) :
    K c01 c1 x Wq Wk Wv Wo = G c01 c1 x Wq Wk Wv Wo := by
  obtain ⟨r01, rfl⟩ := hc01
  obtain ⟨r1, rfl⟩ := hc1
  choose x' hx' using hx
  choose Wq' hq' using hq
  choose Wk' hk' using hk
  choose Wv' hv' using hv
  choose Wo' ho' using ho
  have ex : x = fun b s e => ((x' b s e : ℝ) : EReal) := by funext b s e; exact hx' b s e
  have eq : Wq = fun f e => ((Wq' f e : ℝ) : EReal) := by funext f e; exact hq' f e
  have ek : Wk = fun f e => ((Wk' f e : ℝ) : EReal) := by funext f e; exact hk' f e
  have ev : Wv = fun f e => ((Wv' f e : ℝ) : EReal) := by funext f e; exact hv' f e
  have eo : Wo = fun g f => ((Wo' g f : ℝ) : EReal) := by funext g f; exact ho' g f
  subst ex eq ek ev eo
  exact K_eq_G r01 r1 x' Wq' Wk' Wv' Wo'

end Cert.Spec

end
-- ==== Proof.Spec2.lean ====
/-
  The kernel's result as a function of the three projected arrays `q`, `k`, `v` (as the first call leaves
  them) and of the transposed output weights: the form in which the second call's output array is read.
  Substituting the projections gives `Cert.Spec.K`.
-/
import proofs.«112663_j7679401525969_2_alg».proof.Proof.Spec

noncomputable section

namespace Cert.Spec

section
variable (c01 c1 : EReal) (q k v : A3) (woT : M2)

/-- One key tile's contribution at `(b, s, f)`, from the projected arrays. -/
def partQ (b : Fin 4) (s : Fin 4096) (f : Fin 256) (j : Fin 4) : EReal :=
  (∑ t' : Fin 1024, actK c1 (score q k c01 b s (tile j t')) * v b (tile j t') f) * c01

/-- The running total after key tiles `0 … n`, reset to `0` before tile `0` is added. -/
def runQ (b : Fin 4) (s : Fin 4096) (f : Fin 256) : ℕ → EReal
  | 0 => 0 + partQ c01 c1 q k v b s f 0
  | n + 1 => runQ b s f n + (if h : n + 1 < 4 then partQ c01 c1 q k v b s f ⟨n + 1, h⟩ else 0)

/-- The result, the output weights given transposed (`woT f g`). -/
def KQ : A3 := fun b s g => (∑ f : Fin 256, runQ c01 c1 q k v b s f 3 * woT f g) * c1

end

theorem run_eq_runQ (c01 c1 : EReal) (x : A3) (Wq Wk Wv : M2) (b : Fin 4) (s : Fin 4096) (f : Fin 256) (n : ℕ) :
    run c01 c1 x Wq Wk Wv b s f n = runQ c01 c1 (proj x Wq c01) (proj x Wk c01) (proj x Wv c1) b s f n := by
  induction n with
  | zero => rfl
  | succ n ih => simp only [run, runQ, ih]; rfl

theorem K_eq_KQ (c01 c1 : EReal) (x : A3) (Wq Wk Wv Wo : M2) :
    K c01 c1 x Wq Wk Wv Wo = KQ c01 c1 (proj x Wq c01) (proj x Wk c01) (proj x Wv c1) (fun f g => Wo g f) := by
  funext b s g
  simp only [K, KQ, run_eq_runQ]

end Cert.Spec

end
-- ==== Proof.RefIsG.lean ====
/-
  The reference program's result, read entry by entry, is the specification's `G`.

  Each of the reference's stages is read at an index built from its coordinates: a projection
  `(x · Wᵀ) · c` is the contraction over the 256 input features times the scale, the score is the
  contraction of a query row with a key row times `c01`, the activation is applied entry by entry,
  the weighted sum runs over all 4096 keys at once, and the output projection contracts with `Wo`.
  The index functions of each contraction are identified with the coordinate constructors, and then
  every stage is the corresponding function of `Cert.Spec` by unfolding.
-/
import proofs.«112663_j7679401525969_2_alg».proof.Proof.Gen.ReferenceIdeal.Read
import proofs.«112663_j7679401525969_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-- The two scale literals of the program, as extended reals. -/
abbrev c01 : EReal := Ideal.ofBits .f32 0x3C23D70A#32
abbrev c1 : EReal := Ideal.ofBits .f32 0x3DCCCCCD#32

/-- A rank-3 argument array and a weight matrix as functions of their coordinates. -/
abbrev A (x : (⟨S4x4096x256, .f32⟩ : BufTy).Contents (Elt Ideal)) : Cert.Spec.A3 := fun b s e => x (ix3 b s e)
abbrev M (w : (⟨S256x256, .f32⟩ : BufTy).Contents (Elt Ideal)) : Cert.Spec.M2 := fun f e => w (ix2 f e)

variable (x : (⟨S4x4096x256, .f32⟩ : BufTy).Contents (Elt Ideal)) (wq wk wv wo : (⟨S256x256, .f32⟩ : BufTy).Contents (Elt Ideal))

/-! ### The index functions of the contractions, at coordinates -/

theorem lidx0 (b : Fin 4) (s : Fin 4096) (f k : Fin 256) : lidx_main_v0 (ix3 b s f) k = ix3 b s k :=
  funext fun a => by match a with | ⟨0, _⟩ => rfl | ⟨1, _⟩ => rfl | ⟨2, _⟩ => rfl
theorem ridx0 (b : Fin 4) (s : Fin 4096) (f k : Fin 256) : ridx_main_v0 (ix3 b s f) k = ix2 f k :=
  funext fun a => by match a with | ⟨0, _⟩ => rfl | ⟨1, _⟩ => rfl
theorem lidx3 (b : Fin 4) (s : Fin 4096) (f k : Fin 256) : lidx_main_v3 (ix3 b s f) k = ix3 b s k :=
  funext fun a => by match a with | ⟨0, _⟩ => rfl | ⟨1, _⟩ => rfl | ⟨2, _⟩ => rfl
theorem ridx3 (b : Fin 4) (s : Fin 4096) (f k : Fin 256) : ridx_main_v3 (ix3 b s f) k = ix2 f k :=
  funext fun a => by match a with | ⟨0, _⟩ => rfl | ⟨1, _⟩ => rfl
theorem lidx6 (b : Fin 4) (s : Fin 4096) (f k : Fin 256) : lidx_main_v6 (ix3 b s f) k = ix3 b s k :=
  funext fun a => by match a with | ⟨0, _⟩ => rfl | ⟨1, _⟩ => rfl | ⟨2, _⟩ => rfl
theorem ridx6 (b : Fin 4) (s : Fin 4096) (f k : Fin 256) : ridx_main_v6 (ix3 b s f) k = ix2 f k :=
  funext fun a => by match a with | ⟨0, _⟩ => rfl | ⟨1, _⟩ => rfl
/-- The score contracts the feature axis of a query row `s` and a key row `t` of the same batch. -/
theorem lidx9 (b : Fin 4) (s t : Fin 4096) (k : Fin 256) : lidx_main_v9 (ix3 b s t) k = ix3 b s k :=
  funext fun a => by match a with | ⟨0, _⟩ => rfl | ⟨1, _⟩ => rfl | ⟨2, _⟩ => rfl
theorem ridx9 (b : Fin 4) (s t : Fin 4096) (k : Fin 256) : ridx_main_v9 (ix3 b s t) k = ix3 b t k :=
  funext fun a => by match a with | ⟨0, _⟩ => rfl | ⟨1, _⟩ => rfl | ⟨2, _⟩ => rfl
/-- The weighted sum contracts the key axis. -/
theorem lidx18 (b : Fin 4) (s : Fin 4096) (f : Fin 256) (t : Fin 4096) : lidx_main_v18 (ix3 b s f) t = ix3 b s t :=
  funext fun a => by match a with | ⟨0, _⟩ => rfl | ⟨1, _⟩ => rfl | ⟨2, _⟩ => rfl
theorem ridx18 (b : Fin 4) (s : Fin 4096) (f : Fin 256) (t : Fin 4096) : ridx_main_v18 (ix3 b s f) t = ix3 b t f :=
  funext fun a => by match a with | ⟨0, _⟩ => rfl | ⟨1, _⟩ => rfl | ⟨2, _⟩ => rfl
theorem lidx21 (b : Fin 4) (s : Fin 4096) (g k : Fin 256) : lidx_main_v21 (ix3 b s g) k = ix3 b s k :=
  funext fun a => by match a with | ⟨0, _⟩ => rfl | ⟨1, _⟩ => rfl | ⟨2, _⟩ => rfl
theorem ridx21 (b : Fin 4) (s : Fin 4096) (g k : Fin 256) : ridx_main_v21 (ix3 b s g) k = ix2 g k :=
  funext fun a => by match a with | ⟨0, _⟩ => rfl | ⟨1, _⟩ => rfl

/-! ### The stages at coordinates -/

/-- The query projection at `(b, s, f)`. -/
theorem q_at (b : Fin 4) (s : Fin 4096) (f : Fin 256) :
    val_main_v2 (F := Ideal) x wq (ix3 b s f) = Cert.Spec.proj (A x) (M wq) c01 b s f := by
  rw [val_main_v2_apply, val_main_v0_apply, val_main_v1_apply, val_main_cst_apply]
  simp only [lidx0, ridx0, Ideal.mulf_def, Ideal.ofBits_def]
  rfl

/-- The key projection at `(b, t, f)`. -/
theorem k_at (b : Fin 4) (t : Fin 4096) (f : Fin 256) :
    val_main_v5 (F := Ideal) x wk (ix3 b t f) = Cert.Spec.proj (A x) (M wk) c01 b t f := by
  rw [val_main_v5_apply, val_main_v3_apply, val_main_v4_apply, val_main_cst_0_apply]
  simp only [lidx3, ridx3, Ideal.mulf_def, Ideal.ofBits_def]
  rfl

/-- The value projection at `(b, t, f)`. -/
theorem v_at (b : Fin 4) (t : Fin 4096) (f : Fin 256) :
    val_main_v8 (F := Ideal) x wv (ix3 b t f) = Cert.Spec.proj (A x) (M wv) c1 b t f := by
  rw [val_main_v8_apply, val_main_v6_apply, val_main_v7_apply, val_main_cst_1_apply]
  simp only [lidx6, ridx6, Ideal.mulf_def, Ideal.ofBits_def]
  rfl

/-- The scaled score of query row `s` against key row `t`. -/
theorem score_at (b : Fin 4) (s t : Fin 4096) :
    val_main_v11 (F := Ideal) x wq wk (ix3 b s t)
      = Cert.Spec.score (Cert.Spec.proj (A x) (M wq) c01) (Cert.Spec.proj (A x) (M wk) c01) c01 b s t := by
  rw [val_main_v11_apply, val_main_v9_apply, val_main_v10_apply, val_main_cst_2_apply]
  simp only [lidx9, ridx9, q_at, k_at, Ideal.mulf_def, Ideal.ofBits_def]
  rfl

/-- The activation `a·a·c1 + a·c1` of the score, entry by entry. -/
theorem act_at (b : Fin 4) (s t : Fin 4096) :
    val_main_v17 (F := Ideal) x wq wk (ix3 b s t)
      = Cert.Spec.actR c1 (Cert.Spec.score (Cert.Spec.proj (A x) (M wq) c01) (Cert.Spec.proj (A x) (M wk) c01) c01 b s t) := by
  rw [val_main_v17_apply, val_main_v14_apply, val_main_v16_apply, val_main_v12_apply,
    val_main_v13_apply, val_main_v15_apply, val_main_cst_3_apply, val_main_cst_4_apply, score_at]
  simp only [Ideal.mulf_def, Ideal.addf_def, Ideal.ofBits_def]
  rfl

/-- The weighted sum over all 4096 keys, scaled by `c01`. -/
theorem attn_at (b : Fin 4) (s : Fin 4096) (f : Fin 256) :
    val_main_v20 (F := Ideal) x wq wk wv (ix3 b s f)
      = (∑ t : Fin 4096,
          Cert.Spec.actR c1 (Cert.Spec.score (Cert.Spec.proj (A x) (M wq) c01) (Cert.Spec.proj (A x) (M wk) c01) c01 b s t)
            * Cert.Spec.proj (A x) (M wv) c1 b t f) * c01 := by
  rw [val_main_v20_apply, val_main_v18_apply, val_main_v19_apply, val_main_cst_5_apply]
  simp only [lidx18, ridx18, act_at, v_at, Ideal.mulf_def, Ideal.ofBits_def]

/-- The reference's result at `(b, s, g)` is the specification's `G`. -/
theorem ref_eq_G (b : Fin 4) (s : Fin 4096) (g : Fin 256) :
    val_main_v23 (F := Ideal) x wq wk wv wo (ix3 b s g)
      = Cert.Spec.G c01 c1 (fun b s e => x (ix3 b s e)) (fun f e => wq (ix2 f e)) (fun f e => wk (ix2 f e))
          (fun f e => wv (ix2 f e)) (fun g f => wo (ix2 g f)) b s g := by
  rw [val_main_v23_apply, val_main_v21_apply, val_main_v22_apply, val_main_cst_6_apply]
  simp only [lidx21, ridx21, attn_at, Ideal.mulf_def, Ideal.ofBits_def]
  rfl

/-! ### The literals are real numbers -/

theorem c01_real : ∃ r : ℝ, c01 = r := by simp [c01, Ideal.ofBits, Ideal.ieee, -EReal.coe_mul]
theorem c1_real : ∃ r : ℝ, c1 = r := by simp [c1, Ideal.ofBits, Ideal.ieee, -EReal.coe_mul]

/-! ### The run's result term -/

section
variable {F : FTy → Type} [FloatOps F]
/-- The composed term of the reference's 32 operations, as the run states it for the result buffer. -/
abbrev refTerm (x0 : (⟨S4x4096x256, .f32⟩ : BufTy).Contents (Elt F)) (x1 x2 x3 x4 : (⟨S256x256, .f32⟩ : BufTy).Contents (Elt F)) :
    (⟨S4x4096x256, .f32⟩ : BufTy).Contents (Elt F) :=
  mulf (Host.dotGeneral dot_S4x4096x256_S256x256_S4x4096x256_2_1_01_0_n_n none (mulf (Host.dotGeneral dot_S4x4096x4096_S4x4096x256_S4x4096x256_2_1_1_2_0_0 none (addf (mulf (mulf (mulf (Host.dotGeneral dot_S4x4096x256_S4x4096x256_S4x4096x4096_2_2_1_1_0_0 none (mulf (Host.dotGeneral dot_S4x4096x256_S256x256_S4x4096x256_2_1_01_0_n_n none (x0) (x1)) (broadcastInDim S4x4096x256 ![] bcast_S_S4x4096x256 (constant S_ .f32 0x3C23D70A#32))) (mulf (Host.dotGeneral dot_S4x4096x256_S256x256_S4x4096x256_2_1_01_0_n_n none (x0) (x2)) (broadcastInDim S4x4096x256 ![] bcast_S_S4x4096x256 (constant S_ .f32 0x3C23D70A#32)))) (broadcastInDim S4x4096x4096 ![] bcast_S_S4x4096x4096 (constant S_ .f32 0x3C23D70A#32))) (mulf (Host.dotGeneral dot_S4x4096x256_S4x4096x256_S4x4096x4096_2_2_1_1_0_0 none (mulf (Host.dotGeneral dot_S4x4096x256_S256x256_S4x4096x256_2_1_01_0_n_n none (x0) (x1)) (broadcastInDim S4x4096x256 ![] bcast_S_S4x4096x256 (constant S_ .f32 0x3C23D70A#32))) (mulf (Host.dotGeneral dot_S4x4096x256_S256x256_S4x4096x256_2_1_01_0_n_n none (x0) (x2)) (broadcastInDim S4x4096x256 ![] bcast_S_S4x4096x256 (constant S_ .f32 0x3C23D70A#32)))) (broadcastInDim S4x4096x4096 ![] bcast_S_S4x4096x4096 (constant S_ .f32 0x3C23D70A#32)))) (broadcastInDim S4x4096x4096 ![] bcast_S_S4x4096x4096 (constant S_ .f32 0x3DCCCCCD#32))) (mulf (mulf (Host.dotGeneral dot_S4x4096x256_S4x4096x256_S4x4096x4096_2_2_1_1_0_0 none (mulf (Host.dotGeneral dot_S4x4096x256_S256x256_S4x4096x256_2_1_01_0_n_n none (x0) (x1)) (broadcastInDim S4x4096x256 ![] bcast_S_S4x4096x256 (constant S_ .f32 0x3C23D70A#32))) (mulf (Host.dotGeneral dot_S4x4096x256_S256x256_S4x4096x256_2_1_01_0_n_n none (x0) (x2)) (broadcastInDim S4x4096x256 ![] bcast_S_S4x4096x256 (constant S_ .f32 0x3C23D70A#32)))) (broadcastInDim S4x4096x4096 ![] bcast_S_S4x4096x4096 (constant S_ .f32 0x3C23D70A#32))) (broadcastInDim S4x4096x4096 ![] bcast_S_S4x4096x4096 (constant S_ .f32 0x3DCCCCCD#32)))) (mulf (Host.dotGeneral dot_S4x4096x256_S256x256_S4x4096x256_2_1_01_0_n_n none (x0) (x3)) (broadcastInDim S4x4096x256 ![] bcast_S_S4x4096x256 (constant S_ .f32 0x3DCCCCCD#32)))) (broadcastInDim S4x4096x256 ![] bcast_S_S4x4096x256 (constant S_ .f32 0x3C23D70A#32))) (x4)) (broadcastInDim S4x4096x256 ![] bcast_S_S4x4096x256 (constant S_ .f32 0x3DCCCCCD#32))
end

/-- The composed term the reference's run leaves in its result buffer, read at `(b, s, g)`, is `G`. -/
theorem ref_term_at (b : Fin 4) (s : Fin 4096) (g : Fin 256) :
    refTerm (F := Ideal) x wq wk wv wo (ix3 b s g)
      = Cert.Spec.G c01 c1 (fun b s e => x (ix3 b s e)) (fun f e => wq (ix2 f e)) (fun f e => wk (ix2 f e))
          (fun f e => wv (ix2 f e)) (fun g f => wo (ix2 g f)) b s g :=
  (congrFun (val_main_v23_eq (F := Ideal) x wq wk wv wo) (ix3 b s g)).trans (ref_eq_G x wq wk wv wo b s g)

/-- The same as an equation of functions of the index: every index is `ix3` of its three coordinates. -/
theorem ref_term_eq :
    refTerm (F := Ideal) x wq wk wv wo
      = fun i : S4x4096x256.Idx => Cert.Spec.G c01 c1 (fun b s e => x (ix3 b s e)) (fun f e => wq (ix2 f e)) (fun f e => wk (ix2 f e))
          (fun f e => wv (ix2 f e)) (fun g f => wo (ix2 g f)) (i 0) (i 1) (i 2) := by
  funext i
  obtain ⟨b, s, g, rfl⟩ : ∃ (b : Fin 4) (s : Fin 4096) (g : Fin 256), i = ix3 b s g := ⟨i 0, i 1, i 2, eq_ix3 i⟩
  exact ref_term_at x wq wk wv wo b s g

/-! ### The reference's run, with its result stated by `G` -/

/-- Every weakly fair execution of the reference terminates with its result buffer holding `G` of the
    launch contents of the five arguments, entry by entry, and the arguments unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (b : Fin 4) (s : Fin 4096) (g : Fin 256),
        (r.2.mem ((c.tc : Thread nD τ).loc main_v23) : (⟨S4x4096x256, .f32⟩ : BufTy).Contents (Elt Ideal)) (ix3 b s g)
          = Cert.Spec.G c01 c1 (fun b s e => (m ((c.tc : Thread nD τ).loc main_arg0) : (⟨S4x4096x256, .f32⟩ : BufTy).Contents (Elt Ideal)) (ix3 b s e))
              (fun f e => (m ((c.tc : Thread nD τ).loc main_arg1) : (⟨S256x256, .f32⟩ : BufTy).Contents (Elt Ideal)) (ix2 f e))
              (fun f e => (m ((c.tc : Thread nD τ).loc main_arg2) : (⟨S256x256, .f32⟩ : BufTy).Contents (Elt Ideal)) (ix2 f e))
              (fun f e => (m ((c.tc : Thread nD τ).loc main_arg3) : (⟨S256x256, .f32⟩ : BufTy).Contents (Elt Ideal)) (ix2 f e))
              (fun g f => (m ((c.tc : Thread nD τ).loc main_arg4) : (⟨S256x256, .f32⟩ : BufTy).Contents (Elt Ideal)) (ix2 g f)) b s g)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨fun b s g => by
      rw [(h c).1]
      exact ref_term_at (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) b s g,
      (h c).2⟩) (Cert.ReferenceIdeal.Value.run (F := Ideal) m ρ)

end Cert.ReferenceIdeal.RefValue

end
-- ==== Proof.Finite.lean ====
/-
  From the precondition to real entries.

  The precondition of the certificate says that, on every device, the conjunction of five tests
  `all (|a| < +∞)`, one per argument array, is true.  A conjunction of bits is one exactly when each
  bit is; an `all` over every axis is one exactly when the test holds at every index; and an extended
  real whose absolute value `max a (-a)` lies strictly below `+∞` is neither `+∞` nor `-∞`, so it is a
  real number.  Hence every entry of every argument array is a real number.
-/
import proofs.«112663_j7679401525969_2_alg».proof.Defs
import Idealize.ShloMosaic.Lib.ReduceAll
import Idealize.ShloMosaic.Lib.ValueIdx
import Idealize.ShloMosaic.Lib.Pipeline.Value

noncomputable section

namespace Cert.FiniteInputs

open Idealize.ShloMosaic Idealize.ShloMosaic.TcCoe Idealize.SL.Sem Idealize.ShloMosaic.StableHlo
open Idealize.ShloMosaic.ValueIdx

/-- The scalar shape has one index. -/
instance : Subsingleton Cert.Pre_finite_inputs.S_.Idx := ⟨fun a b => funext fun d => d.elim0⟩

/-- The pattern `0x7F800000` is `+∞`. -/
theorem inf_eq_top : Ideal.ofBits .f32 0x7F800000#32 = (⊤ : EReal) := by simp [Ideal.ofBits, Ideal.ieee]

/-- An extended real whose absolute value is strictly below `+∞` is a real number. -/
theorem real_of_abs_lt_inf (a : EReal)
    (h : Ideal.cmp .olt (max a (-a)) (Ideal.ofBits .f32 0x7F800000#32) = 1#1) : ∃ r : ℝ, a = r := by
  rw [inf_eq_top] at h
  induction a using EReal.rec with
  | bot => simp [Ideal.cmp] at h
  | coe r => exact ⟨r, rfl⟩
  | top => simp [Ideal.cmp] at h

/-- One `all (|a| < +∞)` test that came out true makes every entry of the array a real number. -/
theorem all_real {s : Shape} {axes : List (Fin s.rank)} (a : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a) (broadcastInDim s ![] bc (constant (F := Ideal) Cert.Pre_finite_inputs.S_ .f32 0x7F800000#32)))
          (constantI Cert.Pre_finite_inputs.S_ 1 1#1) hr hu ix0 = 1#1)
    (i : s.Idx) : ∃ r : ℝ, a i = r :=
  real_of_abs_lt_inf (a i) (Host.reduce_andi_all _ _ hr hu ix0 e i)

variable [Cert.Pre_finite_inputs.Facts]

/-- Under the precondition every entry of each of the five argument arrays is a real number, on every device. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S4x4096x256.Idx, ∃ r : ℝ,
        (m ((c.tc : Thread Cert.KernelIdeal.nD Cert.KernelIdeal.τ).loc Cert.KernelIdeal.main_arg0) : (⟨Cert.KernelIdeal.S4x4096x256, .f32⟩ : BufTy).Contents (Elt Ideal)) i = ((r : ℝ) : EReal))
    ∧ (∀ i : Cert.KernelIdeal.S256x256.Idx, ∃ r : ℝ,
        (m ((c.tc : Thread Cert.KernelIdeal.nD Cert.KernelIdeal.τ).loc Cert.KernelIdeal.main_arg1) : (⟨Cert.KernelIdeal.S256x256, .f32⟩ : BufTy).Contents (Elt Ideal)) i = ((r : ℝ) : EReal))
    ∧ (∀ i : Cert.KernelIdeal.S256x256.Idx, ∃ r : ℝ,
        (m ((c.tc : Thread Cert.KernelIdeal.nD Cert.KernelIdeal.τ).loc Cert.KernelIdeal.main_arg2) : (⟨Cert.KernelIdeal.S256x256, .f32⟩ : BufTy).Contents (Elt Ideal)) i = ((r : ℝ) : EReal))
    ∧ (∀ i : Cert.KernelIdeal.S256x256.Idx, ∃ r : ℝ,
        (m ((c.tc : Thread Cert.KernelIdeal.nD Cert.KernelIdeal.τ).loc Cert.KernelIdeal.main_arg3) : (⟨Cert.KernelIdeal.S256x256, .f32⟩ : BufTy).Contents (Elt Ideal)) i = ((r : ℝ) : EReal))
    ∧ (∀ i : Cert.KernelIdeal.S256x256.Idx, ∃ r : ℝ,
        (m ((c.tc : Thread Cert.KernelIdeal.nD Cert.KernelIdeal.τ).loc Cert.KernelIdeal.main_arg4) : (⟨Cert.KernelIdeal.S256x256, .f32⟩ : BufTy).Contents (Elt Ideal)) i = ((r : ℝ) : EReal)) := by
  have h0 := congrFun (h c) ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real _ _ _ _ e0, all_real _ _ _ _ e1, all_real _ _ _ _ e2, all_real _ _ _ _ e3, all_real _ _ _ _ e4⟩

/-- The same at coordinates: the entries of the rank-3 array at `(b, s, e)` and of the four matrices at `(f, e)`. -/
theorem finite_of_pre_coords (m : (ℓ : Loc Cert.KernelIdeal.nD Cert.KernelIdeal.τ Cert.KernelIdeal.sig) → Buf (Elt Ideal) ℓ)
    (h : Cert.Pre_KernelIdeal m) (c : Dev Cert.KernelIdeal.nD) :
    (∀ (b : Fin 4) (s : Fin 4096) (e : Fin 256), ∃ r : ℝ,
        (m ((c.tc : Thread Cert.KernelIdeal.nD Cert.KernelIdeal.τ).loc Cert.KernelIdeal.main_arg0) : (⟨Cert.KernelIdeal.S4x4096x256, .f32⟩ : BufTy).Contents (Elt Ideal)) (ix3 b s e) = ((r : ℝ) : EReal))
    ∧ (∀ (f e : Fin 256), ∃ r : ℝ,
        (m ((c.tc : Thread Cert.KernelIdeal.nD Cert.KernelIdeal.τ).loc Cert.KernelIdeal.main_arg1) : (⟨Cert.KernelIdeal.S256x256, .f32⟩ : BufTy).Contents (Elt Ideal)) (ix2 f e) = ((r : ℝ) : EReal))
    ∧ (∀ (f e : Fin 256), ∃ r : ℝ,
        (m ((c.tc : Thread Cert.KernelIdeal.nD Cert.KernelIdeal.τ).loc Cert.KernelIdeal.main_arg2) : (⟨Cert.KernelIdeal.S256x256, .f32⟩ : BufTy).Contents (Elt Ideal)) (ix2 f e) = ((r : ℝ) : EReal))
    ∧ (∀ (f e : Fin 256), ∃ r : ℝ,
        (m ((c.tc : Thread Cert.KernelIdeal.nD Cert.KernelIdeal.τ).loc Cert.KernelIdeal.main_arg3) : (⟨Cert.KernelIdeal.S256x256, .f32⟩ : BufTy).Contents (Elt Ideal)) (ix2 f e) = ((r : ℝ) : EReal))
    ∧ (∀ (f e : Fin 256), ∃ r : ℝ,
        (m ((c.tc : Thread Cert.KernelIdeal.nD Cert.KernelIdeal.τ).loc Cert.KernelIdeal.main_arg4) : (⟨Cert.KernelIdeal.S256x256, .f32⟩ : BufTy).Contents (Elt Ideal)) (ix2 f e) = ((r : ℝ) : EReal)) := by
  obtain ⟨f0, f1, f2, f3, f4⟩ := finite_of_pre m h c
  exact ⟨fun b s e => f0 (ix3 b s e), fun f e => f1 (ix2 f e), fun f e => f2 (ix2 f e), fun f e => f3 (ix2 f e),
    fun f e => f4 (ix2 f e)⟩

end Cert.FiniteInputs

end
-- ==== Proof.Bridge1.lean ====
/-
  The two halves that do not look inside the kernel: (1) under the precondition every entry of the five argument
  arrays is a real number, so the kernel's arrangement of the computation and the reference's agree
  (distributivity of multiplication over the sums involved); (2) the reference's run ends with its result array
  at the specification `G` of its own arguments.
-/
import proofs.«112663_j7679401525969_2_alg».proof.Proof.Algebra
import proofs.«112663_j7679401525969_2_alg».proof.Proof.Spec2
import proofs.«112663_j7679401525969_2_alg».proof.Proof.RefIsG
import proofs.«112663_j7679401525969_2_alg».proof.Proof.Finite

noncomputable section

namespace Cert.Bridge

open Idealize.ShloMosaic Idealize.ShloMosaic.TcCoe Idealize.SL.Sem Idealize.ShloMosaic.ValueIdx
open Cert.ReferenceIdeal.RefValue (c01 c1 c01_real c1_real)

variable [Cert.Pre_finite_inputs.Facts]

section
variable (m : (ℓ : Loc Cert.KernelIdeal.nD Cert.KernelIdeal.τ Cert.KernelIdeal.sig) → Buf (Elt Ideal) ℓ) (c : Dev Cert.KernelIdeal.nD)

/-- The kernel program's argument arrays on core `c`, by coordinates. -/
def X : Cert.Spec.A3 := fun b s e => (m ((c.tc : Thread Cert.KernelIdeal.nD Cert.KernelIdeal.τ).loc Cert.KernelIdeal.main_arg0) : (⟨Cert.KernelIdeal.S4x4096x256, .f32⟩ : BufTy).Contents (Elt Ideal)) (ix3 b s e)
def WQ : Cert.Spec.M2 := fun f e => (m ((c.tc : Thread Cert.KernelIdeal.nD Cert.KernelIdeal.τ).loc Cert.KernelIdeal.main_arg1) : (⟨Cert.KernelIdeal.S256x256, .f32⟩ : BufTy).Contents (Elt Ideal)) (ix2 f e)
def WK : Cert.Spec.M2 := fun f e => (m ((c.tc : Thread Cert.KernelIdeal.nD Cert.KernelIdeal.τ).loc Cert.KernelIdeal.main_arg2) : (⟨Cert.KernelIdeal.S256x256, .f32⟩ : BufTy).Contents (Elt Ideal)) (ix2 f e)
def WV : Cert.Spec.M2 := fun f e => (m ((c.tc : Thread Cert.KernelIdeal.nD Cert.KernelIdeal.τ).loc Cert.KernelIdeal.main_arg3) : (⟨Cert.KernelIdeal.S256x256, .f32⟩ : BufTy).Contents (Elt Ideal)) (ix2 f e)
def WO : Cert.Spec.M2 := fun f e => (m ((c.tc : Thread Cert.KernelIdeal.nD Cert.KernelIdeal.τ).loc Cert.KernelIdeal.main_arg4) : (⟨Cert.KernelIdeal.S256x256, .f32⟩ : BufTy).Contents (Elt Ideal)) (ix2 f e)

/-- Under the precondition the kernel's arrangement equals the reference's. -/
theorem K_eq_G_of_pre (h : Cert.Pre_KernelIdeal m) :
    Cert.Spec.K c01 c1 (X m c) (WQ m c) (WK m c) (WV m c) (WO m c) = Cert.Spec.G c01 c1 (X m c) (WQ m c) (WK m c) (WV m c) (WO m c) := by
  obtain ⟨hx, hq, hk, hv, ho⟩ := Cert.FiniteInputs.finite_of_pre_coords m h c
  exact Cert.Spec.K_eq_G_of_finite c01 c1 _ _ _ _ _ c01_real c1_real hx hq hk hv ho

end

end Cert.Bridge

end
-- ==== Proof.Val1a.lean ====
/-
  What each run of the attention body leaves, as a value: the pieces the runs found, read back.

  At a first key tile the accumulator is reset and the tile's contribution is added to the reset value; at the
  other tiles the contribution is added to what the point before left; at a last tile the output block is the
  projection of the accumulator just written.  Each is one store of the whole buffer, so the buffer reads back
  as the stored value, and every load reads a whole buffer.
-/
import proofs.«112663_j7679401525969_2_alg».proof.Proof.KI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a middle key tile the accumulator, holding `xs0`, is left at the tile's contribution added to `xs0`. -/
theorem sout1_B_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : ¬cond1_1 i)
    (x0 x1 x2 : Vec F S1x1024x256 .bf16) (xs0 : Vec F S1024x256 .f32) :
    sout1_B c i arg3 harg3 arg4 harg4 arg5 harg5 arg6 harg6 arg7 harg7 arg8 harg8 hc0 hc1 x0 x1 x2 xs0 = k1_pay2 x0 x1 x2 xs0 := by
  unfold sout1_B
  rw [View.read_writes_eq_canon _ _ _ (scover1_B c i arg3 harg3 arg4 harg4 arg5 harg5 arg6 harg6 arg7 harg7 arg8 harg8 hc0 hc1 x0 x1 x2 xs0)]
  unfold kernelRun1_B
  dsimp only
  rw [View.canon_unit_zero hz2]
  simp only [View.readAt_eq_ld, harg3.read_unread, harg4.read_unread, harg5.read_unread, harg8.read_unread,
    View.ld_unit_zero (S := S1x1024x256) hz3, View.ld_unit_zero (S := S1024x256) hz2]

/-- At a first key tile the accumulator is reset and then left at the tile's contribution added to the reset value. -/
theorem sout1_A_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : cond1_0 i) (hc1 : ¬cond1_1 i)
    (x0 x1 x2 : Vec F S1x1024x256 .bf16) :
    sout1_A c i arg3 harg3 arg4 harg4 arg5 harg5 arg6 harg6 arg7 harg7 arg8 harg8 hc0 hc1 x0 x1 x2 = k1_pay2 x0 x1 x2 k1_pay1 := by
  unfold sout1_A
  rw [View.read_writes_eq_canon _ _ _ (scover1_A c i arg3 harg3 arg4 harg4 arg5 harg5 arg6 harg6 arg7 harg7 arg8 harg8 hc0 hc1 x0 x1 x2)]
  unfold kernelRun1_A
  dsimp only
  sl_unfold_words
  rw [View.canon_cons_unit_zero (S := S1024x256) hz2, View.readCov_unit_zero (S := S1024x256) _ hz2]
  simp only [View.readAt_eq_ld, harg3.read_unread, harg4.read_unread, harg5.read_unread,
    View.ld_unit_zero (S := S1x1024x256) hz3]

/-- At a last key tile the accumulator is left as at a middle one, -/
theorem sout1_C_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : cond1_1 i)
    (x0 x1 x2 : Vec F S1x1024x256 .bf16) (x3 : Vec F S256x256 .bf16) (xs0 : Vec F S1024x256 .f32) :
    sout1_C c i arg3 harg3 arg4 harg4 arg5 harg5 arg6 harg6 arg7 harg7 arg8 harg8 hc0 hc1 x0 x1 x2 x3 xs0 = k1_pay2 x0 x1 x2 xs0 := by
  unfold sout1_C
  rw [View.read_writes_eq_canon _ _ _ (scover1_C c i arg3 harg3 arg4 harg4 arg5 harg5 arg6 harg6 arg7 harg7 arg8 harg8 hc0 hc1 x0 x1 x2 x3 xs0)]
  unfold kernelRun1_C
  dsimp only
  sl_unfold_words
  rw [View.canon_unit_zero (S := S1024x256) hz2]
  simp only [View.readAt_eq_ld, harg3.read_unread, harg4.read_unread, harg5.read_unread, harg8.read_unread,
    View.ld_unit_zero (S := S1x1024x256) hz3, View.ld_unit_zero (S := S1024x256) hz2]

/-- and the output block is the projection of that accumulator. -/
theorem out1_C_eq (c : Dev nD) (i : grid1.Coords) (arg3 : Memref sig .tc .vmem S1x1024x256 .bf16) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x256 .bf16) (harg6 : arg6.IsWhole) (arg7 : Memref sig .tc .vmem S1x1024x256 .f32) (harg7 : arg7.IsWhole) (arg8 : Memref sig .tc .vmem S1024x256 .f32) (harg8 : arg8.IsWhole) (hc0 : ¬cond1_0 i) (hc1 : cond1_1 i)
    (x0 x1 x2 : Vec F S1x1024x256 .bf16) (x3 : Vec F S256x256 .bf16) (xs0 : Vec F S1024x256 .f32) :
    out1_C c i arg3 harg3 arg4 harg4 arg5 harg5 arg6 harg6 arg7 harg7 arg8 harg8 hc0 hc1 x0 x1 x2 x3 xs0 = k1_pay3 (k1_pay2 x0 x1 x2 xs0) x3 := by
  unfold out1_C
  rw [View.read_writes_eq_canon _ _ _ (cover1_C c i arg3 harg3 arg4 harg4 arg5 harg5 arg6 harg6 arg7 harg7 arg8 harg8 hc0 hc1 x0 x1 x2 x3 xs0)]
  unfold kernelRun1_C
  dsimp only
  sl_unfold_words
  rw [View.canon_unit_zero (S := S1x1024x256) hz3, View.readCov_unit_zero (S := S1024x256) _ hz2]
  simp only [View.readAt_eq_ld, harg3.read_unread, harg4.read_unread, harg5.read_unread, harg6.read_unread, harg8.read_unread,
    View.ld_unit_zero (S := S1x1024x256) hz3, View.ld_unit_zero (S := S1024x256) hz2, View.ld_unit_zero (S := S256x256) hz2]

end Cert.KernelIdeal.Hand

end
-- ==== Proof.Val1b.lean ====
/-
  Where the attention call's blocks sit in their arrays, and the accumulator and the output block point by point
  as values.

  Point `t` of the grid 4 × 4 × 4 has batch `t / 16`, query tile `t / 4 mod 4` and key tile `t mod 4`.  The
  query block and the output block at `t` are rows `[1024 · (t / 4 mod 4), +1024)` of batch `t / 16`; the key and
  value blocks are rows `[1024 · (t mod 4), +1024)` of that batch; the weight block is the whole matrix.
-/
import proofs.«112663_j7679401525969_2_alg».proof.Proof.Val1a
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
variable {F : FTy → Type} [FloatOps F]

/-- The block indices of the five windows at every point of the grid. -/
theorem idx1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = t.val % 4 ∧ win1_1.index t (2 : Fin 3) = 0
    ∧ win1_2.index t (0 : Fin 3) = t.val / 16 ∧ win1_2.index t (1 : Fin 3) = t.val % 4 ∧ win1_2.index t (2 : Fin 3) = 0
    ∧ win1_3.index t (0 : Fin 2) = 0 ∧ win1_3.index t (1 : Fin 2) = 0
    ∧ win1_4.index t (0 : Fin 3) = t.val / 16 ∧ win1_4.index t (1 : Fin 3) = t.val / 4 % 4 ∧ win1_4.index t (2 : Fin 3) = 0 :=
  (by decide +kernel : ∀ t : Fin grid1.N, _)

section
variable (V : (c : Dev nD) → (b : Ref sig .tc) → Buf (Elt F) ((c : Thread nD τ).loc b))

/-! ## The blocks read off their arrays -/

/-- Row `r` of the query block at `t` is row `s = 1024 · (t / 4 mod 4) + r` of batch `b = t / 16`. -/
theorem iblk1_0_apply (c : Dev nD) (t : Fin cfg1.N) (r : Fin 1024) (e : Fin 256) (b : Fin 4) (s : Fin 4096)
    (hb : b.val = t.val / 16) (hs : s.val = t.val / 4 % 4 * 1024 + r.val) :
    iblk1 V c 0 t (ix3 (0 : Fin 1) r e) = V c (Pipeline.arrRef spec1 0) (ix3 b s e) := by
  obtain ⟨e0, e1, e2, -⟩ := idx1 t
  unfold iblk1
  rw [View.read_apply]
  refine congrArg (V c (Pipeline.arrRef spec1 0)) ?_
  funext a; apply Fin.ext
  match a with
  | ⟨0, _⟩ => show win1_0.index t (0 : Fin 3) * 1 + 1 * (0 : Fin 1).val = b.val; rw [e0, hb]; simp
  | ⟨1, _⟩ => show win1_0.index t (1 : Fin 3) * 1024 + 1 * r.val = s.val; rw [e1, hs]; omega
  | ⟨2, _⟩ => show win1_0.index t (2 : Fin 3) * 256 + 1 * e.val = e.val; rw [e2]; omega

/-- Row `r` of the key block at `t` is row `s = 1024 · (t mod 4) + r` of batch `b = t / 16`. -/
theorem iblk1_1_apply (c : Dev nD) (t : Fin cfg1.N) (r : Fin 1024) (e : Fin 256) (b : Fin 4) (s : Fin 4096)
    (hb : b.val = t.val / 16) (hs : s.val = t.val % 4 * 1024 + r.val) :
    iblk1 V c 1 t (ix3 (0 : Fin 1) r e) = V c (Pipeline.arrRef spec1 1) (ix3 b s e) := by
  obtain ⟨-, -, -, e0, e1, e2, -⟩ := idx1 t
  unfold iblk1
  rw [View.read_apply]
  refine congrArg (V c (Pipeline.arrRef spec1 1)) ?_
  funext a; apply Fin.ext
  match a with
  | ⟨0, _⟩ => show win1_1.index t (0 : Fin 3) * 1 + 1 * (0 : Fin 1).val = b.val; rw [e0, hb]; simp
  | ⟨1, _⟩ => show win1_1.index t (1 : Fin 3) * 1024 + 1 * r.val = s.val; rw [e1, hs]; omega
  | ⟨2, _⟩ => show win1_1.index t (2 : Fin 3) * 256 + 1 * e.val = e.val; rw [e2]; omega

/-- The value block likewise. -/
theorem iblk1_2_apply (c : Dev nD) (t : Fin cfg1.N) (r : Fin 1024) (e : Fin 256) (b : Fin 4) (s : Fin 4096)
    (hb : b.val = t.val / 16) (hs : s.val = t.val % 4 * 1024 + r.val) :
    iblk1 V c 2 t (ix3 (0 : Fin 1) r e) = V c (Pipeline.arrRef spec1 2) (ix3 b s e) := by
  obtain ⟨-, -, -, -, -, -, e0, e1, e2, -⟩ := idx1 t
  unfold iblk1
  rw [View.read_apply]
  refine congrArg (V c (Pipeline.arrRef spec1 2)) ?_
  funext a; apply Fin.ext
  match a with
  | ⟨0, _⟩ => show win1_2.index t (0 : Fin 3) * 1 + 1 * (0 : Fin 1).val = b.val; rw [e0, hb]; simp
  | ⟨1, _⟩ => show win1_2.index t (1 : Fin 3) * 1024 + 1 * r.val = s.val; rw [e1, hs]; omega
  | ⟨2, _⟩ => show win1_2.index t (2 : Fin 3) * 256 + 1 * e.val = e.val; rw [e2]; omega

/-- The weight block is the whole matrix. -/
theorem iblk1_3_apply (c : Dev nD) (t : Fin cfg1.N) (f g : Fin 256) :
    iblk1 V c 3 t (ix2 f g) = V c (Pipeline.arrRef spec1 3) (ix2 f g) := by
  obtain ⟨-, -, -, -, -, -, -, -, -, e0, e1, -⟩ := idx1 t
  unfold iblk1
  rw [View.read_apply]
  refine congrArg (V c (Pipeline.arrRef spec1 3)) ?_
  funext a; apply Fin.ext
  match a with
  | ⟨0, _⟩ => show win1_3.index t (0 : Fin 2) * 256 + 1 * f.val = f.val; rw [e0]; omega
  | ⟨1, _⟩ => show win1_3.index t (1 : Fin 2) * 256 + 1 * g.val = g.val; rw [e1]; omega

/-- Row `r` of the output block at `t`, read off any contents `X` of the output array, is row
    `s = 1024 · (t / 4 mod 4) + r` of batch `b = t / 16`. -/
theorem blk1_4_read (X : S4x4096x256.Idx → Elt F .f32) (t : Fin cfg1.N) (r : Fin 1024) (g : Fin 256) (b : Fin 4) (s : Fin 4096)
    (hb : b.val = t.val / 16) (hs : s.val = t.val / 4 % 4 * 1024 + r.val) :
    ((cfg1.win 4).blk t).view.read (Elt F) X (ix3 (0 : Fin 1) r g) = X (ix3 b s g) := by
  obtain ⟨-, -, -, -, -, -, -, -, -, -, -, e0, e1, e2⟩ := idx1 t
  rw [View.read_apply]
  refine congrArg X ?_
  funext a; apply Fin.ext
  match a with
  | ⟨0, _⟩ => show win1_4.index t (0 : Fin 3) * 1 + 1 * (0 : Fin 1).val = b.val; rw [e0, hb]; simp
  | ⟨1, _⟩ => show win1_4.index t (1 : Fin 3) * 1024 + 1 * r.val = s.val; rw [e1, hs]; omega
  | ⟨2, _⟩ => show win1_4.index t (2 : Fin 3) * 256 + 1 * g.val = g.val; rw [e2]; omega

/-! ## The accumulator and the output block, point by point, as values -/

/-- At a first key tile: the reset value plus the tile's contribution. -/
theorem accAt_first (c : Dev nD) (t : Fin cfg1.N) (h0 : t.val % 4 = 0) :
    accAt V c t.val t.isLt = k1_pay2 (iblk1 V c 0 t) (iblk1 V c 1 t) (iblk1 V c 2 t) k1_pay1 :=
  (accAt_A V c t h0 (by omega)).trans
    (sout1_A_eq c (grid1.coords t) (ms1_0 t) (hs1_0 t) (ms1_1 t) (hs1_1 t) (ms1_2 t) (hs1_2 t) (ms1_3 t) (hs1_3 t) (ms1_4 t) (hs1_4 t) scM1_0 (Memref.isWhole_whole _) _ _ (iblk1 V c 0 t) (iblk1 V c 1 t) (iblk1 V c 2 t))

/-- At every other key tile: what the point before left plus the tile's contribution. -/
theorem accAt_step (c : Dev nD) (t : Fin cfg1.N) (h0 : ¬t.val % 4 = 0) :
    accAt V c t.val t.isLt = k1_pay2 (iblk1 V c 0 t) (iblk1 V c 1 t) (iblk1 V c 2 t) (accAt V c (t.val - 1) (Nat.lt_of_le_of_lt (Nat.sub_le _ _) t.isLt)) := by
  by_cases h1 : t.val % 4 = 3
  · exact (accAt_C V c t h0 h1).trans
      (sout1_C_eq c (grid1.coords t) (ms1_0 t) (hs1_0 t) (ms1_1 t) (hs1_1 t) (ms1_2 t) (hs1_2 t) (ms1_3 t) (hs1_3 t) (ms1_4 t) (hs1_4 t) scM1_0 (Memref.isWhole_whole _) _ _ (iblk1 V c 0 t) (iblk1 V c 1 t) (iblk1 V c 2 t) (iblk1 V c 3 t) (accAt V c (t.val - 1) (Nat.lt_of_le_of_lt (Nat.sub_le _ _) t.isLt)))
  · exact (accAt_B V c t h0 h1).trans
      (sout1_B_eq c (grid1.coords t) (ms1_0 t) (hs1_0 t) (ms1_1 t) (hs1_1 t) (ms1_2 t) (hs1_2 t) (ms1_3 t) (hs1_3 t) (ms1_4 t) (hs1_4 t) scM1_0 (Memref.isWhole_whole _) _ _ (iblk1 V c 0 t) (iblk1 V c 1 t) (iblk1 V c 2 t) (accAt V c (t.val - 1) (Nat.lt_of_le_of_lt (Nat.sub_le _ _) t.isLt)))

/-- At a last key tile the output block is the projection of the accumulator after that point. -/
theorem outAt_last (c : Dev nD) (t : Fin cfg1.N) (h1 : t.val % 4 = 3) :
    outAt V c t = k1_pay3 (accAt V c t.val t.isLt) (iblk1 V c 3 t) := by
  have h0 : ¬t.val % 4 = 0 := by omega
  rw [accAt_step V c t h0]
  exact (outAt_C V c t h0 h1).trans
    (out1_C_eq c (grid1.coords t) (ms1_0 t) (hs1_0 t) (ms1_1 t) (hs1_1 t) (ms1_2 t) (hs1_2 t) (ms1_3 t) (hs1_3 t) (ms1_4 t) (hs1_4 t) scM1_0 (Memref.isWhole_whole _) _ _ (iblk1 V c 0 t) (iblk1 V c 1 t) (iblk1 V c 2 t) (iblk1 V c 3 t) (accAt V c (t.val - 1) (Nat.lt_of_le_of_lt (Nat.sub_le _ _) t.isLt)))

end

end Cert.KernelIdeal.Hand

end
-- ==== Proof.Pay1a.lean ====
/-
  The three contractions of the attention kernel, read at one entry of their result, on the extended reals.

  Each is a matrix product into a zero accumulator, so an entry of the result is the plain sum, over the one
  contracted coordinate, of the products of the operands' entries:
    scores        [1024, 256] × [1024, 256] → [1024, 1024], contracting the second coordinate of BOTH operands,
    weighted sum  [1024, 1024] × [1024, 256] → [1024, 256],
    output        [1024, 256] × [256, 256] → [1024, 256].
-/
import proofs.«112663_j7679401525969_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay1

open Cert.KernelIdeal Cert.KernelIdeal.Gen Idealize.ShloMosaic Idealize.ShloMosaic.ValueIdx Idealize.SL.Sem

/-! ## Where each operand is read: the coordinates of the operand indices -/

theorem qk_lhs_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem qk_lhs_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem qk_rhs_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem qk_rhs_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q
theorem pv_lhs_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem pv_lhs_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem pv_rhs_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem pv_rhs_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl
theorem ow_lhs_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem ow_lhs_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem ow_rhs_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem ow_rhs_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-! ## The three products at an entry -/

/-- Scores: row `p` of the queries against row `q` of the keys. -/
theorem qk_apply (x : FVec Ideal S1024x256 .bf16) (y : FVec Ideal S1024x256 .bf16) (p : Fin 1024) (q : Fin 1024) :
    matmul dot_S1024x256_S1024x256_S1024x1024_1_1_0_0_n_n none x y (constant (F := Ideal) S1024x1024 .f32 0x00000000#32) (ix2 p q)
      = ∑ k : Fin 256, x (ix2 p k) * y (ix2 q k) := by
  refine (Ideal.matmul_constant_zero_apply dot_S1024x256_S1024x256_S1024x1024_1_1_0_0_n_n none x y (ix2 p q)).trans ?_
  rw [← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun a => Fin.ext (by
    match a with
    | ⟨0, _⟩ => exact qk_lhs_0 _ _
    | ⟨1, _⟩ => exact (qk_lhs_1 _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun a => Fin.ext (by
    match a with
    | ⟨0, _⟩ => exact qk_rhs_0 _ _
    | ⟨1, _⟩ => exact (qk_rhs_1 _ _).trans hk)
  rw [el, er]

/-- Weighted sum: row `p` of the weights against column `q` of the values. -/
theorem pv_apply (x : FVec Ideal S1024x1024 .bf16) (y : FVec Ideal S1024x256 .bf16) (p : Fin 1024) (q : Fin 256) :
    matmul dot_S1024x1024_S1024x256_S1024x256_1_0_0_1_n_n none x y (constant (F := Ideal) S1024x256 .f32 0x00000000#32) (ix2 p q)
      = ∑ k : Fin 1024, x (ix2 p k) * y (ix2 k q) := by
  refine (Ideal.matmul_constant_zero_apply dot_S1024x1024_S1024x256_S1024x256_1_0_0_1_n_n none x y (ix2 p q)).trans ?_
  rw [← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p q) ((contrEquiv1 dot_S1024x1024_S1024x256_S1024x256_1_0_0_1_n_n 1024 rfl rfl).symm k) = ix2 p k := funext fun a => Fin.ext (by
    match a with
    | ⟨0, _⟩ => exact pv_lhs_0 _ _
    | ⟨1, _⟩ => exact (pv_lhs_1 _ _).trans hk)
  have er : dot_S1024x1024_S1024x256_S1024x256_1_0_0_1_n_n.rhsIdx (ix2 p q) ((contrEquiv1 dot_S1024x1024_S1024x256_S1024x256_1_0_0_1_n_n 1024 rfl rfl).symm k) = ix2 k q := funext fun a => Fin.ext (by
    match a with
    | ⟨0, _⟩ => exact (pv_rhs_0 _ _).trans hk
    | ⟨1, _⟩ => exact pv_rhs_1 _ _)
  rw [el, er]

/-- Output projection: row `p` of the running total against column `q` of the transposed weight. -/
theorem ow_apply (x : FVec Ideal S1024x256 .bf16) (y : FVec Ideal S256x256 .bf16) (p : Fin 1024) (q : Fin 256) :
    matmul dot_S1024x256_S256x256_S1024x256_1_0_0_1_n_n none x y (constant (F := Ideal) S1024x256 .f32 0x00000000#32) (ix2 p q)
      = ∑ k : Fin 256, x (ix2 p k) * y (ix2 k q) := by
  refine (Ideal.matmul_constant_zero_apply dot_S1024x256_S256x256_S1024x256_1_0_0_1_n_n none x y (ix2 p q)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact ow_lhs_0 _ _
    | ⟨1, _⟩ => exact (ow_lhs_1 _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (ow_rhs_0 _ _).trans hk
    | ⟨1, _⟩ => exact ow_rhs_1 _ _)
  rw [el, er]

end Cert.KernelIdeal.Pay1

end
-- ==== Proof.Pay1.lean ====
/-
  The three values the attention kernel stores, read at one entry, on the extended reals.

  With `c01` and `c1` the two literals of the kernel (single-precision words for one hundredth and one tenth, read
  as extended reals and never evaluated):
    the reset of the running total stores `0` everywhere;
    one key tile adds to the running total, at `(r, f)`,
        (∑ t, act ((∑ e, q r e · k t e) · c01) · v t f) · c01,   act a = a · (a · c1 + c1);
    the last step stores, at `(0, r, g)`, (∑ f, total r f · W f g) · c1.
  A change of format is the identity here, a shape cast re-reads the same entries, and each matrix product
  into a zero accumulator is the plain sum over its contracted coordinate.
-/
import proofs.«112663_j7679401525969_2_alg».proof.Proof.Pay1a
import proofs.«112663_j7679401525969_2_alg».proof.Proof.Spec

noncomputable section

namespace Cert.KernelIdeal.Pay1

open Cert.KernelIdeal Cert.KernelIdeal.Gen Idealize.ShloMosaic Idealize.ShloMosaic.ValueIdx Idealize.SL.Sem

/-- The literal `0.01` of the kernel, as an extended real. -/
abbrev c01 : EReal := Ideal.ofBits .f32 0x3C23D70A#32
/-- The literal `0.1` of the kernel, as an extended real. -/
abbrev c1 : EReal := Ideal.ofBits .f32 0x3DCCCCCD#32

/-- The reset value of the running total is `0` at every entry. -/
theorem k1_pay1_apply (r : Fin 1024) (f : Fin 256) : k1_pay1 (F := Ideal) (ix2 r f) = 0 := by
  unfold k1_pay1
  refine (congrFun (shapeCast_self _ _) _).trans ?_
  exact Ideal.ofBits_zero_f32

/-- The scaled score of query row `r` against key row `t` of the tile. -/
theorem score_apply (v3 v5 : Vec Ideal S1x1024x256 .bf16) (r t : Fin 1024) :
    mulf (F := Ideal)
        (matmul dot_S1024x256_S1024x256_S1024x1024_1_1_0_0_n_n none
          (shapeCast S1024x256 v3 shapeCasts_S1x1024x256_S1024x256 : FVec Ideal S1024x256 .bf16)
          (shapeCast S1024x256 v5 shapeCasts_S1x1024x256_S1024x256 : FVec Ideal S1024x256 .bf16)
          (constant (F := Ideal) S1024x1024 .f32 0x00000000#32))
        (broadcast S1024x1024 (Scalar.ofBits .f32 0x3C23D70A#32)) (ix2 r t)
      = (∑ e : Fin 256, v3 (ix3 (0 : Fin 1) r e) * v5 (ix3 (0 : Fin 1) t e)) * c01 := by
  refine congrArg (· * c01) ?_
  refine (qk_apply _ _ r t).trans ?_
  refine Finset.sum_congr rfl fun e _ => ?_
  rw [shapeCast_1ab_ab_apply v3 _ r e, shapeCast_1ab_ab_apply v5 _ t e]

/-- The activation, entry by entry: `a · (a · c1 + c1)`; the change of format after it is the identity. -/
theorem act_apply (a : FVec Ideal S1024x1024 .f32) (i : S1024x1024.Idx) :
    (truncf .bf16
        (mulf a (addf (mulf a (broadcast S1024x1024 (Scalar.ofBits .f32 0x3DCCCCCD#32)))
          (broadcast S1024x1024 (Scalar.ofBits .f32 0x3DCCCCCD#32))))
        bitsLt_bf16_f32 : FVec Ideal S1024x1024 .bf16) i
      = Cert.Spec.actK c1 (a i) := rfl

/-- What one key tile adds to the running total, and the total it is added to. -/
theorem k1_pay2_apply (v3 v5 v7 : Vec Ideal S1x1024x256 .bf16) (v18 : Vec Ideal S1024x256 .f32) (r : Fin 1024) (f : Fin 256) :
    k1_pay2 (F := Ideal) v3 v5 v7 v18 (ix2 r f)
      = v18 (ix2 r f)
        + (∑ t : Fin 1024,
            Cert.Spec.actK c1 ((∑ e : Fin 256, v3 (ix3 (0 : Fin 1) r e) * v5 (ix3 (0 : Fin 1) t e)) * c01)
              * v7 (ix3 (0 : Fin 1) t f)) * c01 := by
  unfold k1_pay2
  refine (congrFun (shapeCast_self _ _) _).trans ?_
  refine congrArg (fun z => v18 (ix2 r f) + z * c01) ?_
  refine (pv_apply _ _ r f).trans ?_
  refine Finset.sum_congr rfl fun t _ => ?_
  refine congr (congrArg HMul.hMul ?_) (shapeCast_1ab_ab_apply v7 _ t f)
  exact (act_apply _ (ix2 r t)).trans (congrArg (Cert.Spec.actK c1) (score_apply v3 v5 r t))

/-- The stored result: the running total times the output weight, scaled. -/
theorem k1_pay3_apply (v29 : Vec Ideal S1024x256 .f32) (v31 : Vec Ideal S256x256 .bf16) (r : Fin 1024) (g : Fin 256) :
    k1_pay3 (F := Ideal) v29 v31 (ix3 (0 : Fin 1) r g)
      = (∑ f : Fin 256, v29 (ix2 r f) * v31 (ix2 f g)) * c1 := by
  unfold k1_pay3
  refine (shapeCast_ab_1ab_apply _ shapeCasts_S1024x256_S1x1024x256 (0 : Fin 1) r g).trans ?_
  refine congrArg (· * c1) ?_
  refine (ow_apply _ _ r g).trans ?_
  refine Finset.sum_congr rfl fun k _ => ?_
  refine congrArg (v29 (ix2 r k) * ·) ?_
  exact congrFun (shapeCast_self _ _) _

end Cert.KernelIdeal.Pay1

end
-- ==== Proof.Val1acc.lean ====
/-
  The accumulator of the attention call after each point of the grid, and the output block at a last key tile, on
  the extended reals, as functions of the three projected arrays and of the transposed output weight as the call
  finds them.

  After the point with batch `b`, query tile `i` and key tile `j`, row `r` of the accumulator holds the running
  total over the key tiles `0 … j` of row `1024 · i + r` of batch `b`: by induction along the grid, the total being
  reset at `j = 0`.  At `j = 3` the output block is the projection of that total: the result `KQ`.
-/
import proofs.«112663_j7679401525969_2_alg».proof.Proof.Val1b
import proofs.«112663_j7679401525969_2_alg».proof.Proof.Pay1
import proofs.«112663_j7679401525969_2_alg».proof.Proof.Spec2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

open Cert.Spec (A3 M2 actK score tile partQ runQ KQ)
open Cert.KernelIdeal.Pay1 (c01 c1 k1_pay1_apply k1_pay2_apply k1_pay3_apply)

/-- One key tile's contribution, from three blocks that read the projected arrays `q`, `k`, `v` at batch `b`:
    the query block at row `s`, the key and value blocks at the rows of key tile `j`. -/
theorem part_of_blocks (x0 x1 x2 : Vec Ideal S1x1024x256 .bf16) (q k v : A3) (b : Fin 4) (s : Fin 4096)
    (r : Fin 1024) (f : Fin 256) (j : Fin 4)
    (h0 : ∀ e : Fin 256, x0 (ix3 (0 : Fin 1) r e) = q b s e)
    (h1 : ∀ (t' : Fin 1024) (e : Fin 256), x1 (ix3 (0 : Fin 1) t' e) = k b (tile j t') e)
    (h2 : ∀ t' : Fin 1024, x2 (ix3 (0 : Fin 1) t' f) = v b (tile j t') f) :
    (∑ t' : Fin 1024, actK c1 ((∑ e : Fin 256, x0 (ix3 (0 : Fin 1) r e) * x1 (ix3 (0 : Fin 1) t' e)) * c01)
        * x2 (ix3 (0 : Fin 1) t' f)) * c01
      = partQ c01 c1 q k v b s f j := by
  unfold partQ score
  refine congrArg (· * c01) (Finset.sum_congr rfl fun t' _ => ?_)
  rw [h2 t']
  refine congrArg (fun z => actK c1 (z * c01) * v b (tile j t') f) (Finset.sum_congr rfl fun e _ => ?_)
  rw [h0 e, h1 t' e]

section
variable (V : (c : Dev nD) → (b : Ref sig .tc) → Buf (Elt Ideal) ((c : Thread nD τ).loc b))

/-- The projected arrays and the transposed output weight as the call finds them, by coordinates. -/
abbrev qA (c : Dev nD) : A3 := fun b s f => V c (Pipeline.arrRef spec1 0) (ix3 b s f)
abbrev kA (c : Dev nD) : A3 := fun b t f => V c (Pipeline.arrRef spec1 1) (ix3 b t f)
abbrev vA (c : Dev nD) : A3 := fun b t f => V c (Pipeline.arrRef spec1 2) (ix3 b t f)
abbrev wA (c : Dev nD) : M2 := fun f g => V c (Pipeline.arrRef spec1 3) (ix2 f g)

/-- The same at the blocks of point `t`: its batch is `t / 16`, its query rows start at `1024 · (t / 4 mod 4)`,
    its key tile is `t mod 4`. -/
theorem part_at (c : Dev nD) (t : Fin cfg1.N) (r : Fin 1024) (f : Fin 256) (b : Fin 4) (s : Fin 4096)
    (hb : b.val = t.val / 16) (hs : s.val = t.val / 4 % 4 * 1024 + r.val) (j : Fin 4) (hj : j.val = t.val % 4)
    (x0 x1 x2 : Vec Ideal S1x1024x256 .bf16) (e0 : x0 = iblk1 V c 0 t) (e1 : x1 = iblk1 V c 1 t) (e2 : x2 = iblk1 V c 2 t) :
    (∑ t' : Fin 1024, actK c1 ((∑ e : Fin 256, x0 (ix3 (0 : Fin 1) r e) * x1 (ix3 (0 : Fin 1) t' e)) * c01)
        * x2 (ix3 (0 : Fin 1) t' f)) * c01
      = partQ c01 c1 (qA V c) (kA V c) (vA V c) b s f j := by
  subst e0 e1 e2
  exact part_of_blocks (iblk1 V c 0 t) (iblk1 V c 1 t) (iblk1 V c 2 t) (qA V c) (kA V c) (vA V c) b s r f j
    (fun e => iblk1_0_apply V c t r e b s hb hs)
    (fun t' e => iblk1_1_apply V c t t' e b (tile j t') hb (by show j.val * 1024 + t'.val = _; rw [hj]))
    (fun t' => iblk1_2_apply V c t t' f b (tile j t') hb (by show j.val * 1024 + t'.val = _; rw [hj]))

/-- THE ACCUMULATOR after position `n` of the grid: the running total over the key tiles `0 … n mod 4`. -/
theorem accAt_eq (c : Dev nD) : ∀ (n : ℕ) (hn : n < cfg1.N) (r : Fin 1024) (f : Fin 256) (b : Fin 4) (s : Fin 4096),
    b.val = n / 16 → s.val = n / 4 % 4 * 1024 + r.val →
    accAt V c n hn (ix2 r f) = runQ c01 c1 (qA V c) (kA V c) (vA V c) b s f (n % 4) := by
  intro n
  induction n with
  | zero =>
    intro hn r f b s hb hs
    refine (congrFun (accAt_first V c ⟨0, hn⟩ rfl) (ix2 r f)).trans ?_
    refine (k1_pay2_apply (iblk1 V c 0 ⟨0, hn⟩) (iblk1 V c 1 ⟨0, hn⟩) (iblk1 V c 2 ⟨0, hn⟩) (k1_pay1 (F := Ideal)) r f).trans ?_
    show _ = 0 + partQ c01 c1 (qA V c) (kA V c) (vA V c) b s f 0
    exact congr (congrArg HAdd.hAdd (k1_pay1_apply r f))
      (part_at V c ⟨0, hn⟩ r f b s hb hs 0 rfl _ _ _ rfl rfl rfl)
  | succ n ih =>
    intro hn r f b s hb hs
    have hN : n + 1 < 64 := lt_of_lt_of_eq hn N_1
    by_cases h0 : (n + 1) % 4 = 0
    · refine (congrFun (accAt_first V c ⟨n + 1, hn⟩ h0) (ix2 r f)).trans ?_
      refine (k1_pay2_apply (iblk1 V c 0 ⟨n + 1, hn⟩) (iblk1 V c 1 ⟨n + 1, hn⟩) (iblk1 V c 2 ⟨n + 1, hn⟩) (k1_pay1 (F := Ideal)) r f).trans ?_
      rw [h0]
      show _ = 0 + partQ c01 c1 (qA V c) (kA V c) (vA V c) b s f 0
      exact congr (congrArg HAdd.hAdd (k1_pay1_apply r f))
        (part_at V c ⟨n + 1, hn⟩ r f b s hb hs 0 h0.symm _ _ _ rfl rfl rfl)
    · have hm : (n + 1) % 4 = n % 4 + 1 := by omega
      have hlt : n % 4 + 1 < 4 := by omega
      refine (congrFun (accAt_step V c ⟨n + 1, hn⟩ h0) (ix2 r f)).trans ?_
      refine (k1_pay2_apply (iblk1 V c 0 ⟨n + 1, hn⟩) (iblk1 V c 1 ⟨n + 1, hn⟩) (iblk1 V c 2 ⟨n + 1, hn⟩) _ r f).trans ?_
      rw [hm]
      show _ = runQ c01 c1 (qA V c) (kA V c) (vA V c) b s f (n % 4)
        + (if h : n % 4 + 1 < 4 then partQ c01 c1 (qA V c) (kA V c) (vA V c) b s f ⟨n % 4 + 1, h⟩ else 0)
      rw [dif_pos hlt]
      refine congr (congrArg HAdd.hAdd ?_)
        (part_at V c ⟨n + 1, hn⟩ r f b s hb hs ⟨n % 4 + 1, hlt⟩ hm.symm _ _ _ rfl rfl rfl)
      exact ih (Nat.lt_of_succ_lt hn) r f b s (by omega) (by omega)

/-- THE OUTPUT BLOCK at a last key tile: row `r` is row `1024 · (t / 4 mod 4) + r` of batch `t / 16` of the result. -/
theorem outAt_apply (c : Dev nD) (t : Fin cfg1.N) (h3 : t.val % 4 = 3) (r : Fin 1024) (g : Fin 256) :
    outAt (F := Ideal) V c t (ix3 (0 : Fin 1) r g)
      = KQ c01 c1 (fun b s f => V c (Pipeline.arrRef spec1 0) (ix3 b s f)) (fun b t f => V c (Pipeline.arrRef spec1 1) (ix3 b t f))
          (fun b t f => V c (Pipeline.arrRef spec1 2) (ix3 b t f)) (fun f g => V c (Pipeline.arrRef spec1 3) (ix2 f g))
          ⟨t.val / 16, by have := t.isLt; have : cfg1.N = 64 := N_1; omega⟩
          ⟨((t.val / 4) % 4) * 1024 + r.val, by have := r.isLt; omega⟩ g := by
  rw [outAt_last V c t h3]
  refine (k1_pay3_apply (accAt V c t.val t.isLt) (iblk1 V c 3 t) r g).trans ?_
  show _ = (∑ f : Fin 256, runQ c01 c1 (qA V c) (kA V c) (vA V c) _ _ f 3 * wA V c f g) * c1
  refine congrArg (· * c1) (Finset.sum_congr rfl fun f _ => ?_)
  refine congr (congrArg HMul.hMul ?_) (iblk1_3_apply V c t f g)
  have h := accAt_eq V c t.val t.isLt r f ⟨t.val / 16, by have := t.isLt; have : cfg1.N = 64 := N_1; omega⟩
    ⟨((t.val / 4) % 4) * 1024 + r.val, by have := r.isLt; omega⟩ rfl rfl
  rw [h3] at h
  exact h

end

end Cert.KernelIdeal.Hand

end
-- ==== Proof.Val1c.lean ====
/-
  From blocks to the array, for the output of the attention call, on the extended reals.

  The call's grid has 4 × 4 × 4 points; point `t` is batch `t / 16`, query tile `(t / 4) % 4`, key tile `t % 4`.
  The output window's block at `t` is rows `1024·((t / 4) % 4) … + 1023` of batch `t / 16`, and the pipeline writes
  it back exactly at the last key tile, `t % 4 = 3`.  So if, at every such point, entry `(0, r, g)` of what the body
  leaves in the output buffer is `Gfun (t / 16) (1024·((t / 4) % 4) + r) g` for ONE function `Gfun` of the array's
  coordinates, the array ends at `Gfun`: row `s` of batch `b` lies in the block written back at point
  `16·b + 4·(s / 1024) + 3`.  Nothing is asked of the points that do not write back.
-/
import proofs.«112663_j7679401525969_2_alg».proof.Proof.KI.Region1
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The output window's block index at point `t`: batch `t / 16`, query tile `(t / 4) % 4`, all 256 columns. -/
theorem out_block_index : ∀ t : Fin cfg1.N,
    win1_4.index t (0 : Fin 3) = t.val / 16 ∧ win1_4.index t (1 : Fin 3) = (t.val / 4) % 4 ∧ win1_4.index t (2 : Fin 3) = 0 :=
  (by decide +kernel : ∀ t : Fin grid1.N, _)

/-- An index of the array lies in point `t`'s output block iff each coordinate lies in the block's range on its axis. -/
theorem mem_out_block (t : Fin cfg1.N) (i : S4x4096x256.Idx) :
    i ∈ ((cfg1.win 4).blk t).view.set ↔ ∀ a : Fin 3, win1_4.index t a * S1x1024x256.size a ≤ (i a).val ∧ (i a).val < win1_4.index t a * S1x1024x256.size a + S1x1024x256.size a := by
  show i ∈ ((View.whole main_v9).slice (win1_4.rect t)).set ↔ _
  rw [View.set_slice_whole, Rect.mem_set_unit]
  exact Iff.rfl

/-- Every index of the array lies in a block that is written back: row `s` of batch `b` in that of point `16·b + 4·(s / 1024) + 3`. -/
theorem out_covered (i : S4x4096x256.Idx) : ∃ t : Fin cfg1.N, (cfg1.win 4).flush t = true ∧ i ∈ ((cfg1.win 4).blk t).view.set := by
  have h0 : (i 0).val < 4 := (i 0).isLt
  have h1 : (i 1).val < 4096 := (i 1).isLt
  have h2 : (i 2).val < 256 := (i 2).isLt
  have hN : cfg1.N = 64 := N_1
  refine ⟨⟨16 * (i 0).val + 4 * ((i 1).val / 1024) + 3, by rw [hN]; omega⟩, (flush1_4 _).mpr (by show (16 * (i 0).val + 4 * ((i 1).val / 1024) + 3) % 4 = 3; omega), ?_⟩
  rw [mem_out_block]
  obtain ⟨e0, e1, e2⟩ := out_block_index ⟨16 * (i 0).val + 4 * ((i 1).val / 1024) + 3, by rw [hN]; omega⟩
  intro a
  match a with
  | ⟨0, _⟩ => show win1_4.index _ (0 : Fin 3) * 1 ≤ (i 0).val ∧ (i 0).val < win1_4.index _ (0 : Fin 3) * 1 + 1; rw [e0]; show (16 * (i 0).val + 4 * ((i 1).val / 1024) + 3) / 16 * 1 ≤ _ ∧ _ < (16 * (i 0).val + 4 * ((i 1).val / 1024) + 3) / 16 * 1 + 1; omega
  | ⟨1, _⟩ => show win1_4.index _ (1 : Fin 3) * 1024 ≤ (i 1).val ∧ (i 1).val < win1_4.index _ (1 : Fin 3) * 1024 + 1024; rw [e1]; show (16 * (i 0).val + 4 * ((i 1).val / 1024) + 3) / 4 % 4 * 1024 ≤ _ ∧ _ < (16 * (i 0).val + 4 * ((i 1).val / 1024) + 3) / 4 % 4 * 1024 + 1024; omega
  | ⟨2, _⟩ => show win1_4.index _ (2 : Fin 3) * 256 ≤ (i 2).val ∧ (i 2).val < win1_4.index _ (2 : Fin 3) * 256 + 256; rw [e2]; omega

section Arrays
variable (V : (c : Dev nD) → (b : Ref sig .tc) → Buf (Elt Ideal) ((c : Thread nD τ).loc b))

/-- The hypothesis on the body's output block, at ANY index of the block (its leading coordinate is `0`). -/
theorem out_at_of (c : Dev nD) (Gfun : Fin 4 → Fin 4096 → Fin 256 → EReal)
    (hout : ∀ (t : Fin cfg1.N) (h3 : t.val % 4 = 3) (r : Fin 1024) (g : Fin 256),
      outAt (F := Ideal) V c t (ix3 (0 : Fin 1) r g)
        = Gfun ⟨t.val / 16, by have := t.isLt; have : cfg1.N = 64 := N_1; omega⟩ ⟨((t.val / 4) % 4) * 1024 + r.val, by have := r.isLt; omega⟩ g)
    (t : Fin cfg1.N) (h3 : t.val % 4 = 3) (j : S1x1024x256.Idx) :
    outAt (F := Ideal) V c t j
      = Gfun ⟨t.val / 16, by have := t.isLt; have : cfg1.N = 64 := N_1; omega⟩ ⟨((t.val / 4) % 4) * 1024 + (j 1).val, by have hj1 : (j 1).val < 1024 := (j 1).isLt; omega⟩ (j 2) := by
  obtain ⟨u, r, g, rfl⟩ : ∃ (u : Fin 1) (r : Fin 1024) (g : Fin 256), j = ix3 u r g := ⟨j 0, j 1, j 2, eq_ix3 j⟩
  obtain rfl : u = 0 := Subsingleton.elim _ _
  exact hout t h3 r g

/-- What a point that writes back writes is its block of `Gfun`. -/
theorem out_flushed_of (c : Dev nD) (Gfun : Fin 4 → Fin 4096 → Fin 256 → EReal)
    (hout : ∀ (t : Fin cfg1.N) (h3 : t.val % 4 = 3) (r : Fin 1024) (g : Fin 256),
      outAt (F := Ideal) V c t (ix3 (0 : Fin 1) r g)
        = Gfun ⟨t.val / 16, by have := t.isLt; have : cfg1.N = 64 := N_1; omega⟩ ⟨((t.val / 4) % 4) * 1024 + r.val, by have := r.isLt; omega⟩ g)
    (t : Fin cfg1.N) (hf : (cfg1.win 4).flush t = true) :
    (dat1 (F := Ideal) V c).flushed 4 t
      = ((cfg1.win 4).blk t).view.read (Elt Ideal) (fun i : S4x4096x256.Idx => Gfun (i 0) (i 1) (i 2)) := by
  have h3 : t.val % 4 = 3 := (flush1_4 t).mp hf
  show (cfg1.win 4).cut (grid1.coords t) ((dat1 V c).after 4 t) = _
  rw [after1_4]
  obtain ⟨e0, e1, e2⟩ := out_block_index t
  funext j
  refine (out_at_of V c Gfun hout t h3 j).trans ?_
  have hj0 : (j 0).val < 1 := (j 0).isLt
  have a0 : (⟨t.val / 16, by have := t.isLt; have : cfg1.N = 64 := N_1; omega⟩ : Fin 4) = ((cfg1.win 4).blk t).view.emb j 0 :=
    Fin.ext (by show t.val / 16 = win1_4.index t (0 : Fin 3) * 1 + 1 * (j 0).val; omega)
  have a1 : (⟨((t.val / 4) % 4) * 1024 + (j 1).val, by have hj1 : (j 1).val < 1024 := (j 1).isLt; omega⟩ : Fin 4096) = ((cfg1.win 4).blk t).view.emb j 1 :=
    Fin.ext (by show ((t.val / 4) % 4) * 1024 + (j 1).val = win1_4.index t (1 : Fin 3) * 1024 + 1 * (j 1).val; omega)
  have a2 : (j 2 : Fin 256) = ((cfg1.win 4).blk t).view.emb j 2 :=
    Fin.ext (by show (j 2).val = win1_4.index t (2 : Fin 3) * 256 + 1 * (j 2).val; omega)
  exact congr (congr (congrArg Gfun a0) a1) a2

/-- The output array after the call is `Gfun`, entry by entry. -/
theorem out_arr_of (c : Dev nD) (Gfun : Fin 4 → Fin 4096 → Fin 256 → EReal)
    (hout : ∀ (t : Fin cfg1.N) (h3 : t.val % 4 = 3) (r : Fin 1024) (g : Fin 256),
      outAt (F := Ideal) V c t (ix3 (0 : Fin 1) r g)
        = Gfun ⟨t.val / 16, by have := t.isLt; have : cfg1.N = 64 := N_1; omega⟩ ⟨((t.val / 4) % 4) * 1024 + r.val, by have := r.isLt; omega⟩ g)
    (b : Fin 4) (s : Fin 4096) (g : Fin 256) :
    (dat1 (F := Ideal) V c).arrAt 4 cfg1.N (ix3 b s g) = Gfun b s g :=
  congrFun ((dat1 (F := Ideal) V c).arrAt_eq_of_cover 4 (fun i : S4x4096x256.Idx => Gfun (i 0) (i 1) (i 2))
    (fun t hf => out_flushed_of V c Gfun hout t hf) out_covered) (ix3 b s g)

end Arrays

end Cert.KernelIdeal.Hand

end
-- ==== Proof.Pay0.lean ====
/-
  The three projection payloads of the first call, read at an index, on the extended reals.

  Each is: the block `v0` of `x` (a `[1, 1024, 256]` array, its leading axis dropped), narrowed, times a
  `[256, 256]` matrix `w` into a zero accumulator, times a scalar literal, narrowed, the leading unit axis put back.
  On the extended reals narrowing is the identity and the product into zero is the plain sum over the contracted
  axis, so entry `(0, r, f)` is `(∑ e, v0 (0, r, e) · w (e, f)) · c`.
-/
import proofs.«112663_j7679401525969_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx Idealize.SL.Sem

/-- The contraction of the projections: rows of a `[1024, 256]` array against columns of a `[256, 256]` one. -/
abbrev projDot : DotDims S1024x256 S256x256 S1024x256 := dot_S1024x256_S256x256_S1024x256_1_0_0_1_n_n

/-! ## The operand indices of the contraction, coordinate by coordinate -/

theorem projDot_lhs_row (j : S1024x256.Idx) (q : projDot.contr.Idx) : (projDot.lhsIdx j q 0).val = (j 0).val := by
  unfold DotDims.lhsIdx
  rw [dif_neg (show ¬(0 : Fin S1024x256.rank) ∈ projDot.lhsBatch by decide), dif_pos (show (0 : Fin S1024x256.rank) ∈ projDot.lhsNonContracting by decide)]
  rfl
theorem projDot_lhs_col (j : S1024x256.Idx) (q : projDot.contr.Idx) : (projDot.lhsIdx j q 1).val = (q ⟨0, by decide⟩).val :=
  projDot.lhsIdx_val_of_single rfl j q
theorem projDot_rhs_row (j : S1024x256.Idx) (q : projDot.contr.Idx) : (projDot.rhsIdx j q 0).val = (q ⟨0, by decide⟩).val :=
  projDot.rhsIdx_val_of_single rfl j q
theorem projDot_rhs_col (j : S1024x256.Idx) (q : projDot.contr.Idx) : (projDot.rhsIdx j q 1).val = (j 1).val := by
  unfold DotDims.rhsIdx
  rw [dif_neg (show ¬(1 : Fin S256x256.rank) ∈ projDot.rhsBatch by decide), dif_pos (show (1 : Fin S256x256.rank) ∈ projDot.rhsNonContracting by decide)]
  rfl

/-- The matrix product into the zero accumulator, at entry `(r, f)`: the sum over the 256 contracted positions. -/
theorem projDot_zero_apply (a : FVec Ideal S1024x256 .bf16) (w : FVec Ideal S256x256 .bf16) (r : Fin 1024) (f : Fin 256) :
    FloatOps.matmul projDot none a w (constant (F := Ideal) S1024x256 .f32 0x00000000#32) (ix2 r f)
      = ∑ e : Fin 256, a (ix2 r e) * w (ix2 e f) := by
  rw [Ideal.matmul_constant_zero_apply, ← Equiv.sum_comp (contrEquiv1 projDot 256 rfl rfl).symm]
  refine Finset.sum_congr rfl fun e _ => ?_
  have he := contrEquiv1_symm_val projDot 256 rfl rfl e
  have el : projDot.lhsIdx (ix2 r f) ((contrEquiv1 projDot 256 rfl rfl).symm e) = ix2 r e := funext fun a => Fin.ext (by
    match a with
    | ⟨0, _⟩ => exact projDot_lhs_row _ _
    | ⟨1, _⟩ => exact (projDot_lhs_col _ _).trans he)
  have er : projDot.rhsIdx (ix2 r f) ((contrEquiv1 projDot 256 rfl rfl).symm e) = ix2 e f := funext fun a => Fin.ext (by
    match a with
    | ⟨0, _⟩ => exact (projDot_rhs_row _ _).trans he
    | ⟨1, _⟩ => exact projDot_rhs_col _ _)
  rw [el, er]

/-- The common shape of the three payloads at entry `(0, r, f)`, for any scalar `c`. -/
theorem proj_apply (v0 : Vec Ideal S1x1024x256 .f32) (w : FVec Ideal S256x256 .bf16) (c : Ideal .f32) (r : Fin 1024) (f : Fin 256) :
    shapeCast S1x1024x256
        (truncf .bf16
          (mulf
            (matmul projDot none (k0_pay1 (F := Ideal) v0) (shapeCast S256x256 w shapeCasts_S256x256_S256x256 : FVec Ideal S256x256 .bf16)
              (constant (F := Ideal) S1024x256 .f32 0x00000000#32))
            (broadcast S1024x256 c : FVec Ideal S1024x256 .f32))
          bitsLt_bf16_f32 : FVec Ideal S1024x256 .bf16)
        shapeCasts_S1024x256_S1x1024x256 (ix3 (0 : Fin 1) r f)
      = (∑ e : Fin 256, v0 (ix3 (0 : Fin 1) r e) * w (ix2 e f)) * c := by
  refine (shapeCast_ab_1ab_apply _ _ (0 : Fin 1) r f).trans ?_
  refine congrArg (· * c) ?_
  refine (projDot_zero_apply _ _ r f).trans ?_
  refine Finset.sum_congr rfl fun e _ => ?_
  refine congrArg₂ (· * ·) ?_ ?_
  · exact shapeCast_1ab_ab_apply v0 shapeCasts_S1x1024x256_S1024x256 r e
  · exact congrFun (shapeCast_self w shapeCasts_S256x256_S256x256) (ix2 e f)

/-! ## The payloads -/

theorem k0_pay2_apply (v0 : Vec Ideal S1x1024x256 .f32) (v3 : Vec Ideal S256x256 .bf16) (r : Fin 1024) (f : Fin 256) :
    k0_pay2 (F := Ideal) v0 v3 (ix3 (0 : Fin 1) r f)
      = (∑ e : Fin 256, v0 (ix3 (0 : Fin 1) r e) * v3 (ix2 e f)) * Ideal.ofBits .f32 0x3C23D70A#32 :=
  proj_apply v0 v3 _ r f

theorem k0_pay3_apply (v0 : Vec Ideal S1x1024x256 .f32) (v8 : Vec Ideal S256x256 .bf16) (r : Fin 1024) (f : Fin 256) :
    k0_pay3 (F := Ideal) v0 v8 (ix3 (0 : Fin 1) r f)
      = (∑ e : Fin 256, v0 (ix3 (0 : Fin 1) r e) * v8 (ix2 e f)) * Ideal.ofBits .f32 0x3C23D70A#32 :=
  proj_apply v0 v8 _ r f

theorem k0_pay4_apply (v0 : Vec Ideal S1x1024x256 .f32) (v13 : Vec Ideal S256x256 .bf16) (r : Fin 1024) (f : Fin 256) :
    k0_pay4 (F := Ideal) v0 v13 (ix3 (0 : Fin 1) r f)
      = (∑ e : Fin 256, v0 (ix3 (0 : Fin 1) r e) * v13 (ix2 e f)) * Ideal.ofBits .f32 0x3DCCCCCD#32 :=
  proj_apply v0 v13 _ r f

end Cert.KernelIdeal.Hand

end
-- ==== Proof.Val0.lean ====
/-
  What the projection call leaves in its three output arrays, on the extended reals, as functions of the
  contents `V` the call finds in the core's buffers.

  At grid point `t` the block index of `x` and of each output is `(t / 4, t % 4, 0)` and every weight window's is
  `(0, 0)`: the body reads rows `1024·(t % 4) … + 1023` of batch `t / 4` and writes the same rows of the same
  batch of each output.  Entry `(0, r, f)` of what it writes is `(∑ e, x (t / 4, 1024·(t % 4) + r, e) · w (e, f)) · c`,
  which is entry `(t / 4, 1024·(t % 4) + r, f)` of ONE whole-array function; every point writes its block back, and
  the 16 blocks cover the array (row `s` of batch `b` lies in the block of point `4·b + s / 1024`), so each output
  array ends at that function.
-/
import proofs.«112663_j7679401525969_2_alg».proof.Proof.Region0
import proofs.«112663_j7679401525969_2_alg».proof.Proof.Pay0

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The projection of a `[4, 4096, 256]` array `x` by a `[256, 256]` matrix `w` (rows of `x` against columns of
    `w`), scaled by `k`. -/
abbrev projArr (x : S4x4096x256.Idx → Ideal .f32) (w : S256x256.Idx → Ideal .bf16) (k : Ideal .f32) : S4x4096x256.Idx → Ideal .bf16 :=
  fun i => (∑ e : Fin 256, x (ix3 (i 0) (i 1) e) * w (ix2 e (i 2))) * k

/-- Entry `(b, s, e)` of a `[4, 4096, 256]` array of extended reals, and entry `(e, f)` of a `[256, 256]` one: the
    arrays as functions of their coordinates. -/
abbrev rd3 (x : S4x4096x256.Idx → EReal) (b : Fin 4) (s : Fin 4096) (e : Fin 256) : EReal := x (ix3 b s e)
abbrev rd2 (w : S256x256.Idx → EReal) (e f : Fin 256) : EReal := w (ix2 e f)

/-! ## The payloads at any index of a block -/

theorem pay2_at (v0 : Vec Ideal S1x1024x256 .f32) (w : Vec Ideal S256x256 .bf16) (j : S1x1024x256.Idx) :
    k0_pay2 (F := Ideal) v0 w j = (∑ e : Fin 256, v0 (ix3 (j 0) (j 1) e) * w (ix2 e (j 2))) * Ideal.ofBits .f32 0x3C23D70A#32 := by
  obtain ⟨u, r, f, rfl⟩ : ∃ (u : Fin 1) (r : Fin 1024) (f : Fin 256), j = ix3 u r f := ⟨j 0, j 1, j 2, eq_ix3 j⟩
  obtain rfl : u = 0 := Subsingleton.elim _ _
  exact k0_pay2_apply v0 w r f
theorem pay3_at (v0 : Vec Ideal S1x1024x256 .f32) (w : Vec Ideal S256x256 .bf16) (j : S1x1024x256.Idx) :
    k0_pay3 (F := Ideal) v0 w j = (∑ e : Fin 256, v0 (ix3 (j 0) (j 1) e) * w (ix2 e (j 2))) * Ideal.ofBits .f32 0x3C23D70A#32 := by
  obtain ⟨u, r, f, rfl⟩ : ∃ (u : Fin 1) (r : Fin 1024) (f : Fin 256), j = ix3 u r f := ⟨j 0, j 1, j 2, eq_ix3 j⟩
  obtain rfl : u = 0 := Subsingleton.elim _ _
  exact k0_pay3_apply v0 w r f
theorem pay4_at (v0 : Vec Ideal S1x1024x256 .f32) (w : Vec Ideal S256x256 .bf16) (j : S1x1024x256.Idx) :
    k0_pay4 (F := Ideal) v0 w j = (∑ e : Fin 256, v0 (ix3 (j 0) (j 1) e) * w (ix2 e (j 2))) * Ideal.ofBits .f32 0x3DCCCCCD#32 := by
  obtain ⟨u, r, f, rfl⟩ : ∃ (u : Fin 1) (r : Fin 1024) (f : Fin 256), j = ix3 u r f := ⟨j 0, j 1, j 2, eq_ix3 j⟩
  obtain rfl : u = 0 := Subsingleton.elim _ _
  exact k0_pay4_apply v0 w r f

/-! ## The block indices, in closed form over the grid -/

/-- At point `t`: `x`'s window and the three output windows are at block `(t / 4, t % 4, 0)`, the weight windows at `(0, 0)`. -/
theorem block_index : ∀ t : Fin cfg0.N,
    (win0_0.index t (0 : Fin 3) = t.val / 4 ∧ win0_0.index t (1 : Fin 3) = t.val % 4 ∧ win0_0.index t (2 : Fin 3) = 0)
    ∧ (win0_4.index t (0 : Fin 3) = t.val / 4 ∧ win0_4.index t (1 : Fin 3) = t.val % 4 ∧ win0_4.index t (2 : Fin 3) = 0)
    ∧ (win0_5.index t (0 : Fin 3) = t.val / 4 ∧ win0_5.index t (1 : Fin 3) = t.val % 4 ∧ win0_5.index t (2 : Fin 3) = 0)
    ∧ (win0_6.index t (0 : Fin 3) = t.val / 4 ∧ win0_6.index t (1 : Fin 3) = t.val % 4 ∧ win0_6.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

section Arrays
variable (V : (c : Dev nD) → (b : Ref sig .tc) → Buf (Elt Ideal) ((c : Thread nD τ).loc b))

/-! ## The `q` output (window 4, from the weight window 1) -/

/-- What point `t` writes back is its block of the projection of the entry arrays. -/
theorem flushed4 (c : Dev nD) (t : Fin cfg0.N) :
    (dat0 (F := Ideal) V c).flushed 4 t
      = ((cfg0.win 4).blk t).view.read (Elt Ideal) (projArr (V c main_arg0) (V c main_v1) (Ideal.ofBits .f32 0x3C23D70A#32)) := by
  show (cfg0.win 4).cut (grid0.coords t) ((dat0 V c).after 4 t) = _
  rw [after0_4]
  unfold out0_4
  rw [View.canon_unit_zero zeros3]
  simp only [View.ld_unit_zero (S := S1x1024x256) zeros3, View.ld_unit_zero (S := S256x256) zeros2]
  obtain ⟨⟨x0, x1, x2⟩, ⟨q0, q1, q2⟩, ⟨k0, k1, k2⟩, ⟨v0, v1, v2⟩, ⟨a0, a1⟩, ⟨b0, b1⟩, ⟨c0, c1⟩⟩ := block_index t
  funext j
  refine (pay2_at (iblk0 V c 0 t) (iblk0 V c 1 t) j).trans ?_
  refine congrArg (· * Ideal.ofBits .f32 0x3C23D70A#32) (Finset.sum_congr rfl fun e _ => ?_)
  refine congrArg₂ (· * ·) ?_ ?_
  · show V c main_arg0 (((cfg0.win 0).blk t).view.emb (ix3 (j 0) (j 1) e))
      = V c main_arg0 (ix3 (((cfg0.win 4).blk t).view.emb j 0) (((cfg0.win 4).blk t).view.emb j 1) e)
    refine congrArg (V c main_arg0) (funext fun a => Fin.ext ?_)
    match a with
    | ⟨0, _⟩ => show win0_0.index t (0 : Fin 3) * 1 + 1 * (j 0).val = win0_4.index t (0 : Fin 3) * 1 + 1 * (j 0).val; omega
    | ⟨1, _⟩ => show win0_0.index t (1 : Fin 3) * 1024 + 1 * (j 1).val = win0_4.index t (1 : Fin 3) * 1024 + 1 * (j 1).val; omega
    | ⟨2, _⟩ => show win0_0.index t (2 : Fin 3) * 256 + 1 * e.val = e.val; omega
  · show V c main_v1 (((cfg0.win 1).blk t).view.emb (ix2 e (j 2)))
      = V c main_v1 (ix2 e (((cfg0.win 4).blk t).view.emb j 2))
    refine congrArg (V c main_v1) (funext fun a => Fin.ext ?_)
    match a with
    | ⟨0, _⟩ => show win0_1.index t (0 : Fin 2) * 256 + 1 * e.val = e.val; omega
    | ⟨1, _⟩ => show win0_1.index t (1 : Fin 2) * 256 + 1 * (j 2).val = win0_4.index t (2 : Fin 3) * 256 + 1 * (j 2).val; omega

/-- An index of the array lies in point `t`'s block iff each coordinate lies in the block's range on its axis. -/
theorem mem_block4 (t : Fin cfg0.N) (i : S4x4096x256.Idx) :
    i ∈ ((cfg0.win 4).blk t).view.set ↔ ∀ a : Fin 3, win0_4.index t a * S1x1024x256.size a ≤ (i a).val ∧ (i a).val < win0_4.index t a * S1x1024x256.size a + S1x1024x256.size a := by
  show i ∈ ((View.whole main_v8_0).slice (win0_4.rect t)).set ↔ _
  rw [View.set_slice_whole, Rect.mem_set_unit]
  exact Iff.rfl

/-- Every index of the array lies in the block some point writes back: row `s` of batch `b` in that of point `4·b + s / 1024`. -/
theorem covered4 (i : S4x4096x256.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 256 := (i 2).isLt
  have hN : cfg0.N = 16 := N_0
  refine ⟨⟨4 * (i 0).val + (i 1).val / 1024, by rw [hN]; omega⟩, flush0_4 _, ?_⟩
  rw [mem_block4]
  obtain ⟨-, ⟨q0, q1, q2⟩, ⟨k0, k1, k2⟩, ⟨v0, v1, v2⟩, -⟩ := block_index ⟨4 * (i 0).val + (i 1).val / 1024, by rw [hN]; omega⟩
  intro a
  match a with
  | ⟨0, _⟩ => show win0_4.index _ (0 : Fin 3) * 1 ≤ (i 0).val ∧ (i 0).val < win0_4.index _ (0 : Fin 3) * 1 + 1; rw [q0]; show (4 * (i 0).val + (i 1).val / 1024) / 4 * 1 ≤ _ ∧ _ < (4 * (i 0).val + (i 1).val / 1024) / 4 * 1 + 1; omega
  | ⟨1, _⟩ => show win0_4.index _ (1 : Fin 3) * 1024 ≤ (i 1).val ∧ (i 1).val < win0_4.index _ (1 : Fin 3) * 1024 + 1024; rw [q1]; show (4 * (i 0).val + (i 1).val / 1024) % 4 * 1024 ≤ _ ∧ _ < (4 * (i 0).val + (i 1).val / 1024) % 4 * 1024 + 1024; omega
  | ⟨2, _⟩ => show win0_4.index _ (2 : Fin 3) * 256 ≤ (i 2).val ∧ (i 2).val < win0_4.index _ (2 : Fin 3) * 256 + 256; rw [q2]; omega

/-- The `q` array after the call: the projection of the entry arrays. -/
theorem q_arr_fn (c : Dev nD) :
    (dat0 (F := Ideal) V c).arrAt 4 cfg0.N = projArr (V c main_arg0) (V c main_v1) (Ideal.ofBits .f32 0x3C23D70A#32) :=
  (dat0 (F := Ideal) V c).arrAt_eq_of_cover 4 (projArr (V c main_arg0) (V c main_v1) (Ideal.ofBits .f32 0x3C23D70A#32))
    (fun t _ => flushed4 V c t) covered4

/-- The same entry by entry, the arrays read as functions of their coordinates. -/
theorem q_arr (c : Dev nD) (b : Fin 4) (s : Fin 4096) (f : Fin 256) :
    (dat0 (F := Ideal) V c).arrAt 4 cfg0.N (ix3 b s f)
      = (∑ e : Fin 256, rd3 (V c (Pipeline.arrRef spec0 0)) b s e * rd2 (V c (Pipeline.arrRef spec0 1)) e f) * Ideal.ofBits .f32 0x3C23D70A#32 :=
  congrFun (q_arr_fn V c) (ix3 b s f)

/-! ## The `k` output (window 5, from the weight window 2) -/

/-- What point `t` writes back is its block of the projection of the entry arrays. -/
theorem flushed5 (c : Dev nD) (t : Fin cfg0.N) :
    (dat0 (F := Ideal) V c).flushed 5 t
      = ((cfg0.win 5).blk t).view.read (Elt Ideal) (projArr (V c main_arg0) (V c main_v3) (Ideal.ofBits .f32 0x3C23D70A#32)) := by
  show (cfg0.win 5).cut (grid0.coords t) ((dat0 V c).after 5 t) = _
  rw [after0_5]
  unfold out0_5
  rw [View.canon_unit_zero zeros3]
  simp only [View.ld_unit_zero (S := S1x1024x256) zeros3, View.ld_unit_zero (S := S256x256) zeros2]
  obtain ⟨⟨x0, x1, x2⟩, ⟨q0, q1, q2⟩, ⟨k0, k1, k2⟩, ⟨v0, v1, v2⟩, ⟨a0, a1⟩, ⟨b0, b1⟩, ⟨c0, c1⟩⟩ := block_index t
  funext j
  refine (pay3_at (iblk0 V c 0 t) (iblk0 V c 2 t) j).trans ?_
  refine congrArg (· * Ideal.ofBits .f32 0x3C23D70A#32) (Finset.sum_congr rfl fun e _ => ?_)
  refine congrArg₂ (· * ·) ?_ ?_
  · show V c main_arg0 (((cfg0.win 0).blk t).view.emb (ix3 (j 0) (j 1) e))
      = V c main_arg0 (ix3 (((cfg0.win 5).blk t).view.emb j 0) (((cfg0.win 5).blk t).view.emb j 1) e)
    refine congrArg (V c main_arg0) (funext fun a => Fin.ext ?_)
    match a with
    | ⟨0, _⟩ => show win0_0.index t (0 : Fin 3) * 1 + 1 * (j 0).val = win0_5.index t (0 : Fin 3) * 1 + 1 * (j 0).val; omega
    | ⟨1, _⟩ => show win0_0.index t (1 : Fin 3) * 1024 + 1 * (j 1).val = win0_5.index t (1 : Fin 3) * 1024 + 1 * (j 1).val; omega
    | ⟨2, _⟩ => show win0_0.index t (2 : Fin 3) * 256 + 1 * e.val = e.val; omega
  · show V c main_v3 (((cfg0.win 2).blk t).view.emb (ix2 e (j 2)))
      = V c main_v3 (ix2 e (((cfg0.win 5).blk t).view.emb j 2))
    refine congrArg (V c main_v3) (funext fun a => Fin.ext ?_)
    match a with
    | ⟨0, _⟩ => show win0_2.index t (0 : Fin 2) * 256 + 1 * e.val = e.val; omega
    | ⟨1, _⟩ => show win0_2.index t (1 : Fin 2) * 256 + 1 * (j 2).val = win0_5.index t (2 : Fin 3) * 256 + 1 * (j 2).val; omega

/-- An index of the array lies in point `t`'s block iff each coordinate lies in the block's range on its axis. -/
theorem mem_block5 (t : Fin cfg0.N) (i : S4x4096x256.Idx) :
    i ∈ ((cfg0.win 5).blk t).view.set ↔ ∀ a : Fin 3, win0_5.index t a * S1x1024x256.size a ≤ (i a).val ∧ (i a).val < win0_5.index t a * S1x1024x256.size a + S1x1024x256.size a := by
  show i ∈ ((View.whole main_v8_1).slice (win0_5.rect t)).set ↔ _
  rw [View.set_slice_whole, Rect.mem_set_unit]
  exact Iff.rfl

/-- Every index of the array lies in the block some point writes back: row `s` of batch `b` in that of point `4·b + s / 1024`. -/
theorem covered5 (i : S4x4096x256.Idx) : ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 256 := (i 2).isLt
  have hN : cfg0.N = 16 := N_0
  refine ⟨⟨4 * (i 0).val + (i 1).val / 1024, by rw [hN]; omega⟩, flush0_5 _, ?_⟩
  rw [mem_block5]
  obtain ⟨-, ⟨q0, q1, q2⟩, ⟨k0, k1, k2⟩, ⟨v0, v1, v2⟩, -⟩ := block_index ⟨4 * (i 0).val + (i 1).val / 1024, by rw [hN]; omega⟩
  intro a
  match a with
  | ⟨0, _⟩ => show win0_5.index _ (0 : Fin 3) * 1 ≤ (i 0).val ∧ (i 0).val < win0_5.index _ (0 : Fin 3) * 1 + 1; rw [k0]; show (4 * (i 0).val + (i 1).val / 1024) / 4 * 1 ≤ _ ∧ _ < (4 * (i 0).val + (i 1).val / 1024) / 4 * 1 + 1; omega
  | ⟨1, _⟩ => show win0_5.index _ (1 : Fin 3) * 1024 ≤ (i 1).val ∧ (i 1).val < win0_5.index _ (1 : Fin 3) * 1024 + 1024; rw [k1]; show (4 * (i 0).val + (i 1).val / 1024) % 4 * 1024 ≤ _ ∧ _ < (4 * (i 0).val + (i 1).val / 1024) % 4 * 1024 + 1024; omega
  | ⟨2, _⟩ => show win0_5.index _ (2 : Fin 3) * 256 ≤ (i 2).val ∧ (i 2).val < win0_5.index _ (2 : Fin 3) * 256 + 256; rw [k2]; omega

/-- The `k` array after the call: the projection of the entry arrays. -/
theorem k_arr_fn (c : Dev nD) :
    (dat0 (F := Ideal) V c).arrAt 5 cfg0.N = projArr (V c main_arg0) (V c main_v3) (Ideal.ofBits .f32 0x3C23D70A#32) :=
  (dat0 (F := Ideal) V c).arrAt_eq_of_cover 5 (projArr (V c main_arg0) (V c main_v3) (Ideal.ofBits .f32 0x3C23D70A#32))
    (fun t _ => flushed5 V c t) covered5

/-- The same entry by entry, the arrays read as functions of their coordinates. -/
theorem k_arr (c : Dev nD) (b : Fin 4) (s : Fin 4096) (f : Fin 256) :
    (dat0 (F := Ideal) V c).arrAt 5 cfg0.N (ix3 b s f)
      = (∑ e : Fin 256, rd3 (V c (Pipeline.arrRef spec0 0)) b s e * rd2 (V c (Pipeline.arrRef spec0 2)) e f) * Ideal.ofBits .f32 0x3C23D70A#32 :=
  congrFun (k_arr_fn V c) (ix3 b s f)

/-! ## The `v` output (window 6, from the weight window 3) -/

/-- What point `t` writes back is its block of the projection of the entry arrays. -/
theorem flushed6 (c : Dev nD) (t : Fin cfg0.N) :
    (dat0 (F := Ideal) V c).flushed 6 t
      = ((cfg0.win 6).blk t).view.read (Elt Ideal) (projArr (V c main_arg0) (V c main_v5) (Ideal.ofBits .f32 0x3DCCCCCD#32)) := by
  show (cfg0.win 6).cut (grid0.coords t) ((dat0 V c).after 6 t) = _
  rw [after0_6]
  unfold out0_6
  rw [View.canon_unit_zero zeros3]
  simp only [View.ld_unit_zero (S := S1x1024x256) zeros3, View.ld_unit_zero (S := S256x256) zeros2]
  obtain ⟨⟨x0, x1, x2⟩, ⟨q0, q1, q2⟩, ⟨k0, k1, k2⟩, ⟨v0, v1, v2⟩, ⟨a0, a1⟩, ⟨b0, b1⟩, ⟨c0, c1⟩⟩ := block_index t
  funext j
  refine (pay4_at (iblk0 V c 0 t) (iblk0 V c 3 t) j).trans ?_
  refine congrArg (· * Ideal.ofBits .f32 0x3DCCCCCD#32) (Finset.sum_congr rfl fun e _ => ?_)
  refine congrArg₂ (· * ·) ?_ ?_
  · show V c main_arg0 (((cfg0.win 0).blk t).view.emb (ix3 (j 0) (j 1) e))
      = V c main_arg0 (ix3 (((cfg0.win 6).blk t).view.emb j 0) (((cfg0.win 6).blk t).view.emb j 1) e)
    refine congrArg (V c main_arg0) (funext fun a => Fin.ext ?_)
    match a with
    | ⟨0, _⟩ => show win0_0.index t (0 : Fin 3) * 1 + 1 * (j 0).val = win0_6.index t (0 : Fin 3) * 1 + 1 * (j 0).val; omega
    | ⟨1, _⟩ => show win0_0.index t (1 : Fin 3) * 1024 + 1 * (j 1).val = win0_6.index t (1 : Fin 3) * 1024 + 1 * (j 1).val; omega
    | ⟨2, _⟩ => show win0_0.index t (2 : Fin 3) * 256 + 1 * e.val = e.val; omega
  · show V c main_v5 (((cfg0.win 3).blk t).view.emb (ix2 e (j 2)))
      = V c main_v5 (ix2 e (((cfg0.win 6).blk t).view.emb j 2))
    refine congrArg (V c main_v5) (funext fun a => Fin.ext ?_)
    match a with
    | ⟨0, _⟩ => show win0_3.index t (0 : Fin 2) * 256 + 1 * e.val = e.val; omega
    | ⟨1, _⟩ => show win0_3.index t (1 : Fin 2) * 256 + 1 * (j 2).val = win0_6.index t (2 : Fin 3) * 256 + 1 * (j 2).val; omega

/-- An index of the array lies in point `t`'s block iff each coordinate lies in the block's range on its axis. -/
theorem mem_block6 (t : Fin cfg0.N) (i : S4x4096x256.Idx) :
    i ∈ ((cfg0.win 6).blk t).view.set ↔ ∀ a : Fin 3, win0_6.index t a * S1x1024x256.size a ≤ (i a).val ∧ (i a).val < win0_6.index t a * S1x1024x256.size a + S1x1024x256.size a := by
  show i ∈ ((View.whole main_v8_2).slice (win0_6.rect t)).set ↔ _
  rw [View.set_slice_whole, Rect.mem_set_unit]
  exact Iff.rfl

/-- Every index of the array lies in the block some point writes back: row `s` of batch `b` in that of point `4·b + s / 1024`. -/
theorem covered6 (i : S4x4096x256.Idx) : ∃ t : Fin cfg0.N, (cfg0.win 6).flush t = true ∧ i ∈ ((cfg0.win 6).blk t).view.set := by
  have h0 : (i 0).val < 4 := (i 0).isLt
  have h1 : (i 1).val < 4096 := (i 1).isLt
  have h2 : (i 2).val < 256 := (i 2).isLt
  have hN : cfg0.N = 16 := N_0
  refine ⟨⟨4 * (i 0).val + (i 1).val / 1024, by rw [hN]; omega⟩, flush0_6 _, ?_⟩
  rw [mem_block6]
  obtain ⟨-, ⟨q0, q1, q2⟩, ⟨k0, k1, k2⟩, ⟨v0, v1, v2⟩, -⟩ := block_index ⟨4 * (i 0).val + (i 1).val / 1024, by rw [hN]; omega⟩
  intro a
  match a with
  | ⟨0, _⟩ => show win0_6.index _ (0 : Fin 3) * 1 ≤ (i 0).val ∧ (i 0).val < win0_6.index _ (0 : Fin 3) * 1 + 1; rw [v0]; show (4 * (i 0).val + (i 1).val / 1024) / 4 * 1 ≤ _ ∧ _ < (4 * (i 0).val + (i 1).val / 1024) / 4 * 1 + 1; omega
  | ⟨1, _⟩ => show win0_6.index _ (1 : Fin 3) * 1024 ≤ (i 1).val ∧ (i 1).val < win0_6.index _ (1 : Fin 3) * 1024 + 1024; rw [v1]; show (4 * (i 0).val + (i 1).val / 1024) % 4 * 1024 ≤ _ ∧ _ < (4 * (i 0).val + (i 1).val / 1024) % 4 * 1024 + 1024; omega
  | ⟨2, _⟩ => show win0_6.index _ (2 : Fin 3) * 256 ≤ (i 2).val ∧ (i 2).val < win0_6.index _ (2 : Fin 3) * 256 + 256; rw [v2]; omega

/-- The `v` array after the call: the projection of the entry arrays. -/
theorem v_arr_fn (c : Dev nD) :
    (dat0 (F := Ideal) V c).arrAt 6 cfg0.N = projArr (V c main_arg0) (V c main_v5) (Ideal.ofBits .f32 0x3DCCCCCD#32) :=
  (dat0 (F := Ideal) V c).arrAt_eq_of_cover 6 (projArr (V c main_arg0) (V c main_v5) (Ideal.ofBits .f32 0x3DCCCCCD#32))
    (fun t _ => flushed6 V c t) covered6

/-- The same entry by entry, the arrays read as functions of their coordinates. -/
theorem v_arr (c : Dev nD) (b : Fin 4) (s : Fin 4096) (f : Fin 256) :
    (dat0 (F := Ideal) V c).arrAt 6 cfg0.N (ix3 b s f)
      = (∑ e : Fin 256, rd3 (V c (Pipeline.arrRef spec0 0)) b s e * rd2 (V c (Pipeline.arrRef spec0 3)) e f) * Ideal.ofBits .f32 0x3DCCCCCD#32 :=
  congrFun (v_arr_fn V c) (ix3 b s f)

end Arrays

end Cert.KernelIdeal.Hand

end
-- ==== Proof.HostW.lean ====
/-
  What the eight host operations before the two kernel regions leave in the weight buffers, read at an index.

  Each weight matrix W : [256, 256] (f32) is transposed and then narrowed to bf16.  Over the extended reals a
  narrowing is the identity, so the narrowed transpose holds, at (e, f), the launch contents of W at (f, e).
  The activations' buffer is written by none of the eight operations and keeps its launch contents.
-/
import proofs.«112663_j7679401525969_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostW

open Cert.KernelIdeal Cert.KernelIdeal.Gen Idealize.ShloMosaic Idealize.ShloMosaic.TcCoe
open Idealize.ShloMosaic.StableHlo

variable (m : (ℓ : Loc nD τ sig) → Buf (Elt Ideal) ℓ) (c : Dev nD)

/-- The narrowed transpose of the query weight as a term over the launch contents. -/
theorem v1_eq :
    (StableHlo.after (hostOps0 (F := Ideal)) (fun b => m (c, b)) (Proc.devRef .tc main_v1) : FVec Ideal S256x256 .bf16)
      = truncf (F := Ideal) .bf16 (transpose S256x256 [1, 0] (m ((c : Thread nD τ).loc main_arg1) : FVec Ideal S256x256 .f32) transposes_S256x256_S256x256_1_0) bitsLt_bf16_f32 := by
  after_results

/-- The narrowed transpose of the query weight, at (e, f), is the launch contents of the weight at (f, e). -/
theorem wqT_apply (e f : Fin 256) :
    (StableHlo.after (hostOps0 (F := Ideal)) (fun b => m (c, b)) (Proc.devRef .tc main_v1) : FVec Ideal S256x256 .bf16) (ValueIdx.ix2 e f)
      = (m ((c : Thread nD τ).loc main_arg1) : FVec Ideal S256x256 .f32) (ValueIdx.ix2 f e) := by
  rw [v1_eq]
  exact ValueIdx.transpose_ix2_apply (m ((c : Thread nD τ).loc main_arg1) : FVec Ideal S256x256 .f32) transposes_S256x256_S256x256_1_0 e f

/-- The narrowed transpose of the key weight as a term over the launch contents. -/
theorem v3_eq :
    (StableHlo.after (hostOps0 (F := Ideal)) (fun b => m (c, b)) (Proc.devRef .tc main_v3) : FVec Ideal S256x256 .bf16)
      = truncf (F := Ideal) .bf16 (transpose S256x256 [1, 0] (m ((c : Thread nD τ).loc main_arg2) : FVec Ideal S256x256 .f32) transposes_S256x256_S256x256_1_0) bitsLt_bf16_f32 := by
  after_results

/-- The narrowed transpose of the key weight, at (e, f), is the launch contents of the weight at (f, e). -/
theorem wkT_apply (e f : Fin 256) :
    (StableHlo.after (hostOps0 (F := Ideal)) (fun b => m (c, b)) (Proc.devRef .tc main_v3) : FVec Ideal S256x256 .bf16) (ValueIdx.ix2 e f)
      = (m ((c : Thread nD τ).loc main_arg2) : FVec Ideal S256x256 .f32) (ValueIdx.ix2 f e) := by
  rw [v3_eq]
  exact ValueIdx.transpose_ix2_apply (m ((c : Thread nD τ).loc main_arg2) : FVec Ideal S256x256 .f32) transposes_S256x256_S256x256_1_0 e f

/-- The narrowed transpose of the value weight as a term over the launch contents. -/
theorem v5_eq :
    (StableHlo.after (hostOps0 (F := Ideal)) (fun b => m (c, b)) (Proc.devRef .tc main_v5) : FVec Ideal S256x256 .bf16)
      = truncf (F := Ideal) .bf16 (transpose S256x256 [1, 0] (m ((c : Thread nD τ).loc main_arg3) : FVec Ideal S256x256 .f32) transposes_S256x256_S256x256_1_0) bitsLt_bf16_f32 := by
  after_results

/-- The narrowed transpose of the value weight, at (e, f), is the launch contents of the weight at (f, e). -/
theorem wvT_apply (e f : Fin 256) :
    (StableHlo.after (hostOps0 (F := Ideal)) (fun b => m (c, b)) (Proc.devRef .tc main_v5) : FVec Ideal S256x256 .bf16) (ValueIdx.ix2 e f)
      = (m ((c : Thread nD τ).loc main_arg3) : FVec Ideal S256x256 .f32) (ValueIdx.ix2 f e) := by
  rw [v5_eq]
  exact ValueIdx.transpose_ix2_apply (m ((c : Thread nD τ).loc main_arg3) : FVec Ideal S256x256 .f32) transposes_S256x256_S256x256_1_0 e f

/-- The narrowed transpose of the output weight as a term over the launch contents. -/
theorem v7_eq :
    (StableHlo.after (hostOps0 (F := Ideal)) (fun b => m (c, b)) (Proc.devRef .tc main_v7) : FVec Ideal S256x256 .bf16)
      = truncf (F := Ideal) .bf16 (transpose S256x256 [1, 0] (m ((c : Thread nD τ).loc main_arg4) : FVec Ideal S256x256 .f32) transposes_S256x256_S256x256_1_0) bitsLt_bf16_f32 := by
  after_results

/-- The narrowed transpose of the output weight, at (e, f), is the launch contents of the weight at (f, e). -/
theorem woT_apply (e f : Fin 256) :
    (StableHlo.after (hostOps0 (F := Ideal)) (fun b => m (c, b)) (Proc.devRef .tc main_v7) : FVec Ideal S256x256 .bf16) (ValueIdx.ix2 e f)
      = (m ((c : Thread nD τ).loc main_arg4) : FVec Ideal S256x256 .f32) (ValueIdx.ix2 f e) := by
  rw [v7_eq]
  exact ValueIdx.transpose_ix2_apply (m ((c : Thread nD τ).loc main_arg4) : FVec Ideal S256x256 .f32) transposes_S256x256_S256x256_1_0 e f

/-- None of the eight operations writes the activations' buffer. -/
theorem x_kept :
    StableHlo.after (hostOps0 (F := Ideal)) (fun b => m (c, b)) (Proc.devRef .tc main_arg0) = m ((c : Thread nD τ).loc main_arg0) := by
  after_results

end Cert.KernelIdeal.HostW

end
-- ==== Proof.Entry.lean ====
/-
  What the attention call finds in its windows' arrays, in terms of the launch memory.

  The projection call leaves, in each of its three output arrays, the projection of the activations by the
  narrowed transpose of one weight matrix, scaled; the host stretch before it leaves the activations as launched
  and each narrowed transpose holding, at (e, f), the launch contents of the weight at (f, e).  So the attention
  call's query, key and value arrays are the specification's projections of the launch contents, and its weight
  array is the output weight transposed.
-/
import proofs.«112663_j7679401525969_2_alg».proof.Proof.KI.Run
import proofs.«112663_j7679401525969_2_alg».proof.Proof.Val0
import proofs.«112663_j7679401525969_2_alg».proof.Proof.HostW
import proofs.«112663_j7679401525969_2_alg».proof.Proof.Spec
import proofs.«112663_j7679401525969_2_alg».proof.Proof.Bridge1

noncomputable section

namespace Cert.KernelIdeal.Entry

open Cert.KernelIdeal Cert.KernelIdeal.Gen Cert.KernelIdeal.Hand
open Idealize.ShloMosaic Idealize.ShloMosaic.TcCoe Idealize.ShloMosaic.ValueIdx
open Cert.ReferenceIdeal.RefValue (c01 c1)
open Cert.Bridge (X WQ WK WV WO)

variable (m : (ℓ : Loc nD τ sig) → Buf (Elt Ideal) ℓ) (c : Dev nD)

/-! ## After the host stretch -/

/-- The activations' buffer is as launched. -/
theorem x1 (b : Fin 4) (s : Fin 4096) (e : Fin 256) : rd3 (U1 m c main_arg0) b s e = X m c b s e :=
  congrFun (HostW.x_kept m c) (ix3 b s e)
/-- Each narrowed transpose holds, at (e, f), the launch contents of its weight at (f, e). -/
theorem wq1 (e f : Fin 256) : rd2 (U1 m c main_v1) e f = WQ m c f e := HostW.wqT_apply m c e f
theorem wk1 (e f : Fin 256) : rd2 (U1 m c main_v3) e f = WK m c f e := HostW.wkT_apply m c e f
theorem wv1 (e f : Fin 256) : rd2 (U1 m c main_v5) e f = WV m c f e := HostW.wvT_apply m c e f
theorem wo1 (e f : Fin 256) : rd2 (U1 m c main_v7) e f = WO m c f e := HostW.woT_apply m c e f

/-! ## After the projection call -/

/-- The attention call's query array is the query projection of the launch contents. -/
theorem q_entry (b : Fin 4) (s : Fin 4096) (f : Fin 256) :
    U2 m c (Pipeline.arrRef spec1 0) (ix3 b s f) = Cert.Spec.proj (X m c) (WQ m c) c01 b s f := by
  have e1 : (U2 m c (Pipeline.arrRef spec1 0) : S4x4096x256.Idx → EReal) = (dat0 (F := Ideal) (U1 m) c).arrAt 4 cfg0.N := B2_arr m c 4
  refine (congrFun e1 (ix3 b s f)).trans ((q_arr (U1 m) c b s f).trans ?_)
  show (∑ e : Fin 256, rd3 (U1 m c main_arg0) b s e * rd2 (U1 m c main_v1) e f) * c01 = (∑ e : Fin 256, X m c b s e * WQ m c f e) * c01
  exact congrArg (· * c01) (Finset.sum_congr rfl fun e _ => by rw [x1, wq1])

/-- Its key array is the key projection. -/
theorem k_entry (b : Fin 4) (s : Fin 4096) (f : Fin 256) :
    U2 m c (Pipeline.arrRef spec1 1) (ix3 b s f) = Cert.Spec.proj (X m c) (WK m c) c01 b s f := by
  have e1 : (U2 m c (Pipeline.arrRef spec1 1) : S4x4096x256.Idx → EReal) = (dat0 (F := Ideal) (U1 m) c).arrAt 5 cfg0.N := B2_arr m c 5
  refine (congrFun e1 (ix3 b s f)).trans ((k_arr (U1 m) c b s f).trans ?_)
  show (∑ e : Fin 256, rd3 (U1 m c main_arg0) b s e * rd2 (U1 m c main_v3) e f) * c01 = (∑ e : Fin 256, X m c b s e * WK m c f e) * c01
  exact congrArg (· * c01) (Finset.sum_congr rfl fun e _ => by rw [x1, wk1])

/-- Its value array is the value projection. -/
theorem v_entry (b : Fin 4) (s : Fin 4096) (f : Fin 256) :
    U2 m c (Pipeline.arrRef spec1 2) (ix3 b s f) = Cert.Spec.proj (X m c) (WV m c) c1 b s f := by
  have e1 : (U2 m c (Pipeline.arrRef spec1 2) : S4x4096x256.Idx → EReal) = (dat0 (F := Ideal) (U1 m) c).arrAt 6 cfg0.N := B2_arr m c 6
  refine (congrFun e1 (ix3 b s f)).trans ((v_arr (U1 m) c b s f).trans ?_)
  show (∑ e : Fin 256, rd3 (U1 m c main_arg0) b s e * rd2 (U1 m c main_v5) e f) * c1 = (∑ e : Fin 256, X m c b s e * WV m c f e) * c1
  exact congrArg (· * c1) (Finset.sum_congr rfl fun e _ => by rw [x1, wv1])

/-- Its weight array is the output weight transposed: entry (f, g) is the launch contents at (g, f). -/
theorem wo_entry (f g : Fin 256) :
    U2 m c (Pipeline.arrRef spec1 3) (ix2 f g) = WO m c g f := by
  have e1 : (U2 m c (Pipeline.arrRef spec1 3) : S256x256.Idx → EReal) = U1 m c main_v7 := B2_of_ne m c main_v7 (by decide)
  exact (congrFun e1 (ix2 f g)).trans (wo1 m c f g)

end Cert.KernelIdeal.Entry

end
-- ==== Proof.Bridge2.lean ====
/-
  The algebraic claim.  The kernel program's run ends with its result array at what the second call's
  write-backs leave; read entry by entry that is the kernel's arrangement `K` of the launch arrays (the first
  call's three output arrays are the projections, the transposed weights are the weights read across), which
  under the precondition is the reference's `G`; the reference's run ends at `G` of its own arguments, which
  agree with the kernel's.
-/
import proofs.«112663_j7679401525969_2_alg».proof.Proof.Bridge1
import proofs.«112663_j7679401525969_2_alg».proof.Proof.KI.Run
import proofs.«112663_j7679401525969_2_alg».proof.Proof.Val1acc
import proofs.«112663_j7679401525969_2_alg».proof.Proof.Val1c
import proofs.«112663_j7679401525969_2_alg».proof.Proof.Gen.Pre_finite_inputs
import proofs.«112663_j7679401525969_2_alg».proof.Proof.Entry
import proofs.«112663_j7679401525969_2_alg».proof.Proof.Gen.ReferenceIdeal.Run

noncomputable section

namespace Cert.Bridge

open Idealize.ShloMosaic Idealize.ShloMosaic.TcCoe Idealize.SL.Sem Idealize.ShloMosaic.ValueIdx
open Cert.KernelIdeal Cert.KernelIdeal.Gen Cert.KernelIdeal.Hand Cert.KernelIdeal.Entry
open Cert.ReferenceIdeal.RefValue (c01 c1)

/-- The second call's output array, as a whole, is the reference's specification of the launch arrays. -/
theorem kernel_out (m : (ℓ : Loc nD τ sig) → Buf (Elt Ideal) ℓ) (h : Cert.Pre_KernelIdeal m) (c : Dev nD) :
    ((dat1 (F := Ideal) (U2 m) c).arrAt 4 cfg1.N : S4x4096x256.Idx → EReal)
      = fun i => Cert.Spec.G c01 c1 (X m c) (WQ m c) (WK m c) (WV m c) (WO m c) (i 0) (i 1) (i 2) := by
  funext i
  obtain ⟨b, s, g, rfl⟩ : ∃ (b : Fin 4) (s : Fin 4096) (g : Fin 256), i = ix3 b s g := ⟨i 0, i 1, i 2, eq_ix3 i⟩
  have hq : ((fun b s f => U2 m c (Pipeline.arrRef spec1 0) (ix3 b s f)) : Cert.Spec.A3) = Cert.Spec.proj (X m c) (WQ m c) c01 :=
    funext fun b => funext fun s => funext fun f => q_entry m c b s f
  have hk : ((fun b t f => U2 m c (Pipeline.arrRef spec1 1) (ix3 b t f)) : Cert.Spec.A3) = Cert.Spec.proj (X m c) (WK m c) c01 :=
    funext fun b => funext fun s => funext fun f => k_entry m c b s f
  have hv : ((fun b t f => U2 m c (Pipeline.arrRef spec1 2) (ix3 b t f)) : Cert.Spec.A3) = Cert.Spec.proj (X m c) (WV m c) c1 :=
    funext fun b => funext fun s => funext fun f => v_entry m c b s f
  have ho : ((fun f g => U2 m c (Pipeline.arrRef spec1 3) (ix2 f g)) : Cert.Spec.M2) = (fun f g => WO m c g f) :=
    funext fun f => funext fun g => wo_entry m c f g
  refine (out_arr_of (U2 m) c
    (Cert.Spec.KQ c01 c1 (fun b s f => U2 m c (Pipeline.arrRef spec1 0) (ix3 b s f)) (fun b t f => U2 m c (Pipeline.arrRef spec1 1) (ix3 b t f))
      (fun b t f => U2 m c (Pipeline.arrRef spec1 2) (ix3 b t f)) (fun f g => U2 m c (Pipeline.arrRef spec1 3) (ix2 f g)))
    (fun t h3 r g => outAt_apply (U2 m) c t h3 r g) b s g).trans ?_
  rw [hq, hk, hv, ho, ← Cert.Spec.K_eq_KQ, K_eq_G_of_pre m c h]
  rfl

theorem algebraic : Cert.algebraic_KernelIdeal_ReferenceIdeal := by
  intro m ρ m' ρ' hpre hagree
  refine ⟨fun c => fun i => Cert.Spec.G c01 c1 (X m c) (WQ m c) (WK m c) (WV m c) (WO m c) (i 0) (i 1) (i 2), ?_, ?_⟩
  · exact (θ_run Cert.KernelIdeal.defs _ _).mono (fun r h c => ⟨(h c).1.trans (kernel_out m hpre c), (h c).2⟩)
      (Cert.KernelIdeal.Hand.run_result m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.RefValue.ref_term_eq _ _ _ _ _

end Cert.Bridge

end
-- ==== Proof.lean ====
/-
  The certificate.  Five claims about three programs — the kernel program as printed (read at the bit-exact
  instance), the same program read on the extended reals, and the reference on the extended reals:

  * each of the three runs to the end, faults nowhere, and leaves its five argument arrays unchanged;
  * the idealized kernel program is the kernel program's own text (the ideal pass rewrote nothing);
  * from memories agreeing on the arguments, and under the precondition that every input entry is finite, the
    idealized kernel program and the idealized reference end with equal result arrays.

  The kernel program is a host stretch (four weight matrices transposed), a projection call that writes
  `q`, `k`, `v` tile by tile, and an attention call that, for each (batch, query tile), runs over the four
  key tiles with an accumulator kept between grid points.  Its frame is the composition of the three segments;
  its result, read entry by entry, is the same sum as the reference's, arranged by key tile and with the
  activation factored; the two arrangements agree on real numbers.
-/
import proofs.«112663_j7679401525969_2_alg».proof.Defs
import proofs.«112663_j7679401525969_2_alg».proof.Proof.Gen.Kernel
import proofs.«112663_j7679401525969_2_alg».proof.Proof.Gen.KernelIdeal
import proofs.«112663_j7679401525969_2_alg».proof.Proof.Gen.ReferenceIdeal
import proofs.«112663_j7679401525969_2_alg».proof.Proof.Gen.ReferenceIdeal.Run
import proofs.«112663_j7679401525969_2_alg».proof.Proof.Gen.Pre_finite_inputs
import proofs.«112663_j7679401525969_2_alg».proof.Proof.K.Run
import proofs.«112663_j7679401525969_2_alg».proof.Proof.KI.Run
import proofs.«112663_j7679401525969_2_alg».proof.Proof.Bridge2
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    fun m ρ _ => (θ_run Cert.ReferenceIdeal.defs _ _).mono (fun _ h c => (h c).2) (Cert.ReferenceIdeal.Value.run (F := Ideal) m ρ),
    trivial,
    Cert.Bridge.algebraic⟩

end Cert.Proof

end
